-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x128 : Shape := ⟨2, ![131072, 128]⟩
abbrev S_ : Shape := ⟨0, ![]⟩

class Facts : Prop where
  bcast_S_S131072x128 : S_.BroadcastsInDim S131072x128 (![] : Fin 0 → Fin S131072x128.rank)
  reducesTo_S131072x128_S_d0_1 : S131072x128.ReducesTo [0, 1] S_
  h_S_ : 0 < S_.numel

variable [Facts]

def fn {F : FTy → Type} [FloatOps F] (main_arg0 : FVec F S131072x128 .f32) (main_arg1 : FVec F S131072x128 .f32) : IVec S_ 1 :=
  let main_v0 : FVec F S131072x128 .f32 := Host.absf main_arg0
  let main_cst : FVec F S_ .f32 := constant S_ .f32 0x7F800000#32
  let main_v1 : FVec F S131072x128 .f32 := broadcastInDim S131072x128 ![] bcast_S_S131072x128 main_cst
  let main_v2 : IVec S131072x128 1 := cmpf .olt main_v0 main_v1
  let main_c : IVec S_ 1 := constantI S_ 1 1#1
  let main_v3 : IVec S_ 1 := (fun x v => Host.reduce IntOp.andi x v reducesTo_S131072x128_S_d0_1 h_S_) main_v2 main_c
  let main_v4 : FVec F S131072x128 .f32 := Host.absf main_arg1
  let main_cst_0 : FVec F S_ .f32 := constant S_ .f32 0x7F800000#32
  let main_v5 : FVec F S131072x128 .f32 := broadcastInDim S131072x128 ![] bcast_S_S131072x128 main_cst_0
  let main_v6 : IVec S131072x128 1 := cmpf .olt main_v4 main_v5
  let main_c_1 : IVec S_ 1 := constantI S_ 1 1#1
  let main_v7 : IVec S_ 1 := (fun x v => Host.reduce IntOp.andi x v reducesTo_S131072x128_S_d0_1 h_S_) main_v6 main_c_1
  let main_v8 : IVec S_ 1 := andi main_v3 main_v7
  main_v8
-- ==== Kernel.lean ====
abbrev S131072x128 : Shape := ⟨2, ![131072, 128]⟩
abbrev S16x128 : Shape := ⟨2, ![16, 128]⟩
abbrev S4096x128 : Shape := ⟨2, ![4096, 128]⟩
abbrev S8x128 : Shape := ⟨2, ![8, 128]⟩
abbrev S1x1 : Shape := ⟨2, ![1, 1]⟩
abbrev S4096 : Shape := ⟨1, ![4096]⟩
abbrev S4096x1 : Shape := ⟨2, ![4096, 1]⟩
abbrev S1 : Shape := ⟨1, ![1]⟩
abbrev S_ : Shape := ⟨0, ![]⟩

abbrev nBuf : Space → Nat
  | .hbm => 6
  | .vmem => 7
  | .smem => 0
  | _ => 0

abbrev bufTy : (tb : Table) → Fin (tcTables nBuf tb) → BufTy
  | .hbm, ⟨0, _⟩ => ⟨S131072x128, .f32⟩
  | .hbm, ⟨1, _⟩ => ⟨S131072x128, .f32⟩
  | .hbm, ⟨2, _⟩ => ⟨S16x128, .f32⟩
  | .hbm, ⟨3, _⟩ => ⟨S_, .f32⟩
  | .hbm, ⟨4, _⟩ => ⟨S_, .f32⟩
  | .hbm, ⟨5, _⟩ => ⟨S1, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S8x128, .f32⟩
  | .local _ .vmem, ⟨5, _⟩ => ⟨S8x128, .f32⟩
  | .local _ .vmem, ⟨6, _⟩ => ⟨S1x1, .f32⟩
  | _, _ => ⟨S131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v90 : BitVec 1 := Scalar.cmpi .eq arg1 c15_i32
  let v91 : BitVec 32 := Scalar.extui v90
  let c0_i32_32 : BitVec 32 := 0#32
  let v92 : BitVec 1 := Scalar.cmpi .ne v91 c0_i32_32
  v92

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S4096x128_S4096x128_0_0 : ∀ a, (![0, 0] : Fin 2 → Nat) a + S4096x128.size a ≤ S4096x128.size a
  h_S4096x128 : 0 < S4096x128.numel
  reduces_S4096x128_S4096 : S4096x128.Reduces [1] S4096
  shapeCasts_S4096_S4096x1 : S4096.ShapeCasts S4096x1
  broadcasts_S4096x1_S4096x128 : S4096x1.Broadcasts S4096x128
  reduces_S4096x1_S1 : S4096x1.Reduces [0] S1
  shapeCasts_S1_S1x1 : S1.ShapeCasts S1x1
  iota_S8x128_d0_w32 : S8x128.Iotas .tc 32 [0]
  iota_S8x128_d1_w32 : S8x128.Iotas .tc 32 [1]
  inpos_S1x1_p0_0 : ∀ a, (![0, 0] : Fin 2 → Nat) a < S1x1.size a
  inb_S8x128_S8x128_0_0 : ∀ a, (![0, 0] : Fin 2 → Nat) a + S8x128.size a ≤ S8x128.size a
  h_S8x128 : 0 < S8x128.numel
  reducesTo_S16x128_S_d0_1 : S16x128.ReducesTo [0, 1] S_
  h_S_ : 0 < S_.numel
  shapeCasts_S_S1 : S_.ShapeCasts S1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S131072x128.size a
  hwx0_0 : ∀ i : grid0.Coords, EltTy.bits .f32 = 32 ∨ (Rect.block (s := S131072x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S131072x128.size a
  hwx0_1 : ∀ i : grid0.Coords, EltTy.bits .f32 = 32 ∨ (Rect.block (s := S131072x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)

variable [Facts₀]

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S131072x128 : Shape := ⟨2, ![131072, 128]⟩
abbrev S_ : Shape := ⟨0, ![]⟩
abbrev S131072 : Shape := ⟨1, ![131072]⟩
abbrev S131072x1 : Shape := ⟨2, ![131072, 1]⟩
abbrev S1 : Shape := ⟨1, ![1]⟩

abbrev nBuf : Space → Nat
  | .hbm => 141
  | .vmem => 0
  | .smem => 0
  | _ => 0

abbrev hbmTy0_0 (i : Nat) : BufTy := match i % 128 with
  | 0 => ⟨S131072x128, .f32⟩
  | 1 => ⟨S131072x128, .f32⟩
  | 2 => ⟨S_, .f32⟩
  | 3 => ⟨S131072, .f32⟩
  | 4 => ⟨S131072x1, .f32⟩
  | 5 => ⟨S_, .f32⟩
  | 6 => ⟨S131072x1, .f32⟩
  | 7 => ⟨S131072x1, .f32⟩
  | 8 => ⟨S_, .f32⟩
  | 9 => ⟨S131072x1, .f32⟩
  | 10 => ⟨S131072x1, .f32⟩
  | 11 => ⟨S_, .f32⟩
  | 12 => ⟨S131072, .f32⟩
  | 13 => ⟨S131072x1, .f32⟩
  | 14 => ⟨S_, .f32⟩
  | 15 => ⟨S131072x1, .f32⟩
  | 16 => ⟨S131072x1, .f32⟩
  | 17 => ⟨S_, .f32⟩
  | 18 => ⟨S131072x1, .f32⟩
  | 19 => ⟨S131072x1, .f32⟩
  | 20 => ⟨S_, .i32⟩
  | 21 => ⟨S_, .f32⟩
  | 22 => ⟨S131072, .f32⟩
  | 23 => ⟨S131072x1, .f32⟩
  | 24 => ⟨S_, .f32⟩
  | 25 => ⟨S131072x1, .f32⟩
  | 26 => ⟨S131072x1, .f32⟩
  | 27 => ⟨S131072x128, .f32⟩
  | 28 => ⟨S131072x128, .f32⟩
  | 29 => ⟨S131072x128, .f32⟩
  | 30 => ⟨S_, .f32⟩
  | 31 => ⟨S_, .f32⟩
  | 32 => ⟨S_, .f32⟩
  | 33 => ⟨S_, .f32⟩
  | 34 => ⟨S131072, .f32⟩
  | 35 => ⟨S131072, .f32⟩
  | 36 => ⟨S131072, .f32⟩
  | 37 => ⟨S_, .f32⟩
  | 38 => ⟨S_, .i1⟩
  | 39 => ⟨S_, .f32⟩
  | 40 => ⟨S_, .f32⟩
  | 41 => ⟨S131072, .f32⟩
  | 42 => ⟨S131072, .f32⟩
  | 43 => ⟨S131072, .f32⟩
  | 44 => ⟨S_, .i32⟩
  | 45 => ⟨S_, .f32⟩
  | 46 => ⟨S131072, .f32⟩
  | 47 => ⟨S131072x1, .f32⟩
  | 48 => ⟨S_, .f32⟩
  | 49 => ⟨S131072x1, .f32⟩
  | 50 => ⟨S131072x1, .f32⟩
  | 51 => ⟨S131072x128, .f32⟩
  | 52 => ⟨S131072x128, .f32⟩
  | 53 => ⟨S131072x128, .f32⟩
  | 54 => ⟨S_, .f32⟩
  | 55 => ⟨S_, .f32⟩
  | 56 => ⟨S_, .f32⟩
  | 57 => ⟨S_, .f32⟩
  | 58 => ⟨S131072, .f32⟩
  | 59 => ⟨S131072, .f32⟩
  | 60 => ⟨S131072, .f32⟩
  | 61 => ⟨S_, .f32⟩
  | 62 => ⟨S_, .i1⟩
  | 63 => ⟨S_, .f32⟩
  | 64 => ⟨S_, .f32⟩
  | 65 => ⟨S131072, .f32⟩
  | 66 => ⟨S131072, .f32⟩
  | 67 => ⟨S131072, .f32⟩
  | 68 => ⟨S131072x128, .f32⟩
  | 69 => ⟨S131072x128, .f32⟩
  | 70 => ⟨S131072x128, .f32⟩
  | 71 => ⟨S131072x128, .f32⟩
  | 72 => ⟨S131072x128, .f32⟩
  | 73 => ⟨S_, .f32⟩
  | 74 => ⟨S131072, .f32⟩
  | 75 => ⟨S_, .f32⟩
  | 76 => ⟨S131072, .f32⟩
  | 77 => ⟨S131072, .f32⟩
  | 78 => ⟨S131072, .f32⟩
  | 79 => ⟨S_, .f32⟩
  | 80 => ⟨S131072, .f32⟩
  | 81 => ⟨S131072, .f32⟩
  | 82 => ⟨S131072, .f32⟩
  | 83 => ⟨S131072, .f32⟩
  | 84 => ⟨S131072, .f32⟩
  | 85 => ⟨S_, .f32⟩
  | 86 => ⟨S131072, .f32⟩
  | 87 => ⟨S131072, .f32⟩
  | 88 => ⟨S_, .f32⟩
  | 89 => ⟨S131072, .f32⟩
  | 90 => ⟨S131072, .f32⟩
  | 91 => ⟨S_, .f32⟩
  | 92 => ⟨S131072, .f32⟩
  | 93 => ⟨S131072, .f32⟩
  | 94 => ⟨S131072, .f32⟩
  | 95 => ⟨S131072, .f32⟩
  | 96 => ⟨S_, .f32⟩
  | 97 => ⟨S131072, .f32⟩
  | 98 => ⟨S_, .f32⟩
  | 99 => ⟨S131072, .f32⟩
  | 100 => ⟨S131072, .f32⟩
  | 101 => ⟨S131072x1, .f32⟩
  | 102 => ⟨S131072x128, .f32⟩
  | 103 => ⟨S131072x128, .f32⟩
  | 104 => ⟨S131072x128, .f32⟩
  | 105 => ⟨S_, .f32⟩
  | 106 => ⟨S131072, .f32⟩
  | 107 => ⟨S131072x1, .f32⟩
  | 108 => ⟨S131072x128, .f32⟩
  | 109 => ⟨S131072x128, .f32⟩
  | 110 => ⟨S_, .f32⟩
  | 111 => ⟨S131072, .f32⟩
  | 112 => ⟨S_, .f32⟩
  | 113 => ⟨S131072, .f32⟩
  | 114 => ⟨S131072, .f32⟩
  | 115 => ⟨S131072x1, .f32⟩
  | 116 => ⟨S131072x128, .f32⟩
  | 117 => ⟨S131072x128, .f32⟩
  | 118 => ⟨S131072x128, .f32⟩
  | 119 => ⟨S_, .f32⟩
  | 120 => ⟨S131072, .f32⟩
  | 121 => ⟨S131072x1, .f32⟩
  | 122 => ⟨S131072x128, .f32⟩
  | 123 => ⟨S131072x128, .f32⟩
  | 124 => ⟨S131072x128, .f32⟩
  | 125 => ⟨S131072x128, .f32⟩
  | 126 => ⟨S_, .f32⟩
  | 127 => ⟨S131072, .f32⟩
  | _ => ⟨S131072x128, .f32⟩

abbrev hbmTy0_1 (i : Nat) : BufTy := match i % 128 with
  | 0 => ⟨S_, .f32⟩
  | 1 => ⟨S131072, .f32⟩
  | 2 => ⟨S131072, .f32⟩
  | 3 => ⟨S131072, .f32⟩
  | 4 => ⟨S131072, .f32⟩
  | 5 => ⟨S_, .f32⟩
  | 6 => ⟨S131072, .f32⟩
  | 7 => ⟨S131072, .f32⟩
  | 8 => ⟨S131072, .f32⟩
  | 9 => ⟨S131072, .f32⟩
  | 10 => ⟨S_, .f32⟩
  | 11 => ⟨S_, .f32⟩
  | 12 => ⟨S1, .f32⟩
  | _ => ⟨S131072x128, .f32⟩

abbrev hbmTy (i : Nat) : BufTy := match i / 128 with
  | 0 => hbmTy0_0 i
  | 1 => hbmTy0_1 i
  | _ => ⟨S131072x128, .f32⟩

abbrev bufTy : (tb : Table) → Fin (tcTables nBuf tb) → BufTy
  | .hbm, ⟨i, _⟩ => hbmTy i
  | _, _ => ⟨S131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_v9 : Ref sig .tc := ⟨.hbm, 16, rfl⟩
abbrev main_cst_4 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_cst_0 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_cst_1 : Ref sig .tc := ⟨.hbm, 31, rfl⟩
abbrev main_call0_call0_v8 : Ref sig .tc := ⟨.hbm, 32, rfl⟩
abbrev main_call0_call0_cst_2 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_call0_cst_3 : Ref sig .tc := ⟨.hbm, 37, rfl⟩
abbrev main_call0_call0_v12 : Ref sig .tc := ⟨.hbm, 38, rfl⟩
abbrev main_call0_call0_cst_4 : Ref sig .tc := ⟨.hbm, 39, rfl⟩
abbrev main_call0_call0_call0_v0 : Ref sig .tc := ⟨.hbm, 40, rfl⟩
abbrev main_call0_call0_call0_v1 : Ref sig .tc := ⟨.hbm, 41, rfl⟩
abbrev main_call0_v0 : Ref sig .tc := ⟨.hbm, 42, rfl⟩
abbrev main_v12 : Ref sig .tc := ⟨.hbm, 43, rfl⟩
abbrev main_c_5 : Ref sig .tc := ⟨.hbm, 44, rfl⟩
abbrev main_call1_call0_cst : Ref sig .tc := ⟨.hbm, 45, rfl⟩
abbrev main_call1_call0_v0 : Ref sig .tc := ⟨.hbm, 46, rfl⟩
abbrev main_call1_call0_v1 : Ref sig .tc := ⟨.hbm, 47, rfl⟩
abbrev main_call1_call0_cst_0 : Ref sig .tc := ⟨.hbm, 48, rfl⟩
abbrev main_call1_call0_v2 : Ref sig .tc := ⟨.hbm, 49, rfl⟩
abbrev main_call1_call0_v3 : Ref sig .tc := ⟨.hbm, 50, rfl⟩
abbrev main_call1_call0_v4 : Ref sig .tc := ⟨.hbm, 51, rfl⟩
abbrev main_call1_call0_v5 : Ref sig .tc := ⟨.hbm, 52, rfl⟩
abbrev main_call1_call0_v6 : Ref sig .tc := ⟨.hbm, 53, rfl⟩
abbrev main_call1_call0_v7 : Ref sig .tc := ⟨.hbm, 54, rfl⟩
abbrev main_call1_call0_cst_1 : Ref sig .tc := ⟨.hbm, 55, rfl⟩
abbrev main_call1_call0_v8 : Ref sig .tc := ⟨.hbm, 56, rfl⟩
abbrev main_call1_call0_cst_2 : Ref sig .tc := ⟨.hbm, 57, rfl⟩
abbrev main_call1_call0_v9 : Ref sig .tc := ⟨.hbm, 58, rfl⟩
abbrev main_call1_call0_v10 : Ref sig .tc := ⟨.hbm, 59, rfl⟩
abbrev main_call1_call0_v11 : Ref sig .tc := ⟨.hbm, 60, rfl⟩
abbrev main_call1_call0_cst_3 : Ref sig .tc := ⟨.hbm, 61, rfl⟩
abbrev main_call1_call0_v12 : Ref sig .tc := ⟨.hbm, 62, rfl⟩
abbrev main_call1_call0_cst_4 : Ref sig .tc := ⟨.hbm, 63, rfl⟩
abbrev main_call1_call0_call0_v0 : Ref sig .tc := ⟨.hbm, 64, rfl⟩
abbrev main_call1_call0_call0_v1 : Ref sig .tc := ⟨.hbm, 65, rfl⟩
abbrev main_call1_v0 : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_cst_6 : Ref sig .tc := ⟨.hbm, 73, rfl⟩
abbrev main_v19 : Ref sig .tc := ⟨.hbm, 74, rfl⟩
abbrev main_cst_7 : Ref sig .tc := ⟨.hbm, 75, rfl⟩
abbrev main_v20 : Ref sig .tc := ⟨.hbm, 76, rfl⟩
abbrev main_v21 : Ref sig .tc := ⟨.hbm, 77, rfl⟩
abbrev main_v22 : Ref sig .tc := ⟨.hbm, 78, rfl⟩
abbrev main_cst_8 : Ref sig .tc := ⟨.hbm, 79, rfl⟩
abbrev main_v23 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev main_v27 : Ref sig .tc := ⟨.hbm, 84, rfl⟩
abbrev main_cst_9 : Ref sig .tc := ⟨.hbm, 85, rfl⟩
abbrev main_v28 : Ref sig .tc := ⟨.hbm, 86, rfl⟩
abbrev main_v29 : Ref sig .tc := ⟨.hbm, 87, rfl⟩
abbrev main_cst_10 : Ref sig .tc := ⟨.hbm, 88, rfl⟩
abbrev main_v30 : Ref sig .tc := ⟨.hbm, 89, rfl⟩
abbrev main_v31 : Ref sig .tc := ⟨.hbm, 90, rfl⟩
abbrev main_cst_11 : Ref sig .tc := ⟨.hbm, 91, rfl⟩
abbrev main_v32 : Ref sig .tc := ⟨.hbm, 92, rfl⟩
abbrev main_v33 : Ref sig .tc := ⟨.hbm, 93, rfl⟩
abbrev main_v34 : Ref sig .tc := ⟨.hbm, 94, rfl⟩
abbrev main_v35 : Ref sig .tc := ⟨.hbm, 95, rfl⟩
abbrev main_cst_12 : Ref sig .tc := ⟨.hbm, 96, rfl⟩
abbrev main_v36 : Ref sig .tc := ⟨.hbm, 97, rfl⟩
abbrev main_cst_13 : Ref sig .tc := ⟨.hbm, 98, rfl⟩
abbrev main_v37 : Ref sig .tc := ⟨.hbm, 99, rfl⟩
abbrev main_v38 : Ref sig .tc := ⟨.hbm, 100, rfl⟩
abbrev main_v39 : Ref sig .tc := ⟨.hbm, 101, rfl⟩
abbrev main_v40 : Ref sig .tc := ⟨.hbm, 102, rfl⟩
abbrev main_v41 : Ref sig .tc := ⟨.hbm, 103, rfl⟩
abbrev main_v42 : Ref sig .tc := ⟨.hbm, 104, rfl⟩
abbrev main_cst_14 : Ref sig .tc := ⟨.hbm, 105, rfl⟩
abbrev main_v43 : Ref sig .tc := ⟨.hbm, 106, rfl⟩
abbrev main_v44 : Ref sig .tc := ⟨.hbm, 107, rfl⟩
abbrev main_v45 : Ref sig .tc := ⟨.hbm, 108, rfl⟩
abbrev main_v46 : Ref sig .tc := ⟨.hbm, 109, rfl⟩
abbrev main_cst_15 : Ref sig .tc := ⟨.hbm, 110, rfl⟩
abbrev main_v47 : Ref sig .tc := ⟨.hbm, 111, rfl⟩
abbrev main_cst_16 : Ref sig .tc := ⟨.hbm, 112, rfl⟩
abbrev main_v48 : Ref sig .tc := ⟨.hbm, 113, rfl⟩
abbrev main_v49 : Ref sig .tc := ⟨.hbm, 114, rfl⟩
abbrev main_v50 : Ref sig .tc := ⟨.hbm, 115, rfl⟩
abbrev main_v51 : Ref sig .tc := ⟨.hbm, 116, rfl⟩
abbrev main_v52 : Ref sig .tc := ⟨.hbm, 117, rfl⟩
abbrev main_v53 : Ref sig .tc := ⟨.hbm, 118, rfl⟩
abbrev main_cst_17 : Ref sig .tc := ⟨.hbm, 119, rfl⟩
abbrev main_v54 : Ref sig .tc := ⟨.hbm, 120, rfl⟩
abbrev main_v55 : Ref sig .tc := ⟨.hbm, 121, rfl⟩
abbrev main_v56 : Ref sig .tc := ⟨.hbm, 122, rfl⟩
abbrev main_v57 : Ref sig .tc := ⟨.hbm, 123, rfl⟩
abbrev main_v58 : Ref sig .tc := ⟨.hbm, 124, rfl⟩
abbrev main_v59 : Ref sig .tc := ⟨.hbm, 125, rfl⟩
abbrev main_cst_18 : Ref sig .tc := ⟨.hbm, 126, rfl⟩
abbrev main_v60 : Ref sig .tc := ⟨.hbm, 127, rfl⟩
abbrev main_cst_19 : Ref sig .tc := ⟨.hbm, 128, rfl⟩
abbrev main_v61 : Ref sig .tc := ⟨.hbm, 129, rfl⟩
abbrev main_v62 : Ref sig .tc := ⟨.hbm, 130, rfl⟩
abbrev main_v63 : Ref sig .tc := ⟨.hbm, 131, rfl⟩
abbrev main_v64 : Ref sig .tc := ⟨.hbm, 132, rfl⟩
abbrev main_cst_20 : Ref sig .tc := ⟨.hbm, 133, rfl⟩
abbrev main_v65 : Ref sig .tc := ⟨.hbm, 134, rfl⟩
abbrev main_v66 : Ref sig .tc := ⟨.hbm, 135, rfl⟩
abbrev main_v67 : Ref sig .tc := ⟨.hbm, 136, rfl⟩
abbrev main_v68 : Ref sig .tc := ⟨.hbm, 137, rfl⟩
abbrev main_cst_21 : Ref sig .tc := ⟨.hbm, 138, rfl⟩
abbrev main_v69 : Ref sig .tc := ⟨.hbm, 139, rfl⟩
abbrev main_v70 : Ref sig .tc := ⟨.hbm, 140, rfl⟩

abbrev nD : Nat := 1
abbrev τ : Topo := Topo.v7x

variable {F : FTy → Type} [FloatOps F]

class Facts₀ : Prop where
  reducesTo_S131072x128_S131072_d1 : S131072x128.ReducesTo [1] S131072
  h_S_ : 0 < S_.numel
  bcast_S131072_S131072x1_0 : S131072.BroadcastsInDim S131072x1 (![0] : Fin 1 → Fin S131072x1.rank)
  bcast_S_S131072x1 : S_.BroadcastsInDim S131072x1 (![] : Fin 0 → Fin S131072x1.rank)
  bcast_S131072x1_S131072x128_0_1 : S131072x1.BroadcastsInDim S131072x128 (![0, 1] : Fin 2 → Fin S131072x128.rank)
  bcast_S_S131072 : S_.BroadcastsInDim S131072 (![] : Fin 0 → Fin S131072.rank)
  reducesTo_S131072_S_d0 : S131072.ReducesTo [0] S_
  shapeCasts_S_S1 : S_.ShapeCasts S1

variable [Facts₀]

class Facts : Prop extends Facts₀ where

variable [Facts]
-- ==== Proof.KPieces.lean ====
/-
  What one grid point of the kernel leaves behind, as pure values of the point's two input blocks.

  The body computes from its two [4096, 128] blocks one number, the block's partial loss `part x0 x1` (a [1, 1] value),
  and adds it to the [1, 1] accumulator it carries from point to point. At the first point of a core's sixteen the
  accumulator is first set to zero, so it ends at `0 + part`; at every other point it ends at `previous + part`. At the
  last of the sixteen the body also fills the core's [8, 128] output block from the accumulator just updated. Each of
  these is the body's one covering store read back: the store's payload, with the loads it was computed from read
  through whole buffers.
-/
import proofs.«145982_j28741921145431_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.KValue

open Cert.KernelIdeal Cert.KernelIdeal.Gen

variable {F : FTy → Type} [FloatOps F]

theorem hz : (![0, 0] : Fin 2 → Nat) = fun _ => 0 := funext fun a => by fin_cases a <;> rfl

/-- The partial loss of a block pair: the body's arithmetic on the two loaded blocks, a [1, 1] value. -/
abbrev part (x0 x1 : Vec F S4096x128 .f32) : FVec F S1x1 .f32 := k0_pay8 x0 x1 (k0_pay6 x0 x1) (k0_pay7 x0 x1)

/-- At a first point the accumulator is zeroed, read back, and ends at `zero + part`. -/
theorem acc_first (c : Dev nD) (i : grid0.Coords) (a2 : Memref sig .tc .vmem S4096x128 .f32) (h2 : a2.IsWhole)
    (a3 : Memref sig .tc .vmem S4096x128 .f32) (h3 : a3.IsWhole) (a4 : Memref sig .tc .vmem S8x128 .f32) (h4 : a4.IsWhole)
    (a5 : Memref sig .tc .vmem S1x1 .f32) (h5 : a5.IsWhole) (hc0 : cond0_0 i) (hc1 : ¬cond0_1 i)
    (x0 x1 : Vec F S4096x128 .f32) :
    sout0_A_0 c i a2 h2 a3 h3 a4 h4 a5 h5 hc0 hc1 x0 x1 = k0_pay1 (part x0 x1) (k0_pay3 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1x1) hz, View.readCov_unit_zero (S := S1x1) _ hz]
  simp only [View.readAt_eq_ld, h2.read_unread, h3.read_unread, View.ld_unit_zero (S := S4096x128) hz]

/-- At a middle point the accumulator ends at `previous + part`. -/
theorem acc_middle (c : Dev nD) (i : grid0.Coords) (a2 : Memref sig .tc .vmem S4096x128 .f32) (h2 : a2.IsWhole)
    (a3 : Memref sig .tc .vmem S4096x128 .f32) (h3 : a3.IsWhole) (a4 : Memref sig .tc .vmem S8x128 .f32) (h4 : a4.IsWhole)
    (a5 : Memref sig .tc .vmem S1x1 .f32) (h5 : a5.IsWhole) (hc0 : ¬cond0_0 i) (hc1 : ¬cond0_1 i)
    (x0 x1 : Vec F S4096x128 .f32) (xs0 : Vec F S1x1 .f32) :
    sout0_B_0 c i a2 h2 a3 h3 a4 h4 a5 h5 hc0 hc1 x0 x1 xs0 = k0_pay1 (part x0 x1) xs0 := by
  unfold sout0_B_0
  rw [View.read_writes_eq_canon _ _ _ (scover0_B_0 c i a2 h2 a3 h3 a4 h4 a5 h5 hc0 hc1 x0 x1 xs0)]
  unfold kernelRun0_B
  dsimp only
  sl_unfold_words
  rw [View.canon_unit_zero hz]
  simp only [View.readAt_eq_ld, h2.read_unread, h3.read_unread, h5.read_unread, View.ld_unit_zero (S := S4096x128) hz,
    View.ld_unit_zero (S := S1x1) hz]

/-- At a last point the accumulator likewise ends at `previous + part`, -/
theorem acc_last (c : Dev nD) (i : grid0.Coords) (a2 : Memref sig .tc .vmem S4096x128 .f32) (h2 : a2.IsWhole)
    (a3 : Memref sig .tc .vmem S4096x128 .f32) (h3 : a3.IsWhole) (a4 : Memref sig .tc .vmem S8x128 .f32) (h4 : a4.IsWhole)
    (a5 : Memref sig .tc .vmem S1x1 .f32) (h5 : a5.IsWhole) (hc0 : ¬cond0_0 i) (hc1 : cond0_1 i)
    (x0 x1 : Vec F S4096x128 .f32) (xs0 : Vec F S1x1 .f32) :
    sout0_C_0 c i a2 h2 a3 h3 a4 h4 a5 h5 hc0 hc1 x0 x1 xs0 = k0_pay1 (part x0 x1) xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero hz]
  simp only [View.readAt_eq_ld, h2.read_unread, h3.read_unread, h5.read_unread, View.ld_unit_zero (S := S4096x128) hz,
    View.ld_unit_zero (S := S1x1) hz]

/-- and the output block is filled from that updated accumulator. -/
theorem out_last (c : Dev nD) (i : grid0.Coords) (a2 : Memref sig .tc .vmem S4096x128 .f32) (h2 : a2.IsWhole)
    (a3 : Memref sig .tc .vmem S4096x128 .f32) (h3 : a3.IsWhole) (a4 : Memref sig .tc .vmem S8x128 .f32) (h4 : a4.IsWhole)
    (a5 : Memref sig .tc .vmem S1x1 .f32) (h5 : a5.IsWhole) (hc0 : ¬cond0_0 i) (hc1 : cond0_1 i)
    (x0 x1 : Vec F S4096x128 .f32) (xs0 : Vec F S1x1 .f32) :
    out0_C_2 c i a2 h2 a3 h3 a4 h4 a5 h5 hc0 hc1 x0 x1 xs0 = k0_pay2 (k0_pay1 (part x0 x1) xs0) := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero hz, View.readCov_unit_zero (S := S1x1) _ hz]
  simp only [View.readAt_eq_ld, h2.read_unread, h3.read_unread, h5.read_unread, View.ld_unit_zero (S := S4096x128) hz,
    View.ld_unit_zero (S := S1x1) hz]

end Cert.KernelIdeal.KValue

end
-- ==== Proof.KAccum.lean ====
/-
  The accumulator after each grid point, in closed form.

  The 32 grid points come in two runs of sixteen, one per core. The generated frame describes what the carried [1, 1]
  accumulator and the [8, 128] output block hold after point `n` by recursion on `n` over the three cases of the body
  (first point of a run, middle point, last point). Read through the case values, the accumulator after point `n` is
  `zero + part n` when `n` starts a run and `(accumulator after n - 1) + part n` otherwise, where `part n` is the partial
  loss of the two input blocks of point `n`; and at the last point of a run the output block is filled from that
  accumulator. Proved by induction on the point, never by enumerating the grid.
-/
import proofs.«145982_j28741921145431_2_alg».proof.Proof.KPieces

noncomputable section

open Idealize.ShloMosaic Idealize.ShloMosaic.TcCoe Idealize.SL.Sem
open Idealize.ShloMosaic.Pipeline (Dat)

namespace Cert.KernelIdeal.KValue

open Cert.KernelIdeal Cert.KernelIdeal.Gen

variable {F : FTy → Type} [FloatOps F]
variable (m : (ℓ : Loc nD τ sig) → Buf (Elt F) ℓ)

/-- The partial loss of the two input blocks of point `n`. -/
abbrev partAt (c : Dev nD) (n : ℕ) (h : n < cfg0.N) : FVec F S1x1 .f32 :=
  part (iblk m c 0 ⟨n, h⟩) (iblk m c 1 ⟨n, h⟩)

/-- The accumulator after point `n`: restarted from zero at the first point of each run of sixteen. -/
def accAt (c : Dev nD) : (n : ℕ) → n < cfg0.N → Vec F S1x1 .f32
  | 0, h => k0_pay1 (partAt m c 0 h) (k0_pay3 (F := F))
  | n + 1, h =>
    if (n + 1) % 16 = 0 then k0_pay1 (partAt m c (n + 1) h) (k0_pay3 (F := F))
    else k0_pay1 (partAt m c (n + 1) h) (accAt c n (Nat.lt_of_succ_lt h))

theorem accAt_first (c : Dev nD) (n : ℕ) (h : n + 1 < cfg0.N) (h0 : (n + 1) % 16 = 0) :
    accAt m c (n + 1) h = k0_pay1 (partAt m c (n + 1) h) (k0_pay3 (F := F)) := by
  rw [accAt, if_pos h0]

theorem accAt_next (c : Dev nD) (n : ℕ) (h : n + 1 < cfg0.N) (h0 : ¬(n + 1) % 16 = 0) :
    accAt m c (n + 1) h = k0_pay1 (partAt m c (n + 1) h) (accAt m c n (Nat.lt_of_succ_lt h)) := by
  rw [accAt, if_neg h0]

/-- What the generated frame says the carried accumulator holds after point `n` is `accAt`. -/
theorem acc_eq (c : Dev nD) : ∀ (n : ℕ) (h : n < cfg0.N), (outsAt0 m c n h).2 = accAt m c n h
  | 0, h => by
    rw [outsAt0_A m c ⟨0, h⟩ rfl (by show ¬(0 : ℕ) % 16 = 15; decide)]
    dsimp only
    exact acc_first ..
  | n + 1, h => by
    have hN : cfg0.N = 32 := N_0
    by_cases h0 : (n + 1) % 16 = 0
    · have h1 : ¬(n + 1) % 16 = 15 := by omega
      rw [accAt_first m c n h h0, outsAt0_A m c ⟨n + 1, h⟩ h0 h1]
      dsimp only
      exact acc_first ..
    · rw [accAt_next m c n h h0, ← acc_eq c n (Nat.lt_of_succ_lt h)]
      by_cases h1 : (n + 1) % 16 = 15
      · rw [outsAt0_C m c ⟨n + 1, h⟩ h0 h1]
        dsimp only
        exact acc_last ..
      · rw [outsAt0_B m c ⟨n + 1, h⟩ h0 h1]
        dsimp only
        exact acc_middle ..

/-- At the last point of a run the output block is filled from the accumulator of that point. -/
theorem out_eq (c : Dev nD) (t : Fin cfg0.N) (h15 : t.val % 16 = 15) :
    (outsAt0 m c t.val t.isLt).1 = k0_pay2 (accAt m c t.val t.isLt) := by
  have h0 : ¬t.val % 16 = 0 := by omega
  rw [← acc_eq m c t.val t.isLt]
  rw [outsAt0_C m c t h0 h15]
  dsimp only
  rw [out_last, acc_last]

end Cert.KernelIdeal.KValue

end
-- ==== Proof.KArray.lean ====
/-
  From the blocks the grid points write back to the kernel program's result.

  Point `t` of the 32 reads row block `t` (4096 rows) of both arguments; the last point of each run of sixteen writes
  back one [8, 128] block of the [16, 128] output array — run `q` writes rows `8q … 8q + 7`. So the output array after the
  region is one function of the accumulators after points 15 and 31 (`outArr`): the two write-backs cover it. The host
  lines after the region then add up all its entries, from the zero word, into the [1] result.
-/
import proofs.«145982_j28741921145431_2_alg».proof.Proof.KAccum
import Idealize.ShloMosaic.Lib.ValueIdx
import Idealize.ShloMosaic.Lib.StableHlo.Run

noncomputable section

open Idealize.ShloMosaic Idealize.ShloMosaic.TcCoe Idealize.SL.Sem
open Idealize.ShloMosaic.Pipeline (Dat)
open Idealize.ShloMosaic.ValueIdx

namespace Cert.KernelIdeal.KValue

open Cert.KernelIdeal Cert.KernelIdeal.Gen

variable {F : FTy → Type} [FloatOps F]
variable (m : (ℓ : Loc nD τ sig) → Buf (Elt F) ℓ) (ρ : Dev nD → PrngReg)

/-- The printed index maps, decided over the grid: point `t` reads row block `t` of both arguments and writes back
    row block `t / 16` of the output. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val / 16 ∧ win0_2.index t (1 : Fin 2) = 0 :=
  (by decide +kernel : ∀ t : Fin grid0.N, _)

theorem accAt_congr (c : Dev nD) {n n' : ℕ} (e : n = n') (h : n < cfg0.N) (h' : n' < cfg0.N) :
    accAt m c n h = accAt m c n' h' := by subst e; rfl

/-- The last point of the run that fills output row `a`: `16 * (a / 8) + 15`. -/
theorem last_lt (a : ℕ) (ha : a < 16) : 16 * (a / 8) + 15 < cfg0.N := by
  rw [show cfg0.N = 32 from N_0]; omega

/-- The output array after the region: row block `q` (rows `8q … 8q + 7`) is the block the body fills from the
    accumulator after the last point of run `q`. -/
def outArr (c : Dev nD) : S16x128.Idx → Elt F .f32 := fun i =>
  k0_pay2 (accAt m c (16 * ((i 0).val / 8) + 15) (last_lt (i 0).val (i 0).isLt))
    (ix2 (⟨(i 0).val % 8, Nat.mod_lt _ (by decide)⟩ : Fin 8) (⟨(i 1).val, (i 1).isLt⟩ : Fin 128))

theorem outArr_apply (c : Dev nD) (i : S16x128.Idx) (n : ℕ) (hn : n < cfg0.N) (a : Fin 8) (b : Fin 128)
    (e1 : 16 * ((i 0).val / 8) + 15 = n) (e2 : (i 0).val % 8 = a.val) (e3 : (i 1).val = b.val) :
    outArr m c i = k0_pay2 (accAt m c n hn) (ix2 a b) := by
  obtain rfl : n = 16 * ((i 0).val / 8) + 15 := e1.symm
  obtain rfl : (⟨(i 0).val % 8, Nat.mod_lt _ (by decide)⟩ : Fin 8) = a := Fin.ext e2
  obtain rfl : (⟨(i 1).val, (i 1).isLt⟩ : Fin 128) = b := Fin.ext e3
  rfl

/-- What a writing-back point writes back is its block of `outArr`. -/
theorem flushed_eq (c : Dev nD) (t : Fin cfg0.N) (hf : (cfg0.win 2).flush t = true) :
    (dats m 0 c).flushed 2 t = ((cfg0.win 2).blk t).view.read (Elt F) (outArr m c) := by
  have hN : cfg0.N = 32 := N_0
  have h15 : t.val % 16 = 15 := (flush0_2 t).mp hf
  obtain ⟨-, -, -, -, e0, e1⟩ := idx_facts t
  show (cfg0.win 2).cut (grid0.coords t) ((dats m 0 c).after 2 t) = _
  rw [after0_2, out_eq m c t h15]
  funext j
  rw [View.read_apply]
  have hj0 : (j 0).val < 8 := (j 0).isLt
  have hj1 : (j 1).val < 128 := (j 1).isLt
  have c0 : (((cfg0.win 2).blk t).view.emb j 0).val = win0_2.index t (0 : Fin 2) * 8 + 1 * (j 0).val := rfl
  have c1 : (((cfg0.win 2).blk t).view.emb j 1).val = win0_2.index t (1 : Fin 2) * 128 + 1 * (j 1).val := rfl
  have ht : t.val < 32 := hN ▸ t.isLt
  refine ((outArr_apply m c _ t.val t.isLt ⟨(j 0).val, hj0⟩ ⟨(j 1).val, hj1⟩ ?_ ?_ ?_).trans ?_).symm
  · rw [c0, e0]; omega
  · rw [c0, e0]; show _ = (j 0).val; omega
  · rw [c1, e1]; show _ = (j 1).val; omega
  · show k0_pay2 (accAt m c t.val t.isLt) (ix2 ⟨(j 0).val, hj0⟩ ⟨(j 1).val, hj1⟩) = k0_pay2 (accAt m c t.val t.isLt) j
    congr 1
    funext a
    apply Fin.ext
    match a with
    | ⟨0, _⟩ => rfl
    | ⟨1, _⟩ => rfl

/-- An index of the output array is in point `t`'s block iff each coordinate is in the block's range on its axis. -/
theorem mem_blk (t : Fin cfg0.N) (i : S16x128.Idx) :
    i ∈ ((cfg0.win 2).blk t).view.set ↔ ∀ a : Fin 2, win0_2.index t a * S8x128.size a ≤ (i a).val ∧ (i a).val < win0_2.index t a * S8x128.size a + S8x128.size a := by
  show i ∈ ((View.whole main_v0).slice (win0_2.rect t)).set ↔ _
  rw [View.set_slice_whole, Rect.mem_set_unit]
  exact Iff.rfl

/-- Every row of the output array is written back by the last point of its run. -/
theorem cover (i : S16x128.Idx) : ∃ t : Fin cfg0.N, (cfg0.win 2).flush t = true ∧ i ∈ ((cfg0.win 2).blk t).view.set := by
  have hN : cfg0.N = 32 := N_0
  have hi0 : (i 0).val < 16 := (i 0).isLt
  have hi1 : (i 1).val < 128 := (i 1).isLt
  refine ⟨⟨16 * ((i 0).val / 8) + 15, last_lt _ hi0⟩, (flush0_2 _).mpr (by show (16 * ((i 0).val / 8) + 15) % 16 = 15; omega), ?_⟩
  obtain ⟨-, -, -, -, e0, e1⟩ := idx_facts ⟨16 * ((i 0).val / 8) + 15, last_lt _ hi0⟩
  rw [mem_blk]
  intro a
  match a with
  | ⟨0, _⟩ =>
    show win0_2.index _ (0 : Fin 2) * 8 ≤ (i 0).val ∧ (i 0).val < win0_2.index _ (0 : Fin 2) * 8 + 8
    rw [e0]; show (16 * ((i 0).val / 8) + 15) / 16 * 8 ≤ (i 0).val ∧ (i 0).val < (16 * ((i 0).val / 8) + 15) / 16 * 8 + 8; omega
  | ⟨1, _⟩ =>
    show win0_2.index _ (1 : Fin 2) * 128 ≤ (i 1).val ∧ (i 1).val < win0_2.index _ (1 : Fin 2) * 128 + 128
    rw [e1]; omega

/-- The output array after the region is `outArr`. -/
theorem final (c : Dev nD) : (dats m 0 c).arrAt 2 cfg0.N = outArr m c :=
  (dats m 0 c).arrAt_eq_of_cover 2 (outArr m c) (flushed_eq m c) cover

/-- The host lines after the region: the sum of all entries of the output array from the zero word, as a [1] array. -/
def tailOf (o : S16x128.Idx → Elt F .f32) : S1.Idx → Elt F .f32 :=
  shapeCast S1 (Host.reduceAdd (F := F) o (constant S_ .f32 0x00000000#32) reducesTo_S16x128_S_d0_1 h_S_) shapeCasts_S_S1

theorem tail_eq (c : Dev nD) :
    Pipeline.afterTail₀ cfgs (dats m) 0 (V0 m) [hostOps1] c main_v2 = tailOf (outArr m c) := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v0)
      = outArr m c := (Pipeline.withArrays_arr spec0 launch0.win.arr_inj c _ _ 2).trans (final m c)
  rw [e]
  rfl

/-- The kernel program's run, read: the result is the host tail of the output array, the arguments are unchanged. -/
theorem run : θ_run defs (onTc (τ := τ) (main (F := F))) ⟨m, fun _ => 0, ρ⟩ fun r => ∀ c : Dev nD,
      r.2.mem ((c.tc : Thread nD τ).loc main_v2) = tailOf (outArr m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v2 (Pipeline.mem_restRefs_of main_v2 rfl (fun w => by fin_cases w <;> decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KValue

end
-- ==== Proof.Spec.lean ====
/-
  The row-wise correlation loss, stated once over the extended reals.

  Both programs treat the two arguments as 131072 pairs of rows of 128 entries. For one pair of rows `u`, `v`:
  the mean is the row sum over 128; the centred row is `u j - mean u`; the variance is the sum of the squares of the
  centred row over 127; the covariance is the sum of the products of the centred rows, each lowered by `ε`, over 127;
  the correlation is the covariance over `sqrt (var u) * sqrt (var v) + ε`, and `z` is its cube. The first term is
  `-log ((z + 1 + ε) / 2)`; the second is the mean absolute difference of the two rows' softmaxes (each taken after
  subtracting the row maximum); the row's loss is `|z| * first + (1 - |z|) * second`, and the result is the sum of the
  row losses. Divisions, square roots, logarithms and exponentials are the exact instance's; the float literals are
  kept as the words the programs spell (both programs spell the same words), and only the few facts about them that
  the two sides need are proved here.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The literals: `ε = f32 0.001`, `128`, `127`, `1`, `2` and `-∞`. -/
def eps : EReal := Ideal.ofBits .f32 0x3A83126F#32
def c128 : EReal := Ideal.ofBits .f32 0x43000000#32
def c127 : EReal := Ideal.ofBits .f32 0x42FE0000#32
def c1 : EReal := Ideal.ofBits .f32 0x3F800000#32
def c2 : EReal := Ideal.ofBits .f32 0x40000000#32
def ninf : EReal := Ideal.ofBits .f32 0xFF800000#32

/-- A row of 128 entries. -/
abbrev Row := Fin 128 → EReal

def mean (u : Row) : EReal := Ideal.div (∑ j, u j) c128
def var (u : Row) : EReal := Ideal.div (∑ j, (u j - mean u) * (u j - mean u)) c127
def cov (u v : Row) : EReal := Ideal.div (∑ j, (u j - mean u - eps) * (v j - mean v - eps)) c127
def cor (u v : Row) : EReal := Ideal.div (cov u v) (Ideal.sqrt (var u) * Ideal.sqrt (var v) + eps)
def cube (z : EReal) : EReal := z * z * z
def logTerm (z : EReal) : EReal := -Ideal.log (Ideal.div (z + c1 + eps) c2)
def rmax (u : Row) : EReal := (Finset.univ : Finset (Fin 128)).fold max ninf u
def soft (u : Row) (j : Fin 128) : EReal := Ideal.div (Ideal.exp (u j - rmax u)) (∑ k, Ideal.exp (u k - rmax u))
def dist (u v : Row) : EReal := Ideal.div (∑ j, max (soft u j - soft v j) (-(soft u j - soft v j))) c128
def rowLoss (u v : Row) : EReal :=
  max (cube (cor u v)) (-cube (cor u v)) * logTerm (cube (cor u v))
    + (c1 - max (cube (cor u v)) (-cube (cor u v))) * dist u v

/-- An argument array, and its row `R`. -/
abbrev Arr := (⟨2, ![131072, 128]⟩ : Shape).Idx → EReal
def row (x : Arr) (R : Fin 131072) : Row := fun j => x (ix2 R j)

/-- The result: the sum of the row losses. -/
def total (x y : Arr) : EReal := ∑ R : Fin 131072, rowLoss (row x R) (row y R)

/-! ## The facts about the literals -/

theorem c128_eq : c128 = ((128 : ℝ) : EReal) := by
  unfold c128; simp [Ideal.ofBits, Ideal.ieee, -EReal.coe_mul]; norm_num

theorem c127_eq : c127 = ((127 : ℝ) : EReal) := by
  unfold c127; simp [Ideal.ofBits, Ideal.ieee, -EReal.coe_mul]; norm_num

/-- `ε` is a real number (which one is never used). -/
theorem eps_real : ∃ r : ℝ, eps = (r : EReal) := by
  unfold eps; simp [Ideal.ofBits, Ideal.ieee, -EReal.coe_mul]

/-- `128 - 1 = 127`, the one converted from the integer `1`. -/
theorem c128_sub_one : c128 - (((1 : ℤ) : ℝ) : EReal) = c127 := by
  rw [c128_eq, c127_eq, ← EReal.coe_sub]; norm_num

/-- `127 > 0`. -/
theorem c127_pos : (0 : EReal) < c127 := by
  rw [c127_eq]; exact_mod_cast (by norm_num : (0 : ℝ) < 127)

/-- Lowering by `m + ε` is lowering by `m` and then by `ε`, on every extended real: `ε` is real, so the
    negation of the sum is the sum of the negations. -/
theorem sub_add_eps (a m : EReal) : a - (m + eps) = a - m - eps := by
  obtain ⟨r, hr⟩ := eps_real
  rw [hr, sub_eq_add_neg, EReal.neg_add (Or.inr (EReal.coe_ne_top r)) (Or.inr (EReal.coe_ne_bot r)),
    sub_eq_add_neg, sub_eq_add_neg, sub_eq_add_neg, add_assoc]

/-- The row maximum is at least its starting value, so taking the larger of the two again changes nothing. -/
theorem max_ninf_rmax (u : Row) : max ninf (rmax u) = rmax u :=
  max_eq_right (Finset.le_fold_max ninf |>.mpr (Or.inl le_rfl))

/-- `0 - x = -x`. -/
theorem zero_sub' (x : EReal) : (0 : EReal) - x = -x := zero_sub x

end Cert.Spec

end
-- ==== Proof.LibRowReduce.lean ====
/-
  A matrix reduced along its rows, and small values spread over a block, read at coordinates for any extents.
  • REDUCTIONS over the extended reals of an `[a, b]` vector along its LAST axis, one value per row: the sum at row `p`
    is the sum over `k` of the source at `(p, k)`, and the maximum is the fold of `max`, from the starting word's value,
    over `k` of the source at `(p, k)` (`multiReduction_add_rows`, `multiReduction_max_rows`) — what a softmax along
    the lanes of a row needs.
  • A ROW VECTOR GIVEN TWO UNIT AXES: `[1, c] → [1, 1, c]` reads `(0, 0, f)` at `(0, f)` (`shapeCast_1c_11c_apply`).
  • ONE VALUE SPREAD OVER A MATRIX: `[1, 1] → [a, b]` reads the one entry everywhere (`broadcastTo_11_ab_apply`).
-/
import Idealize.ShloMosaic.Lib.Pipeline.Value
import Idealize.ShloMosaic.Lib.ValueIdx
import Idealize.ShloMosaic.PureOps.Ideal.Laws

noncomputable section

open scoped BigOperators

namespace Cert.LibRowReduce

open Idealize.ShloMosaic Idealize.ShloMosaic.ValueIdx

variable {α : Type}

/-- A `[1, c]` row cast to `[1, 1, c]` reads, at `(u, v, f)`, the operand at `(0, f)`. -/
theorem shapeCast_1c_11c_apply {c : ℕ} (x : (⟨2, ![1, c]⟩ : Shape).Idx → α)
    (h : (⟨2, ![1, c]⟩ : Shape).ShapeCasts ⟨3, ![1, 1, c]⟩) (u v : Fin 1) (f : Fin c) :
    shapeCast ⟨3, ![1, 1, c]⟩ x h (ix3 u v f) = x (ix2 (0 : Fin 1) f) :=
  shapeCast_apply x h _ _ (by
    have hu : u.val = 0 := by omega
    have hv : v.val = 0 := by omega
    rw [Shape.rowMajor_val_three, Shape.rowMajor_val_two]
    show 0 * c + f.val = (u.val * 1 + v.val) * c + f.val
    rw [hu, hv])

/-- A `[1, 1]` array spread to `[a, b]` reads its one entry at every `(p, q)`. -/
theorem broadcastTo_11_ab_apply {a b : ℕ} (x : (⟨2, ![1, 1]⟩ : Shape).Idx → α)
    (h : (⟨2, ![1, 1]⟩ : Shape).Broadcasts ⟨2, ![a, b]⟩) (p : Fin a) (q : Fin b) :
    broadcastTo ⟨2, ![a, b]⟩ x h (ix2 p q) = x (ix2 (0 : Fin 1) (0 : Fin 1)) := by
  refine broadcastTo_apply x h (ix2 p q) (ix2 (0 : Fin 1) (0 : Fin 1)) fun ax => ?_
  match ax with
  | ⟨0, _⟩ => rfl
  | ⟨1, _⟩ => rfl

section Reductions
variable {φ : FTy}

/-- A sum along the rows of an `[a, b]` vector: at row `p`, the sum over `k` of the source at `(p, k)`. -/
theorem multiReduction_add_rows {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-- A maximum along the rows of an `[a, b]` vector: at row `p`, the fold of `max`, from the starting word's value, over
    `k` of the source at `(p, k)`. -/
theorem multiReduction_max_rows {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (Finset.fold_congr fun k _ => congrArg src (funext fun ax => Fin.ext (by
      match ax with
      | ⟨0, _⟩ => rfl
      | ⟨1, _⟩ => rfl)))

end Reductions

end Cert.LibRowReduce

end
-- ==== Proof.LibColumns.lean ====
/-
  Column forms of a keepdims reduction, read at coordinates: a vector of `a` entries cast to the column `[a, 1]` reads
  its entry `i` at `(i, 0)`, and a column `[a, 1]` broadcast along `b` columns reads, at `(p, c)`, the column at
  `(p, 0)` — so a per-row value (a row maximum, a row sum) laid against every entry of its row is that row's value.
-/
import Idealize.ShloMosaic.Lib.ValueIdx
import Idealize.ShloMosaic.Lib.Pipeline.Value

namespace Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A per-row value cast to a column and broadcast along the row reads, at `(p, c)`, the value of row `p`. -/
theorem broadcastTo_column_apply {a b : ℕ} (x : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (c : Fin b) :
    broadcastTo ⟨2, ![a, b]⟩ (shapeCast ⟨2, ![a, 1]⟩ x h1) h2 (ix2 p c) = x (ix1 p) :=
  (broadcastTo_a1_ab_apply _ h2 p c).trans (shapeCast_a_a1_apply x h1 p 0)

end Idealize.ShloMosaic.ValueIdx
-- ==== Proof.LibIdealBits.lean ====
import Idealize.ShloMosaic.PureOps.Ideal
import Idealize.ShloMosaic.PureOps.Ideal.Laws
import Idealize.ShloMosaic.Lib.ValueIdx

/-! # Small general facts at the exact instance

* A scalar float literal, and the integer-to-float conversions, read at the exact instance — each stated for a
  VARIABLE word, so that rewriting with them never makes Lean evaluate a particular float literal (comparing
  `Scalar.ofBits .f32 w` with `Ideal.ofBits .f32 w` by unfolding, at a literal `w`, can run out of memory).
* A comparison bit widened to 32 bits and converted as a SIGNED integer (a kernel's `(cond).astype(float32)`:
  `arith.extui` then `arith.sitofp`) is the bit converted as an UNSIGNED integer (the host's `convert` of an i1):
  both are the number 0 or 1.
* A sum over a rank-1 index set is the sum over its one coordinate. -/

noncomputable section

namespace Cert.LibIdealBits

open Idealize.ShloMosaic Idealize.ShloMosaic.ValueIdx

/-- A scalar literal at the exact instance is the instance's reading of its word. -/
theorem scalar_ofBits (φ : FTy) (b : BitVec φ.bits) : Scalar.ofBits (F := Ideal) φ b = Ideal.ofBits φ b := rfl

/-- A signed integer converted to a float at the exact instance is that integer. -/
theorem sitofp_ideal {w : Nat} (b : BitVec w) : FloatOps.sitofp (F := Ideal) .f32 b = (((b.toInt : ℝ)) : EReal) := rfl

/-- An unsigned integer converted to a float at the exact instance is that number. -/
theorem uitofp_ideal {w : Nat} (b : BitVec w) : FloatOps.uitofp (F := Ideal) .f32 b = (((b.toNat : ℝ)) : EReal) := rfl

/-- A bit widened to 32 bits and read as a signed integer is the bit read as a natural number: both are 0 or 1. -/
theorem bit_signed_eq_unsigned (b : BitVec 1) : (((b.setWidth 32).toInt : ℝ) : EReal) = (((b.toNat : ℝ)) : EReal) := by
  have h : (b.setWidth 32).toInt = (b.toNat : ℤ) := by
    rcases BitVec.eq_zero_or_eq_one b with h | h <;> subst h <;> decide
  rw [h, Int.cast_natCast]

/-- So widening a bit and converting it signed is converting it unsigned. -/
theorem sitofp_extui_bit (b : BitVec 1) :
    FloatOps.sitofp (F := Ideal) .f32 (b.setWidth 32) = FloatOps.uitofp (F := Ideal) .f32 b := by
  rw [sitofp_ideal, uitofp_ideal, bit_signed_eq_unsigned]

/-- A rank-1 index set is its one coordinate's range … -/
def idxEquiv1 {n : Nat} : (⟨1, ![n]⟩ : Shape).Idx ≃ Fin n where
  toFun i := i 0
  invFun k := ix1 k
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ k : Fin n, f (ix1 k) := by
  rw [← Equiv.sum_comp (idxEquiv1 (n := n)).symm f]
  rfl

end Cert.LibIdealBits

end
-- ==== Proof.PayloadValue.lean ====
/-
  The kernel body's arithmetic, read at the exact instance one row at a time.

  The body's values are pure terms over the two loaded blocks `x0`, `x1` of 4096 rows of 128 entries. Read at row `r`:
  a lane sum cast to a column and broadcast back along the row is the row's sum; so the centred rows are
  `u j - mean u`; the covariance column is `cov u v`; the product column is `sqrt (var u) * sqrt (var v)`; and the
  loss column, built from these by pointwise operations, two row maxima, and three more lane sums, is
  `rowLoss u v`. The last reduction adds the 4096 entries of the loss column. The other three stored values are an
  accumulation `old + P`, a zero, and a tile that holds one value at its corner and zero elsewhere.
-/
import proofs.«145982_j28741921145431_2_alg».proof.Proof.Gen.KernelIdeal.Skeleton
import proofs.«145982_j28741921145431_2_alg».proof.Proof.Spec
import proofs.«145982_j28741921145431_2_alg».proof.Proof.LibRowReduce
import proofs.«145982_j28741921145431_2_alg».proof.Proof.LibColumns
import proofs.«145982_j28741921145431_2_alg».proof.Proof.LibIdealBits
import Idealize.ShloMosaic.Lib.ValueIdx
import Idealize.ShloMosaic.Lib.Pipeline.Value
import Idealize.ShloMosaic.PureOps.Ideal.Laws

noncomputable section

open scoped BigOperators

namespace Cert.KernelIdeal.PayloadValue

open Idealize.ShloMosaic Idealize.ShloMosaic.ValueIdx Cert.KernelIdeal Cert.KernelIdeal.Gen

/-! ## Reductions, columns and broadcasts at the body's shapes

Each is stated with the side-condition proofs as variables, typed as the printed terms type them, so that it rewrites
the printed term in place. -/

/-- A lane sum of a block, at row `r`: the sum over the row. -/
theorem rowsum_apply (src : FVec Ideal S4096x128 .f32) (hφ : FKind.Formats .f32)
    (hacc : (0x00000000#32 : BitVec 32) = 0x00000000#32) (r : Fin 4096) :
    multiReduction .add [1] S4096 src 0x00000000#32 reduces_S4096x128_S4096 hφ hacc (ix1 r)
      = ∑ k : Fin 128, src (ix2 r k) :=
  Cert.LibRowReduce.multiReduction_add_rows src 0x00000000#32 reduces_S4096x128_S4096 hφ hacc r

/-- A lane maximum of a block, at row `r`: the fold of `max` over the row, from the starting word's value. -/
theorem rowmax_apply (src : FVec Ideal S4096x128 .f32) (hφ : FKind.Formats .f32)
    (hacc : (0xFF800000#32 : BitVec 32) = 0xFF800000#32) (r : Fin 4096) :
    multiReduction .maximumf [1] S4096 src 0xFF800000#32 reduces_S4096x128_S4096 hφ hacc (ix1 r)
      = (Finset.univ : Finset (Fin 128)).fold max (Ideal.ofBits .f32 0xFF800000#32) (fun k => src (ix2 r k)) :=
  Cert.LibRowReduce.multiReduction_max_rows src 0xFF800000#32 reduces_S4096x128_S4096 hφ hacc r

/-- A per-row value cast to a column reads the row's value. -/
theorem col_apply (v : FVec Ideal S4096 .f32) (r : Fin 4096) (u : Fin 1) :
    shapeCast S4096x1 v shapeCasts_S4096_S4096x1 (ix2 r u) = v (ix1 r) :=
  shapeCast_a_a1_apply v shapeCasts_S4096_S4096x1 r u

/-- A column broadcast along the rows reads, at `(r, j)`, the column at row `r`. -/
theorem bcast_apply (c : FVec Ideal S4096x1 .f32) (r : Fin 4096) (j : Fin 128) :
    broadcastTo S4096x128 c broadcasts_S4096x1_S4096x128 (ix2 r j) = c (ix2 r (0 : Fin 1)) :=
  broadcastTo_a1_ab_apply c broadcasts_S4096x1_S4096x128 r j

/-- The sum of a column over its 4096 rows, cast to one entry: the sum of the column's entries. -/
theorem final_sum (c : FVec Ideal S4096x1 .f32) (hφ : FKind.Formats .f32)
    (hacc : (0x00000000#32 : BitVec 32) = 0x00000000#32) :
    shapeCast S1x1 (multiReduction .add [0] S1 c 0x00000000#32 reduces_S4096x1_S1 hφ hacc) shapeCasts_S1_S1x1
        (ix2 (0 : Fin 1) (0 : Fin 1))
      = ∑ r : Fin 4096, c (ix2 r (0 : Fin 1)) := by
  refine (shapeCast_a_a1_apply _ shapeCasts_S1_S1x1 (0 : Fin 1) (0 : Fin 1)).trans ?_
  refine (Ideal.multiReduction_add_single c 0x00000000#32 reduces_S4096x1_S1 hφ hacc (ix1 (0 : Fin 1))).trans ?_
  exact Finset.sum_congr rfl fun k _ => congrArg c (funext fun ax => Fin.ext (by
    match ax with
    | ⟨0, _⟩ => rfl
    | ⟨1, _⟩ => rfl))

/-! ## The centred rows, the covariance column and the product column -/

/-- The first block's centred row: `u j - mean u`. -/
theorem pay4_apply (x : Vec Ideal S4096x128 .f32) (r : Fin 4096) (j : Fin 128) :
    k0_pay4 (F := Ideal) x (ix2 r j) = x (ix2 r j) - Cert.Spec.mean (fun k => x (ix2 r k)) := by
  unfold k0_pay4
  simp only [subf_apply, bcast_apply, divf_apply, col_apply, broadcast_apply]
  rw [rowsum_apply]
  rfl

/-- The second block's centred row. -/
theorem pay5_apply (x : Vec Ideal S4096x128 .f32) (r : Fin 4096) (j : Fin 128) :
    k0_pay5 (F := Ideal) x (ix2 r j) = x (ix2 r j) - Cert.Spec.mean (fun k => x (ix2 r k)) := by
  unfold k0_pay5
  simp only [subf_apply, bcast_apply, divf_apply, col_apply, broadcast_apply]
  rw [rowsum_apply]
  rfl

/-- The covariance column: the sum of the products of the centred rows, each lowered by `ε`, over 127. -/
theorem pay6_apply (x0 x1 : Vec Ideal S4096x128 .f32) (r : Fin 4096) :
    k0_pay6 (F := Ideal) x0 x1 (ix2 r (0 : Fin 1))
      = Cert.Spec.cov (fun k => x0 (ix2 r k)) (fun k => x1 (ix2 r k)) := by
  unfold k0_pay6
  simp only [divf_apply, col_apply, broadcast_apply]
  rw [rowsum_apply]
  simp only [mulf_apply, subf_apply, broadcast_apply, pay4_apply, pay5_apply]
  rfl

/-- The product column: the product of the square roots of the two rows' variances. -/
theorem pay7_apply (x0 x1 : Vec Ideal S4096x128 .f32) (r : Fin 4096) :
    k0_pay7 (F := Ideal) x0 x1 (ix2 r (0 : Fin 1))
      = Ideal.sqrt (Cert.Spec.var (fun k => x0 (ix2 r k))) * Ideal.sqrt (Cert.Spec.var (fun k => x1 (ix2 r k))) := by
  unfold k0_pay7
  simp only [mulf_apply, divf_apply, col_apply, broadcast_apply, sqrt, Ideal.sqrt_def]
  rw [rowsum_apply, rowsum_apply]
  simp only [mulf_apply, pay4_apply, pay5_apply]
  rfl

/-! ## The block's partial sum -/

/-- The block's partial sum: the loss column at row `r` is the row's loss, and the last reduction adds the 4096
    entries of the column. Row by row: the correlation is the covariance column over the product column plus `ε`; its
    cube `z`; `0 - log ((z + 1 + ε) / 2)`; the two softmaxes, each from its row maximum, its exponentials and their
    lane sum; the mean absolute difference; and `|z| * first + (1 - |z|) * second`. -/
theorem partial_eq (x0 x1 : Vec Ideal S4096x128 .f32) :
    k0_pay8 (F := Ideal) x0 x1 (k0_pay6 x0 x1) (k0_pay7 x0 x1) (ix2 (0 : Fin 1) (0 : Fin 1))
      = ∑ r : Fin 4096, Cert.Spec.rowLoss (fun j => x0 (ix2 r j)) (fun j => x1 (ix2 r j)) := by
  unfold k0_pay8
  refine (final_sum _ _ _).trans ?_
  refine Finset.sum_congr rfl fun r _ => ?_
  -- the pointwise operations at `(r, 0)`, down to the mean-absolute-difference lane sum
  simp only [addf_apply, subf_apply, mulf_apply, divf_apply, broadcast_apply, col_apply, bcast_apply,
    absf, log, exp, Ideal.absf_def, Ideal.log_def, Ideal.exp_def, Ideal.ofBits_def, pay6_apply, pay7_apply]
  rw [rowsum_apply]
  -- under that sum: the two softmax quotients, down to their lane sums of exponentials
  simp only [addf_apply, subf_apply, mulf_apply, divf_apply, broadcast_apply, col_apply, bcast_apply,
    absf, log, exp, Ideal.absf_def, Ideal.log_def, Ideal.exp_def, Ideal.ofBits_def]
  rw [rowsum_apply, rowsum_apply]
  -- under those: the exponentials of the rows lowered by their maxima
  simp only [addf_apply, subf_apply, mulf_apply, divf_apply, broadcast_apply, col_apply, bcast_apply,
    absf, log, exp, Ideal.absf_def, Ideal.log_def, Ideal.exp_def, Ideal.ofBits_def]
  rw [rowmax_apply, rowmax_apply]
  -- `0 - log …` is `-log …`
  rw [Ideal.ofBits_zero_f32, Cert.Spec.zero_sub']
  unfold Cert.Spec.rowLoss Cert.Spec.cube Cert.Spec.cor Cert.Spec.logTerm Cert.Spec.dist Cert.Spec.soft Cert.Spec.rmax
    Cert.Spec.eps Cert.Spec.c1 Cert.Spec.c2 Cert.Spec.c128 Cert.Spec.ninf
  rfl

/-! ## The three other stored values -/

/-- The accumulation: the old entry plus the block's partial sum. -/
theorem pay1_eq (P : FVec Ideal S1x1 .f32) (old : Vec Ideal S1x1 .f32) :
    k0_pay1 (F := Ideal) P old (ix2 (0 : Fin 1) (0 : Fin 1))
      = old (ix2 (0 : Fin 1) (0 : Fin 1)) + P (ix2 (0 : Fin 1) (0 : Fin 1)) := by
  unfold k0_pay1
  simp only [shapeCast_self]
  rfl

/-- The initial value of the accumulation: zero. -/
theorem pay3_eq : k0_pay3 (F := Ideal) (ix2 (0 : Fin 1) (0 : Fin 1)) = 0 := by
  unfold k0_pay3
  simp only [shapeCast_self, broadcast_apply, Cert.LibIdealBits.scalar_ofBits]
  exact Ideal.ofBits_zero_f32

/-- A 32-bit word of a number below `2 ^ 32` equals the zero word exactly when the number is zero. -/
theorem cmpi_eq_zero_bit (n : ℕ) (hn : n < 2 ^ 32) :
    IntOp.cmpi .eq (BitVec.ofNat 32 n) 0#32 = if n = 0 then 1#1 else 0#1 := by
  unfold IntOp.cmpi
  by_cases h : n = 0
  · subst h; rfl
  · rw [if_neg h]
    have hne : (BitVec.ofNat 32 n == 0#32) = false := by
      rw [beq_eq_false_iff_ne]
      intro hc
      have h2 := congrArg BitVec.toNat hc
      rw [BitVec.toNat_ofNat, Nat.mod_eq_of_lt hn] at h2
      exact h h2
    simp only [hne]
    rfl

/-- The output tile: the accumulated value at its corner `(0, 0)`, zero elsewhere. -/
theorem pay2_eq (s : Vec Ideal S1x1 .f32) (a : Fin 8) (b : Fin 128) :
    k0_pay2 (F := Ideal) s (ix2 a b)
      = if a.val = 0 ∧ b.val = 0 then s (ix2 (0 : Fin 1) (0 : Fin 1)) else 0 := by
  have hA : extractAt ![0, 0] s inpos_S1x1_p0_0 = s (ix2 (0 : Fin 1) (0 : Fin 1)) :=
    congrArg s (funext fun ax => by
      match ax with
      | ⟨0, _⟩ => rfl
      | ⟨1, _⟩ => rfl)
  have h0 : IntOp.cmpi .eq (BitVec.ofNat 32 (0 * 8 + a.val)) 0#32 = if a.val = 0 then 1#1 else 0#1 := by
    rw [Nat.zero_mul, Nat.zero_add]; exact cmpi_eq_zero_bit a.val (by omega)
  have h1 : IntOp.cmpi .eq (BitVec.ofNat 32 (0 * 128 + b.val)) 0#32 = if b.val = 0 then 1#1 else 0#1 := by
    rw [Nat.zero_mul, Nat.zero_add]; exact cmpi_eq_zero_bit b.val (by omega)
  show Scalar.select (IntOp.andi (IntOp.cmpi .eq (BitVec.ofNat 32 (0 * 8 + a.val)) 0#32)
      (IntOp.cmpi .eq (BitVec.ofNat 32 (0 * 128 + b.val)) 0#32))
      (extractAt ![0, 0] s inpos_S1x1_p0_0) (Scalar.ofBits (F := Ideal) .f32 0x00000000#32) = _
  rw [h0, h1, hA, Cert.LibIdealBits.scalar_ofBits, Ideal.ofBits_zero_f32]
  by_cases ha : a.val = 0
  · by_cases hb : b.val = 0
    · rw [if_pos ha, if_pos hb, if_pos ⟨ha, hb⟩]; rfl
    · rw [if_pos ha, if_neg hb, if_neg fun hc => hb hc.2]; rfl
  · by_cases hb : b.val = 0
    · rw [if_neg ha, if_pos hb, if_neg fun hc => ha hc.1]; rfl
    · rw [if_neg ha, if_neg hb, if_neg fun hc => ha hc.1]; rfl

end Cert.KernelIdeal.PayloadValue

end
-- ==== Proof.Sums.lean ====
/-
  Finite sums over the extended reals, regrouped: the sum over 131072 rows is the sum over 32 blocks of 4096 rows;
  a sum over 32 blocks is the sum of its two halves of 16; a 16 × 128 array that vanishes off its entries
  `(0, 0)` and `(8, 0)` sums to those two entries; and an accumulation that starts from `0 + g 0` and adds one
  term at a time is the sum of the terms.
-/
import Mathlib.Algebra.BigOperators.Fin
import proofs.«145982_j28741921145431_2_alg».proof.Proof.Spec
import Idealize.ShloMosaic.Lib.ValueIdx

noncomputable section

open scoped BigOperators

namespace Cert.Spec.Sums

open Idealize.ShloMosaic Idealize.ShloMosaic.ValueIdx

/-- A sum over `m * n` indices is the sum over `m` blocks of `n`: index `n * t + r` is entry `r` of block `t`. -/
theorem sum_blocks_gen {M : Type*} [AddCommMonoid M] (m n : ℕ) (f : Fin (m * n) → M) :
    ∑ R : Fin (m * n), f R
      = ∑ t : Fin m, ∑ r : Fin n, f ⟨n * t.val + r.val, by
          have ht := t.isLt; have hr := r.isLt
          calc n * t.val + r.val < n * t.val + n := Nat.add_lt_add_left hr _
            _ = n * (t.val + 1) := by rw [Nat.mul_succ]
            _ ≤ n * m := Nat.mul_le_mul_left _ ht
            _ = m * n := Nat.mul_comm _ _⟩ := by
  rw [← Fintype.sum_prod_type']
  refine (Fintype.sum_equiv finProdFinEquiv _ _ fun p => ?_).symm
  refine congrArg f (Fin.ext ?_)
  show n * p.1.val + p.2.val = p.2.val + n * p.1.val
  exact Nat.add_comm _ _

/-- The 131072 rows are 32 blocks of 4096 rows. -/
theorem sum_blocks (f : Fin 131072 → EReal) :
    ∑ R : Fin 131072, f R = ∑ t : Fin 32, ∑ r : Fin 4096, f ⟨4096 * t.val + r.val, by omega⟩ :=
  sum_blocks_gen 32 4096 f

/-- A sum over 32 blocks is the sum over the first 16 plus the sum over the last 16. -/
theorem sum_halves (g : Fin 32 → EReal) :
    ∑ t : Fin 32, g t = (∑ i : Fin 16, g ⟨i.val, by omega⟩) + (∑ i : Fin 16, g ⟨16 + i.val, by omega⟩) :=
  Fin.sum_univ_add (a := 16) (b := 16) g

/-- A 16 × 128 array that is zero everywhere but at `(0, 0)` and `(8, 0)` sums to those two entries. -/
theorem sum_two_entries (o : (⟨2, ![16, 128]⟩ : Shape).Idx → EReal)
    (h : ∀ (a : Fin 16) (b : Fin 128), ¬((a.val = 0 ∨ a.val = 8) ∧ b.val = 0) → o (ix2 a b) = 0) :
    ∑ i, o i = o (ix2 (0 : Fin 16) (0 : Fin 128)) + o (ix2 (8 : Fin 16) (0 : Fin 128)) := by
  rw [sum_idx2]
  have hrow : ∀ a : Fin 16, ∑ b : Fin 128, o (ix2 a b) = o (ix2 a (0 : Fin 128)) := fun a =>
    Fintype.sum_eq_single (0 : Fin 128) fun b hb => h a b fun hc => hb (Fin.ext hc.2)
  rw [Finset.sum_congr rfl fun a _ => hrow a]
  refine Fintype.sum_eq_add (0 : Fin 16) (8 : Fin 16) (by decide) fun a ha => ?_
  refine h a 0 fun hc => ?_
  rcases hc.1 with h0 | h8
  · exact ha.1 (Fin.ext h0)
  · exact ha.2 (Fin.ext h8)

/-- The accumulation: start from `0 + g 0`, then add `g 1`, `g 2`, … one at a time. -/
def acc16 (g : ℕ → EReal) : ℕ → EReal
  | 0 => 0 + g 0
  | n + 1 => acc16 g n + g (n + 1)

/-- After step `n` the accumulation holds the sum of the terms `0 … n`. -/
theorem acc16_eq (g : ℕ → EReal) (n : ℕ) : acc16 g n = ∑ k ∈ Finset.range (n + 1), g k := by
  induction n with
  | zero => rw [acc16, zero_add, Finset.sum_range_one]
  | succ n ih => rw [acc16, ih, Finset.sum_range_succ _ (n + 1)]

/-- After sixteen steps: the sum of the sixteen terms. -/
theorem acc16_fin (g : ℕ → EReal) : acc16 g 15 = ∑ i : Fin 16, g i.val := by
  rw [acc16_eq, Finset.sum_range]

end Cert.Spec.Sums

end
-- ==== Proof.KTotal.lean ====
/-
  The kernel program's result is the sum of the row losses.

  Row `r` of the block point `t` reads is row `4096 t + r` of the argument, so the partial loss of point `t` is the sum
  of the losses of rows `4096 t … 4096 t + 4095`. The accumulator after point `n` is, by induction on the point, the sum
  of the partial losses of its run up to `n`; after the last point of run `q` it is the sum of the run's sixteen. The
  output array holds these two sums at entries `(0, 0)` and `(8, 0)` and zero elsewhere, so the host's sum of all its
  entries (from the zero word) is their sum: the thirty-two partial losses, that is, all 131072 row losses. Addition on
  the extended reals is commutative and associative, so no finiteness is used.
-/
import proofs.«145982_j28741921145431_2_alg».proof.Proof.KArray
import proofs.«145982_j28741921145431_2_alg».proof.Proof.PayloadValue
import proofs.«145982_j28741921145431_2_alg».proof.Proof.Sums
import proofs.«145982_j28741921145431_2_alg».proof.Proof.Spec
import Idealize.ShloMosaic.PureOps.Ideal.Laws

noncomputable section

open scoped BigOperators
open Idealize.ShloMosaic Idealize.ShloMosaic.TcCoe Idealize.SL.Sem
open Idealize.ShloMosaic.Pipeline (Dat)
open Idealize.ShloMosaic.ValueIdx

namespace Cert.KernelIdeal.KValue

open Cert.KernelIdeal Cert.KernelIdeal.Gen Cert.KernelIdeal.PayloadValue

variable (m : (ℓ : Loc nD τ sig) → Buf (Elt Ideal) ℓ) (ρ : Dev nD → PrngReg)

/-- The two arguments as the specification's arrays. -/
abbrev argX (c : Dev nD) : Cert.Spec.Arr := m ((c.tc : Thread nD τ).loc main_arg0)
abbrev argY (c : Dev nD) : Cert.Spec.Arr := m ((c.tc : Thread nD τ).loc main_arg1)

theorem row_lt (n : ℕ) (h : n < cfg0.N) (r : Fin 4096) : 4096 * n + r.val < 131072 := by
  have hN : cfg0.N = 32 := N_0
  have := r.isLt; omega

/-- Row `r` of the first argument's block at point `t` is row `4096 t + r` of the argument. -/
theorem iblk0_apply (c : Dev nD) (t : Fin cfg0.N) (r : Fin 4096) (j : Fin 128) :
    (iblk m c 0 t : Vec Ideal S4096x128 .f32) (ix2 r j) = argX m c (ix2 ⟨4096 * t.val + r.val, row_lt t.val t.isLt r⟩ j) := by
  obtain ⟨e0, e1, -, -, -, -⟩ := idx_facts t
  unfold iblk
  rw [View.read_apply]
  show V m c main_arg0 _ = m (c.tc.loc main_arg0) _
  rw [V_main_arg0]
  congr 1
  funext a
  apply Fin.ext
  match a with
  | ⟨0, _⟩ => show win0_0.index t (0 : Fin 2) * 4096 + 1 * r.val = 4096 * t.val + r.val; rw [e0]; omega
  | ⟨1, _⟩ => show win0_0.index t (1 : Fin 2) * 128 + 1 * j.val = j.val; rw [e1]; omega

/-- The same for the second argument. -/
theorem iblk1_apply (c : Dev nD) (t : Fin cfg0.N) (r : Fin 4096) (j : Fin 128) :
    (iblk m c 1 t : Vec Ideal S4096x128 .f32) (ix2 r j) = argY m c (ix2 ⟨4096 * t.val + r.val, row_lt t.val t.isLt r⟩ j) := by
  obtain ⟨-, -, e0, e1, -, -⟩ := idx_facts t
  unfold iblk
  rw [View.read_apply]
  show V m c main_arg1 _ = m (c.tc.loc main_arg1) _
  rw [V_main_arg1]
  congr 1
  funext a
  apply Fin.ext
  match a with
  | ⟨0, _⟩ => show win0_1.index t (0 : Fin 2) * 4096 + 1 * r.val = 4096 * t.val + r.val; rw [e0]; omega
  | ⟨1, _⟩ => show win0_1.index t (1 : Fin 2) * 128 + 1 * j.val = j.val; rw [e1]; omega

/-- The loss of row `R` of the two arguments. -/
abbrev rowL (c : Dev nD) (R : Fin 131072) : EReal :=
  Cert.Spec.rowLoss (Cert.Spec.row (argX m c) R) (Cert.Spec.row (argY m c) R)

/-- The partial loss of point `n` is the sum of the losses of its 4096 rows. -/
theorem part_eq (c : Dev nD) (n : ℕ) (h : n < cfg0.N) :
    partAt m c n h (ix2 (0 : Fin 1) (0 : Fin 1)) = ∑ r : Fin 4096, rowL m c ⟨4096 * n + r.val, row_lt n h r⟩ := by
  refine (partial_eq _ _).trans (Finset.sum_congr rfl fun r _ => ?_)
  show Cert.Spec.rowLoss _ _ = Cert.Spec.rowLoss _ _
  congr 1
  · funext j; exact iblk0_apply m c ⟨n, h⟩ r j
  · funext j; exact iblk1_apply m c ⟨n, h⟩ r j

/-- The partial loss of point `k` as a function on the natural numbers (zero past the grid). -/
def gP (c : Dev nD) (k : ℕ) : EReal :=
  if hk : k < cfg0.N then partAt m c k hk (ix2 (0 : Fin 1) (0 : Fin 1)) else 0

theorem gP_of_lt (c : Dev nD) (k : ℕ) (hk : k < cfg0.N) : gP m c k = partAt m c k hk (ix2 (0 : Fin 1) (0 : Fin 1)) := by
  rw [gP, dif_pos hk]

/-- The accumulator after point `n` is the sum of the partial losses of its run up to `n`. -/
theorem accS_eq (c : Dev nD) : ∀ (n : ℕ) (h : n < cfg0.N),
    accAt m c n h (ix2 (0 : Fin 1) (0 : Fin 1)) = ∑ k ∈ Finset.range (n % 16 + 1), gP m c (16 * (n / 16) + k)
  | 0, h => by
    rw [accAt, pay1_eq, pay3_eq, zero_add]
    show _ = ∑ k ∈ Finset.range 1, gP m c (16 * 0 + k)
    rw [Finset.sum_range_one, gP_of_lt m c _ h]
  | n + 1, h => by
    have hN : cfg0.N = 32 := N_0
    by_cases h0 : (n + 1) % 16 = 0
    · rw [accAt_first m c n h h0, pay1_eq, pay3_eq, zero_add]
      have e : 16 * ((n + 1) / 16) + 0 = n + 1 := by omega
      rw [show (n + 1) % 16 + 1 = 1 from by omega, Finset.sum_range_one, e, gP_of_lt m c _ h]
    · rw [accAt_next m c n h h0, pay1_eq, accS_eq c n (Nat.lt_of_succ_lt h)]
      have e1 : (n + 1) % 16 + 1 = (n % 16 + 1) + 1 := by omega
      have e2 : (n + 1) / 16 = n / 16 := by omega
      have e3 : 16 * (n / 16) + (n % 16 + 1) = n + 1 := by omega
      rw [e1, e2, Finset.sum_range_succ _ (n % 16 + 1), e3, gP_of_lt m c _ h]

/-- The accumulator after the last point of run `q` is the sum of the run's sixteen partial losses. -/
theorem acc_run (c : Dev nD) (q : ℕ) (hq : 16 * q + 15 < cfg0.N) :
    accAt m c (16 * q + 15) hq (ix2 (0 : Fin 1) (0 : Fin 1)) = ∑ i : Fin 16, gP m c (16 * q + i.val) := by
  rw [accS_eq, show (16 * q + 15) % 16 + 1 = 16 from by omega, show (16 * q + 15) / 16 = q from by omega, Finset.sum_range]

/-- An entry of the output array: the run's accumulator at the head of the run's row block, zero elsewhere. -/
theorem out_entry (c : Dev nD) (a : Fin 16) (b : Fin 128) :
    outArr m c (ix2 a b) = if a.val % 8 = 0 ∧ b.val = 0
      then accAt m c (16 * (a.val / 8) + 15) (last_lt a.val a.isLt) (ix2 (0 : Fin 1) (0 : Fin 1)) else 0 :=
  pay2_eq _ _ _

/-- The kernel program's result is the sum of the losses of all rows. -/
theorem result_eq (c : Dev nD) : tailOf (outArr m c) = fun _ => Cert.Spec.total (argX m c) (argY m c) := by
  have hN : cfg0.N = 32 := N_0
  funext i
  unfold tailOf
  rw [shapeCast_addUnit_apply (n := 0) ![] _ shapeCasts_S_S1 i]
  show Ideal.hostReduceAdd reducesTo_S16x128_S_d0_1 (outArr m c) _ _ = _
  refine (Ideal.hostReduceAdd_total reducesTo_S16x128_S_d0_1 (fun b => b.elim0) (outArr m c) _ _).trans ?_
  show Ideal.ofBits .f32 0x00000000#32 + _ = _
  rw [Ideal.ofBits_zero_f32, zero_add]
  rw [Cert.Spec.Sums.sum_two_entries (outArr m c) (fun a b hab => by
    rw [out_entry]; exact if_neg (fun h => hab ⟨by have := a.isLt; omega, h.2⟩))]
  rw [out_entry, out_entry, if_pos ⟨rfl, rfl⟩, if_pos ⟨rfl, rfl⟩]
  rw [accAt_congr m c (show 16 * ((0 : Fin 16).val / 8) + 15 = 16 * 0 + 15 from rfl) _ (by rw [hN]; decide),
    accAt_congr m c (show 16 * ((8 : Fin 16).val / 8) + 15 = 16 * 1 + 15 from rfl) _ (by rw [hN]; decide)]
  rw [acc_run, acc_run]
  unfold Cert.Spec.total
  rw [Cert.Spec.Sums.sum_blocks (fun R => rowL m c R), Cert.Spec.Sums.sum_halves]
  have key : ∀ (k : ℕ) (hk : k < cfg0.N) (k' : Fin 32), k'.val = k →
      gP m c k = ∑ r : Fin 4096, rowL m c ⟨4096 * k'.val + r.val, by have := r.isLt; have := k'.isLt; omega⟩ := by
    intro k hk k' e
    subst e
    rw [gP_of_lt m c _ hk, part_eq]
  congr 1
  · refine Finset.sum_congr rfl fun i _ => ?_
    exact key _ (by rw [hN]; have := i.isLt; omega) ⟨i.val, by have := i.isLt; omega⟩ (by show i.val = 16 * 0 + i.val; omega)
  · refine Finset.sum_congr rfl fun i _ => ?_
    exact key _ (by rw [hN]; have := i.isLt; omega) ⟨16 + i.val, by have := i.isLt; omega⟩ (by show 16 + i.val = 16 * 1 + i.val; omega)

/-- The kernel program's run with its result at the specification's total. -/
theorem run_total : θ_run (defs (F := Ideal)) (onTc (τ := τ) (main (F := Ideal))) ⟨m, fun _ => 0, ρ⟩ fun r => ∀ c : Dev nD,
      r.2.mem ((c.tc : Thread nD τ).loc main_v2) = (fun _ => Cert.Spec.total (argX m c) (argY m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (result_eq m c), (h c).2⟩) (run m ρ)

end Cert.KernelIdeal.KValue

end
-- ==== Proof.LibAlignedLines.lean ====
/- Folds of straight lines of host operations in which every operation writes one reference of its own.
   If, position by position, the operations of a line write exactly the references of a list `W`, then the fold
   `after` of the line at a reference is decided by where the reference stands in `W`: a reference `W` does not hold
   keeps its contents; a reference not in `W` from position `j` on has, after the first `j` operations, already its
   final contents; and the reference at position `j`, if it does not occur again later, ends at the value operation `j`
   gives it from the contents after the first `j` operations. For the builders this reads each result as its function
   applied to the final contents of its operands. -/
import Idealize.ShloMosaic.Lib.StableHlo.Run

noncomputable section

namespace Idealize.ShloMosaic.StableHlo.AlignedLines

open Idealize.ShloMosaic Idealize.SL.Sem Idealize.ShloMosaic.StableHlo

variable {τ : Topo} {sig : RefSig} {Val : EltTy → Type}

/-- The fold over two lines, one after the other, is the second's fold over the first's. -/
theorem fold_append (l₁ l₂ : List (HloOp τ sig Val)) (V : Valuation τ sig Val) :
    after (l₁ ++ l₂) V = after l₂ (after l₁ V) := by
  induction l₁ generalizing V with
  | nil => rfl
  | cons op l ih => exact ih (op.result V)

/-- Position by position, the operations of `l` write exactly the references of `W`. -/
def Aligned (l : List (HloOp τ sig Val)) (W : List (Ref sig .tc)) : Prop :=
  List.Forall₂ (fun op w => op.writes = {Proc.devRef (τ := τ) .tc w}) l W

namespace Aligned

variable {l l₁ l₂ : List (HloOp τ sig Val)} {W W₁ W₂ : List (Ref sig .tc)}

theorem append (h₁ : Aligned l₁ W₁) (h₂ : Aligned l₂ W₂) : Aligned (l₁ ++ l₂) (W₁ ++ W₂) := List.rel_append h₁ h₂

theorem drop (n : Nat) (h : Aligned l W) : Aligned (l.drop n) (W.drop n) := List.forall₂_drop n h

/-- A reference the line does not write keeps its contents. -/
theorem after_of_not_mem (h : Aligned l W) (V : Valuation τ sig Val) {x : Ref sig .tc} (hx : x ∉ W) :
    after l V (Proc.devRef .tc x) = V (Proc.devRef .tc x) := by
  induction h generalizing V with
  | nil => rfl
  | @cons op w l W hw _ ih =>
    rw [after_cons, ih _ (fun hm => hx (List.mem_cons_of_mem _ hm)), op.result_of_not_mem V]
    rw [hw, Finset.mem_singleton]
    intro e
    exact hx (Proc.devRef_injective _ e ▸ List.mem_cons_self)

/-- A reference not written from position `j` on has its final contents after the first `j` operations. -/
theorem after_take (h : Aligned l W) (V : Valuation τ sig Val) (j : Nat) {x : Ref sig .tc} (hx : x ∉ W.drop j) :
    after (l.take j) V (Proc.devRef .tc x) = after l V (Proc.devRef .tc x) := by
  conv_rhs => rw [← List.take_append_drop j l, fold_append]
  exact ((h.drop j).after_of_not_mem _ hx).symm

/-- The reference operation `j` writes, if no later one writes it, ends at what operation `j` gives it. -/
theorem after_at (h : Aligned l W) (V : Valuation τ sig Val) (j : Nat) {op : HloOp τ sig Val} {w : Ref sig .tc}
    (hop : l[j]? = some op) (hw : w ∉ W.drop (j + 1)) :
    after l V (Proc.devRef .tc w) = op.result (after (l.take j) V) (Proc.devRef .tc w) := by
  obtain ⟨hj, rfl⟩ := List.getElem?_eq_some_iff.mp hop
  conv_lhs => rw [← List.take_append_drop j l, fold_append, List.drop_eq_getElem_cons hj, after_cons]
  exact (h.drop (j + 1)).after_of_not_mem _ hw

/-! The same, builder by builder: the result is the builder's function at the final contents of its operands. -/

theorem nullary_at (h : Aligned l W) (V : Valuation τ sig Val) (j : Nat) {y : Ref sig .tc} {v : y.ty.Contents Val} {hy}
    (hop : l[j]? = some (nullary y v hy)) (hy' : y ∉ W.drop (j + 1)) :
    after l V (Proc.devRef .tc y) = v := by
  rw [h.after_at V j hop hy', nullary_result]

theorem unary_at (h : Aligned l W) (V : Valuation τ sig Val) (j : Nat) {x y : Ref sig .tc}
    {f : x.ty.Contents Val → y.ty.Contents Val} {hx hy}
    (hop : l[j]? = some (unary x y f hx hy)) (hy' : y ∉ W.drop (j + 1)) (hx' : x ∉ W.drop j) :
    after l V (Proc.devRef .tc y) = f (after l V (Proc.devRef .tc x)) := by
  rw [h.after_at V j hop hy', unary_result, h.after_take V j hx']

theorem binary_at (h : Aligned l W) (V : Valuation τ sig Val) (j : Nat) {a b y : Ref sig .tc}
    {f : a.ty.Contents Val → b.ty.Contents Val → y.ty.Contents Val} {ha hb hy}
    (hop : l[j]? = some (binary a b y f ha hb hy)) (hy' : y ∉ W.drop (j + 1)) (ha' : a ∉ W.drop j) (hb' : b ∉ W.drop j) :
    after l V (Proc.devRef .tc y) = f (after l V (Proc.devRef .tc a)) (after l V (Proc.devRef .tc b)) := by
  rw [h.after_at V j hop hy', binary_result, h.after_take V j ha', h.after_take V j hb']

theorem ternary_at (h : Aligned l W) (V : Valuation τ sig Val) (j : Nat) {c a b y : Ref sig .tc}
    {f : c.ty.Contents Val → a.ty.Contents Val → b.ty.Contents Val → y.ty.Contents Val} {hc ha hb hy}
    (hop : l[j]? = some (ternary c a b y f hc ha hb hy)) (hy' : y ∉ W.drop (j + 1))
    (hc' : c ∉ W.drop j) (ha' : a ∉ W.drop j) (hb' : b ∉ W.drop j) :
    after l V (Proc.devRef .tc y)
      = f (after l V (Proc.devRef .tc c)) (after l V (Proc.devRef .tc a)) (after l V (Proc.devRef .tc b)) := by
  rw [h.after_at V j hop hy', ternary_result, h.after_take V j hc', h.after_take V j ha', h.after_take V j hb']

theorem nary_at (h : Aligned l W) (V : Valuation τ sig Val) (j : Nat) {n : Nat} {xs : Fin n → Ref sig .tc} {y : Ref sig .tc}
    {f : ((k : Fin n) → (xs k).ty.Contents Val) → y.ty.Contents Val} {hxs hy}
    (hop : l[j]? = some (nary xs y f hxs hy)) (hy' : y ∉ W.drop (j + 1)) (hxs' : ∀ k, xs k ∉ W.drop j) :
    after l V (Proc.devRef .tc y) = f (fun k => after l V (Proc.devRef .tc (xs k))) := by
  rw [h.after_at V j hop hy', nary_result]
  exact congrArg f (funext fun k => h.after_take V j (hxs' k))

theorem reshape_at (h : Aligned l W) (V : Valuation τ sig Val) (j : Nat) {x y : Ref sig .tc}
    {he : x.ty.elt = y.ty.elt} {hn : x.ty.shape.ShapeCasts y.ty.shape} {hx hy}
    (hop : l[j]? = some (reshape (Val := Val) x y he hn hx hy)) (hy' : y ∉ W.drop (j + 1)) (hx' : x ∉ W.drop j) :
    after l V (Proc.devRef .tc y) = fun i => he ▸ shapeCast y.ty.shape (after l V (Proc.devRef .tc x)) hn i := by
  rw [h.after_at V j hop hy', reshape_result, h.after_take V j hx']

end Aligned

end Idealize.ShloMosaic.StableHlo.AlignedLines

end
-- ==== Proof.RefRun.lean ====
/-
  The reference program's @main as ONE straight line of host operations, and its run.

  @main is a line of StableHLO operations with two calls of the module-local function @_std; @_std calls @_var and takes
  the square root of its result; @_var calls @_where. A call means its callee's body on that call's own buffers, so
  with the three bodies unfolded at their call sites @main is a straight line of 139 operations: each of @main's own
  lines as printed, each callee line over the call's buffer record. Every operation writes one buffer of its own
  (the list `W`, position by position), and the library's theorem for straight lines gives the run: every weakly fair
  execution terminates with each buffer at the fold of the operations over the launch contents.
-/
import proofs.«145982_j28741921145431_2_alg».proof.ReferenceIdeal
import proofs.«145982_j28741921145431_2_alg».proof.Proof.Gen.ReferenceIdeal
import proofs.«145982_j28741921145431_2_alg».proof.Proof.LibAlignedLines
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 139 operations in order, the calls unfolded: @_std's body is @_var's nineteen lines, @_where's three
    (the scalar converted to its own type, its broadcast, the select) and the square root, over the call's record. -/
abbrev ops : List (HloOp τ sig (Elt F)) :=
  [ nullary main_cst (constant S_ .f32 0x00000000#32),
    binary main_arg0 main_cst main_v0 ((fun x v => Host.reduceAdd x v reducesTo_S131072x128_S131072_d1 h_S_) : (⟨S131072x128, .f32⟩ : BufTy).Contents (Elt F) → (⟨S_, .f32⟩ : BufTy).Contents (Elt F) → (⟨S131072, .f32⟩ : BufTy).Contents (Elt F)),
    unary main_v0 main_v1 (broadcastInDim S131072x1 ![0] bcast_S131072_S131072x1_0 : (⟨S131072, .f32⟩ : BufTy).Contents (Elt F) → (⟨S131072x1, .f32⟩ : BufTy).Contents (Elt F)),
    nullary main_cst_0 (constant S_ .f32 0x43000000#32),
    unary main_cst_0 main_v2 (broadcastInDim S131072x1 ![] bcast_S_S131072x1 : (⟨S_, .f32⟩ : BufTy).Contents (Elt F) → (⟨S131072x1, .f32⟩ : BufTy).Contents (Elt F)),
    binary main_v1 main_v2 main_v3 (Host.divf : (⟨S131072x1, .f32⟩ : BufTy).Contents (Elt F) → (⟨S131072x1, .f32⟩ : BufTy).Contents (Elt F) → (⟨S131072x1, .f32⟩ : BufTy).Contents (Elt F)),
    nullary main_cst_1 (constant S_ .f32 0x3A83126F#32),
    unary main_cst_1 main_v4 (broadcastInDim S131072x1 ![] bcast_S_S131072x1 : (⟨S_, .f32⟩ : BufTy).Contents (Elt F) → (⟨S131072x1, .f32⟩ : BufTy).Contents (Elt F)),
    binary main_v3 main_v4 main_v5 (addf : (⟨S131072x1, .f32⟩ : BufTy).Contents (Elt F) → (⟨S131072x1, .f32⟩ : BufTy).Contents (Elt F) → (⟨S131072x1, .f32⟩ : BufTy).Contents (Elt F)),
    nullary main_cst_2 (constant S_ .f32 0x00000000#32),
    binary main_arg1 main_cst_2 main_v6 ((fun x v => Host.reduceAdd x v reducesTo_S131072x128_S131072_d1 h_S_) : (⟨S131072x128, .f32⟩ : BufTy).Contents (Elt F) → (⟨S_, .f32⟩ : BufTy).Contents (Elt F) → (⟨S131072, .f32⟩ : BufTy).Contents (Elt F)),
    unary main_v6 main_v7 (broadcastInDim S131072x1 ![0] bcast_S131072_S131072x1_0 : (⟨S131072, .f32⟩ : BufTy).Contents (Elt F) → (⟨S131072x1, .f32⟩ : BufTy).Contents (Elt F)),
    nullary main_cst_3 (constant S_ .f32 0x43000000#32),
    unary main_cst_3 main_v8 (broadcastInDim S131072x1 ![] bcast_S_S131072x1 : (⟨S_, .f32⟩ : BufTy).Contents (Elt F) → (⟨S131072x1, .f32⟩ : BufTy).Contents (Elt F)),
    binary main_v7 main_v8 main_v9 (Host.divf : (⟨S131072x1, .f32⟩ : BufTy).Contents (Elt F) → (⟨S131072x1, .f32⟩ : BufTy).Contents (Elt F) → (⟨S131072x1, .f32⟩ : BufTy).Contents (Elt F)),
    nullary main_cst_4 (constant S_ .f32 0x3A83126F#32),
    unary main_cst_4 main_v10 (broadcastInDim S131072x1 ![] bcast_S_S131072x1 : (⟨S_, .f32⟩ : BufTy).Contents (Elt F) → (⟨S131072x1, .f32⟩ : BufTy).Contents (Elt F)),
    binary main_v9 main_v10 main_v11 (addf : (⟨S131072x1, .f32⟩ : BufTy).Contents (Elt F) → (⟨S131072x1, .f32⟩ : BufTy).Contents (Elt F) → (⟨S131072x1, .f32⟩ : BufTy).Contents (Elt F)),
    nullary main_c (constantI S_ 32 1#32),
    TRef.nullary main_call0.call0.cst (constant S_ .f32 0x00000000#32),
    TRef.binary (.of main_arg0 : TRef sig ⟨S131072x128, .f32⟩) main_call0.call0.cst main_call0.call0.v0 (fun x v => Host.reduceAdd x v reducesTo_S131072x128_S131072_d1 h_S_),
    TRef.unary main_call0.call0.v0 main_call0.call0.v1 (broadcastInDim S131072x1 ![0] bcast_S131072_S131072x1_0),
    TRef.nullary main_call0.call0.cst_0 (constant S_ .f32 0x43000000#32),
    TRef.unary main_call0.call0.cst_0 main_call0.call0.v2 (broadcastInDim S131072x1 ![] bcast_S_S131072x1),
    TRef.binary main_call0.call0.v1 main_call0.call0.v2 main_call0.call0.v3 Host.divf,
    TRef.unary main_call0.call0.v3 main_call0.call0.v4 (broadcastInDim S131072x128 ![0, 1] bcast_S131072x1_S131072x128_0_1),
    TRef.binary (.of main_arg0 : TRef sig ⟨S131072x128, .f32⟩) main_call0.call0.v4 main_call0.call0.v5 subf,
    TRef.binary main_call0.call0.v5 main_call0.call0.v5 main_call0.call0.v6 mulf,
    TRef.unary (.of main_c : TRef sig ⟨S_, .i32⟩) main_call0.call0.v7 (sitofp .f32),
    TRef.nullary main_call0.call0.cst_1 (constant S_ .f32 0x43000000#32),
    TRef.binary main_call0.call0.cst_1 main_call0.call0.v7 main_call0.call0.v8 subf,
    TRef.nullary main_call0.call0.cst_2 (constant S_ .f32 0x00000000#32),
    TRef.binary main_call0.call0.v6 main_call0.call0.cst_2 main_call0.call0.v9 (fun x v => Host.reduceAdd x v reducesTo_S131072x128_S131072_d1 h_S_),
    TRef.unary main_call0.call0.v8 main_call0.call0.v10 (broadcastInDim S131072 ![] bcast_S_S131072),
    TRef.binary main_call0.call0.v9 main_call0.call0.v10 main_call0.call0.v11 Host.divf,
    TRef.nullary main_call0.call0.cst_3 (constant S_ .f32 0x00000000#32),
    TRef.binary main_call0.call0.v8 main_call0.call0.cst_3 main_call0.call0.v12 (cmpf .ogt),
    TRef.nullary main_call0.call0.cst_4 (constant S_ .f32 0x7FC00000#32),
    TRef.unary main_call0.call0.cst_4 main_call0.call0.call0.v0 id,
    TRef.unary main_call0.call0.call0.v0 main_call0.call0.call0.v1 (broadcastInDim S131072 ![] bcast_S_S131072),
    TRef.ternary main_call0.call0.v12 main_call0.call0.v11 main_call0.call0.call0.v1 main_call0.call0.call0.v2 (fun p a b => select (broadcastInDim S131072 ![] bcast_S_S131072 p) a b),
    TRef.unary main_call0.call0.call0.v2 main_call0.v1 Host.sqrt,
    nullary main_c_5 (constantI S_ 32 1#32),
    TRef.nullary main_call1.call0.cst (constant S_ .f32 0x00000000#32),
    TRef.binary (.of main_arg1 : TRef sig ⟨S131072x128, .f32⟩) main_call1.call0.cst main_call1.call0.v0 (fun x v => Host.reduceAdd x v reducesTo_S131072x128_S131072_d1 h_S_),
    TRef.unary main_call1.call0.v0 main_call1.call0.v1 (broadcastInDim S131072x1 ![0] bcast_S131072_S131072x1_0),
    TRef.nullary main_call1.call0.cst_0 (constant S_ .f32 0x43000000#32),
    TRef.unary main_call1.call0.cst_0 main_call1.call0.v2 (broadcastInDim S131072x1 ![] bcast_S_S131072x1),
    TRef.binary main_call1.call0.v1 main_call1.call0.v2 main_call1.call0.v3 Host.divf,
    TRef.unary main_call1.call0.v3 main_call1.call0.v4 (broadcastInDim S131072x128 ![0, 1] bcast_S131072x1_S131072x128_0_1),
    TRef.binary (.of main_arg1 : TRef sig ⟨S131072x128, .f32⟩) main_call1.call0.v4 main_call1.call0.v5 subf,
    TRef.binary main_call1.call0.v5 main_call1.call0.v5 main_call1.call0.v6 mulf,
    TRef.unary (.of main_c_5 : TRef sig ⟨S_, .i32⟩) main_call1.call0.v7 (sitofp .f32),
    TRef.nullary main_call1.call0.cst_1 (constant S_ .f32 0x43000000#32),
    TRef.binary main_call1.call0.cst_1 main_call1.call0.v7 main_call1.call0.v8 subf,
    TRef.nullary main_call1.call0.cst_2 (constant S_ .f32 0x00000000#32),
    TRef.binary main_call1.call0.v6 main_call1.call0.cst_2 main_call1.call0.v9 (fun x v => Host.reduceAdd x v reducesTo_S131072x128_S131072_d1 h_S_),
    TRef.unary main_call1.call0.v8 main_call1.call0.v10 (broadcastInDim S131072 ![] bcast_S_S131072),
    TRef.binary main_call1.call0.v9 main_call1.call0.v10 main_call1.call0.v11 Host.divf,
    TRef.nullary main_call1.call0.cst_3 (constant S_ .f32 0x00000000#32),
    TRef.binary main_call1.call0.v8 main_call1.call0.cst_3 main_call1.call0.v12 (cmpf .ogt),
    TRef.nullary main_call1.call0.cst_4 (constant S_ .f32 0x7FC00000#32),
    TRef.unary main_call1.call0.cst_4 main_call1.call0.call0.v0 id,
    TRef.unary main_call1.call0.call0.v0 main_call1.call0.call0.v1 (broadcastInDim S131072 ![] bcast_S_S131072),
    TRef.ternary main_call1.call0.v12 main_call1.call0.v11 main_call1.call0.call0.v1 main_call1.call0.call0.v2 (fun p a b => select (broadcastInDim S131072 ![] bcast_S_S131072 p) a b),
    TRef.unary main_call1.call0.call0.v2 main_call1.v1 Host.sqrt,
    unary main_v5 main_v14 (broadcastInDim S131072x128 ![0, 1] bcast_S131072x1_S131072x128_0_1 : (⟨S131072x1, .f32⟩ : BufTy).Contents (Elt F) → (⟨S131072x128, .f32⟩ : BufTy).Contents (Elt F)),
    binary main_arg0 main_v14 main_v15 (subf : (⟨S131072x128, .f32⟩ : BufTy).Contents (Elt F) → (⟨S131072x128, .f32⟩ : BufTy).Contents (Elt F) → (⟨S131072x128, .f32⟩ : BufTy).Contents (Elt F)),
    unary main_v11 main_v16 (broadcastInDim S131072x128 ![0, 1] bcast_S131072x1_S131072x128_0_1 : (⟨S131072x1, .f32⟩ : BufTy).Contents (Elt F) → (⟨S131072x128, .f32⟩ : BufTy).Contents (Elt F)),
    binary main_arg1 main_v16 main_v17 (subf : (⟨S131072x128, .f32⟩ : BufTy).Contents (Elt F) → (⟨S131072x128, .f32⟩ : BufTy).Contents (Elt F) → (⟨S131072x128, .f32⟩ : BufTy).Contents (Elt F)),
    binary main_v15 main_v17 main_v18 (mulf : (⟨S131072x128, .f32⟩ : BufTy).Contents (Elt F) → (⟨S131072x128, .f32⟩ : BufTy).Contents (Elt F) → (⟨S131072x128, .f32⟩ : BufTy).Contents (Elt F)),
    nullary main_cst_6 (constant S_ .f32 0x00000000#32),
    binary main_v18 main_cst_6 main_v19 ((fun x v => Host.reduceAdd x v reducesTo_S131072x128_S131072_d1 h_S_) : (⟨S131072x128, .f32⟩ : BufTy).Contents (Elt F) → (⟨S_, .f32⟩ : BufTy).Contents (Elt F) → (⟨S131072, .f32⟩ : BufTy).Contents (Elt F)),
    nullary main_cst_7 (constant S_ .f32 0x42FE0000#32),
    unary main_cst_7 main_v20 (broadcastInDim S131072 ![] bcast_S_S131072 : (⟨S_, .f32⟩ : BufTy).Contents (Elt F) → (⟨S131072, .f32⟩ : BufTy).Contents (Elt F)),
    binary main_v19 main_v20 main_v21 (Host.divf : (⟨S131072, .f32⟩ : BufTy).Contents (Elt F) → (⟨S131072, .f32⟩ : BufTy).Contents (Elt F) → (⟨S131072, .f32⟩ : BufTy).Contents (Elt F)),
    binary main_v12 main_v13 main_v22 (mulf : (⟨S131072, .f32⟩ : BufTy).Contents (Elt F) → (⟨S131072, .f32⟩ : BufTy).Contents (Elt F) → (⟨S131072, .f32⟩ : BufTy).Contents (Elt F)),
    nullary main_cst_8 (constant S_ .f32 0x3A83126F#32),
    unary main_cst_8 main_v23 (broadcastInDim S131072 ![] bcast_S_S131072 : (⟨S_, .f32⟩ : BufTy).Contents (Elt F) → (⟨S131072, .f32⟩ : BufTy).Contents (Elt F)),
    binary main_v22 main_v23 main_v24 (addf : (⟨S131072, .f32⟩ : BufTy).Contents (Elt F) → (⟨S131072, .f32⟩ : BufTy).Contents (Elt F) → (⟨S131072, .f32⟩ : BufTy).Contents (Elt F)),
    binary main_v21 main_v24 main_v25 (Host.divf : (⟨S131072, .f32⟩ : BufTy).Contents (Elt F) → (⟨S131072, .f32⟩ : BufTy).Contents (Elt F) → (⟨S131072, .f32⟩ : BufTy).Contents (Elt F)),
    binary main_v25 main_v25 main_v26 (mulf : (⟨S131072, .f32⟩ : BufTy).Contents (Elt F) → (⟨S131072, .f32⟩ : BufTy).Contents (Elt F) → (⟨S131072, .f32⟩ : BufTy).Contents (Elt F)),
    binary main_v26 main_v25 main_v27 (mulf : (⟨S131072, .f32⟩ : BufTy).Contents (Elt F) → (⟨S131072, .f32⟩ : BufTy).Contents (Elt F) → (⟨S131072, .f32⟩ : BufTy).Contents (Elt F)),
    nullary main_cst_9 (constant S_ .f32 0x3F800000#32),
    unary main_cst_9 main_v28 (broadcastInDim S131072 ![] bcast_S_S131072 : (⟨S_, .f32⟩ : BufTy).Contents (Elt F) → (⟨S131072, .f32⟩ : BufTy).Contents (Elt F)),
    binary main_v27 main_v28 main_v29 (addf : (⟨S131072, .f32⟩ : BufTy).Contents (Elt F) → (⟨S131072, .f32⟩ : BufTy).Contents (Elt F) → (⟨S131072, .f32⟩ : BufTy).Contents (Elt F)),
    nullary main_cst_10 (constant S_ .f32 0x3A83126F#32),
    unary main_cst_10 main_v30 (broadcastInDim S131072 ![] bcast_S_S131072 : (⟨S_, .f32⟩ : BufTy).Contents (Elt F) → (⟨S131072, .f32⟩ : BufTy).Contents (Elt F)),
    binary main_v29 main_v30 main_v31 (addf : (⟨S131072, .f32⟩ : BufTy).Contents (Elt F) → (⟨S131072, .f32⟩ : BufTy).Contents (Elt F) → (⟨S131072, .f32⟩ : BufTy).Contents (Elt F)),
    nullary main_cst_11 (constant S_ .f32 0x40000000#32),
    unary main_cst_11 main_v32 (broadcastInDim S131072 ![] bcast_S_S131072 : (⟨S_, .f32⟩ : BufTy).Contents (Elt F) → (⟨S131072, .f32⟩ : BufTy).Contents (Elt F)),
    binary main_v31 main_v32 main_v33 (Host.divf : (⟨S131072, .f32⟩ : BufTy).Contents (Elt F) → (⟨S131072, .f32⟩ : BufTy).Contents (Elt F) → (⟨S131072, .f32⟩ : BufTy).Contents (Elt F)),
    unary main_v33 main_v34 (Host.log : (⟨S131072, .f32⟩ : BufTy).Contents (Elt F) → (⟨S131072, .f32⟩ : BufTy).Contents (Elt F)),
    unary main_v34 main_v35 (Host.negf : (⟨S131072, .f32⟩ : BufTy).Contents (Elt F) → (⟨S131072, .f32⟩ : BufTy).Contents (Elt F)),
    nullary main_cst_12 (constant S_ .f32 0xFF800000#32),
    binary main_arg0 main_cst_12 main_v36 ((fun x v => Host.reduce FloatOps.maximumf x v reducesTo_S131072x128_S131072_d1 h_S_) : (⟨S131072x128, .f32⟩ : BufTy).Contents (Elt F) → (⟨S_, .f32⟩ : BufTy).Contents (Elt F) → (⟨S131072, .f32⟩ : BufTy).Contents (Elt F)),
    nullary main_cst_13 (constant S_ .f32 0xFF800000#32),
    unary main_cst_13 main_v37 (broadcastInDim S131072 ![] bcast_S_S131072 : (⟨S_, .f32⟩ : BufTy).Contents (Elt F) → (⟨S131072, .f32⟩ : BufTy).Contents (Elt F)),
    binary main_v37 main_v36 main_v38 (maximumf : (⟨S131072, .f32⟩ : BufTy).Contents (Elt F) → (⟨S131072, .f32⟩ : BufTy).Contents (Elt F) → (⟨S131072, .f32⟩ : BufTy).Contents (Elt F)),
    unary main_v38 main_v39 (broadcastInDim S131072x1 ![0] bcast_S131072_S131072x1_0 : (⟨S131072, .f32⟩ : BufTy).Contents (Elt F) → (⟨S131072x1, .f32⟩ : BufTy).Contents (Elt F)),
    unary main_v39 main_v40 (broadcastInDim S131072x128 ![0, 1] bcast_S131072x1_S131072x128_0_1 : (⟨S131072x1, .f32⟩ : BufTy).Contents (Elt F) → (⟨S131072x128, .f32⟩ : BufTy).Contents (Elt F)),
    binary main_arg0 main_v40 main_v41 (subf : (⟨S131072x128, .f32⟩ : BufTy).Contents (Elt F) → (⟨S131072x128, .f32⟩ : BufTy).Contents (Elt F) → (⟨S131072x128, .f32⟩ : BufTy).Contents (Elt F)),
    unary main_v41 main_v42 (Host.exp : (⟨S131072x128, .f32⟩ : BufTy).Contents (Elt F) → (⟨S131072x128, .f32⟩ : BufTy).Contents (Elt F)),
    nullary main_cst_14 (constant S_ .f32 0x00000000#32),
    binary main_v42 main_cst_14 main_v43 ((fun x v => Host.reduceAdd x v reducesTo_S131072x128_S131072_d1 h_S_) : (⟨S131072x128, .f32⟩ : BufTy).Contents (Elt F) → (⟨S_, .f32⟩ : BufTy).Contents (Elt F) → (⟨S131072, .f32⟩ : BufTy).Contents (Elt F)),
    unary main_v43 main_v44 (broadcastInDim S131072x1 ![0] bcast_S131072_S131072x1_0 : (⟨S131072, .f32⟩ : BufTy).Contents (Elt F) → (⟨S131072x1, .f32⟩ : BufTy).Contents (Elt F)),
    unary main_v44 main_v45 (broadcastInDim S131072x128 ![0, 1] bcast_S131072x1_S131072x128_0_1 : (⟨S131072x1, .f32⟩ : BufTy).Contents (Elt F) → (⟨S131072x128, .f32⟩ : BufTy).Contents (Elt F)),
    binary main_v42 main_v45 main_v46 (Host.divf : (⟨S131072x128, .f32⟩ : BufTy).Contents (Elt F) → (⟨S131072x128, .f32⟩ : BufTy).Contents (Elt F) → (⟨S131072x128, .f32⟩ : BufTy).Contents (Elt F)),
    nullary main_cst_15 (constant S_ .f32 0xFF800000#32),
    binary main_arg1 main_cst_15 main_v47 ((fun x v => Host.reduce FloatOps.maximumf x v reducesTo_S131072x128_S131072_d1 h_S_) : (⟨S131072x128, .f32⟩ : BufTy).Contents (Elt F) → (⟨S_, .f32⟩ : BufTy).Contents (Elt F) → (⟨S131072, .f32⟩ : BufTy).Contents (Elt F)),
    nullary main_cst_16 (constant S_ .f32 0xFF800000#32),
    unary main_cst_16 main_v48 (broadcastInDim S131072 ![] bcast_S_S131072 : (⟨S_, .f32⟩ : BufTy).Contents (Elt F) → (⟨S131072, .f32⟩ : BufTy).Contents (Elt F)),
    binary main_v48 main_v47 main_v49 (maximumf : (⟨S131072, .f32⟩ : BufTy).Contents (Elt F) → (⟨S131072, .f32⟩ : BufTy).Contents (Elt F) → (⟨S131072, .f32⟩ : BufTy).Contents (Elt F)),
    unary main_v49 main_v50 (broadcastInDim S131072x1 ![0] bcast_S131072_S131072x1_0 : (⟨S131072, .f32⟩ : BufTy).Contents (Elt F) → (⟨S131072x1, .f32⟩ : BufTy).Contents (Elt F)),
    unary main_v50 main_v51 (broadcastInDim S131072x128 ![0, 1] bcast_S131072x1_S131072x128_0_1 : (⟨S131072x1, .f32⟩ : BufTy).Contents (Elt F) → (⟨S131072x128, .f32⟩ : BufTy).Contents (Elt F)),
    binary main_arg1 main_v51 main_v52 (subf : (⟨S131072x128, .f32⟩ : BufTy).Contents (Elt F) → (⟨S131072x128, .f32⟩ : BufTy).Contents (Elt F) → (⟨S131072x128, .f32⟩ : BufTy).Contents (Elt F)),
    unary main_v52 main_v53 (Host.exp : (⟨S131072x128, .f32⟩ : BufTy).Contents (Elt F) → (⟨S131072x128, .f32⟩ : BufTy).Contents (Elt F)),
    nullary main_cst_17 (constant S_ .f32 0x00000000#32),
    binary main_v53 main_cst_17 main_v54 ((fun x v => Host.reduceAdd x v reducesTo_S131072x128_S131072_d1 h_S_) : (⟨S131072x128, .f32⟩ : BufTy).Contents (Elt F) → (⟨S_, .f32⟩ : BufTy).Contents (Elt F) → (⟨S131072, .f32⟩ : BufTy).Contents (Elt F)),
    unary main_v54 main_v55 (broadcastInDim S131072x1 ![0] bcast_S131072_S131072x1_0 : (⟨S131072, .f32⟩ : BufTy).Contents (Elt F) → (⟨S131072x1, .f32⟩ : BufTy).Contents (Elt F)),
    unary main_v55 main_v56 (broadcastInDim S131072x128 ![0, 1] bcast_S131072x1_S131072x128_0_1 : (⟨S131072x1, .f32⟩ : BufTy).Contents (Elt F) → (⟨S131072x128, .f32⟩ : BufTy).Contents (Elt F)),
    binary main_v53 main_v56 main_v57 (Host.divf : (⟨S131072x128, .f32⟩ : BufTy).Contents (Elt F) → (⟨S131072x128, .f32⟩ : BufTy).Contents (Elt F) → (⟨S131072x128, .f32⟩ : BufTy).Contents (Elt F)),
    binary main_v46 main_v57 main_v58 (subf : (⟨S131072x128, .f32⟩ : BufTy).Contents (Elt F) → (⟨S131072x128, .f32⟩ : BufTy).Contents (Elt F) → (⟨S131072x128, .f32⟩ : BufTy).Contents (Elt F)),
    unary main_v58 main_v59 (Host.absf : (⟨S131072x128, .f32⟩ : BufTy).Contents (Elt F) → (⟨S131072x128, .f32⟩ : BufTy).Contents (Elt F)),
    nullary main_cst_18 (constant S_ .f32 0x00000000#32),
    binary main_v59 main_cst_18 main_v60 ((fun x v => Host.reduceAdd x v reducesTo_S131072x128_S131072_d1 h_S_) : (⟨S131072x128, .f32⟩ : BufTy).Contents (Elt F) → (⟨S_, .f32⟩ : BufTy).Contents (Elt F) → (⟨S131072, .f32⟩ : BufTy).Contents (Elt F)),
    nullary main_cst_19 (constant S_ .f32 0x43000000#32),
    unary main_cst_19 main_v61 (broadcastInDim S131072 ![] bcast_S_S131072 : (⟨S_, .f32⟩ : BufTy).Contents (Elt F) → (⟨S131072, .f32⟩ : BufTy).Contents (Elt F)),
    binary main_v60 main_v61 main_v62 (Host.divf : (⟨S131072, .f32⟩ : BufTy).Contents (Elt F) → (⟨S131072, .f32⟩ : BufTy).Contents (Elt F) → (⟨S131072, .f32⟩ : BufTy).Contents (Elt F)),
    unary main_v27 main_v63 (Host.absf : (⟨S131072, .f32⟩ : BufTy).Contents (Elt F) → (⟨S131072, .f32⟩ : BufTy).Contents (Elt F)),
    binary main_v63 main_v35 main_v64 (mulf : (⟨S131072, .f32⟩ : BufTy).Contents (Elt F) → (⟨S131072, .f32⟩ : BufTy).Contents (Elt F) → (⟨S131072, .f32⟩ : BufTy).Contents (Elt F)),
    nullary main_cst_20 (constant S_ .f32 0x3F800000#32),
    unary main_cst_20 main_v65 (broadcastInDim S131072 ![] bcast_S_S131072 : (⟨S_, .f32⟩ : BufTy).Contents (Elt F) → (⟨S131072, .f32⟩ : BufTy).Contents (Elt F)),
    binary main_v65 main_v63 main_v66 (subf : (⟨S131072, .f32⟩ : BufTy).Contents (Elt F) → (⟨S131072, .f32⟩ : BufTy).Contents (Elt F) → (⟨S131072, .f32⟩ : BufTy).Contents (Elt F)),
    binary main_v66 main_v62 main_v67 (mulf : (⟨S131072, .f32⟩ : BufTy).Contents (Elt F) → (⟨S131072, .f32⟩ : BufTy).Contents (Elt F) → (⟨S131072, .f32⟩ : BufTy).Contents (Elt F)),
    binary main_v64 main_v67 main_v68 (addf : (⟨S131072, .f32⟩ : BufTy).Contents (Elt F) → (⟨S131072, .f32⟩ : BufTy).Contents (Elt F) → (⟨S131072, .f32⟩ : BufTy).Contents (Elt F)),
    nullary main_cst_21 (constant S_ .f32 0x00000000#32),
    binary main_v68 main_cst_21 main_v69 ((fun x v => Host.reduceAdd x v reducesTo_S131072_S_d0 h_S_) : (⟨S131072, .f32⟩ : BufTy).Contents (Elt F) → (⟨S_, .f32⟩ : BufTy).Contents (Elt F) → (⟨S_, .f32⟩ : BufTy).Contents (Elt F)),
    reshape main_v69 main_v70 rfl shapeCasts_S_S1 ]

/-- The buffer each operation writes, in order. -/
abbrev W : List (Ref sig .tc) :=
  [ main_cst, main_v0, main_v1, main_cst_0, main_v2, main_v3,
    main_cst_1, main_v4, main_v5, main_cst_2, main_v6, main_v7,
    main_cst_3, main_v8, main_v9, main_cst_4, main_v10, main_v11,
    main_c, main_call0_call0_cst, main_call0_call0_v0, main_call0_call0_v1, main_call0_call0_cst_0, main_call0_call0_v2,
    main_call0_call0_v3, main_call0_call0_v4, main_call0_call0_v5, main_call0_call0_v6, main_call0_call0_v7, main_call0_call0_cst_1,
    main_call0_call0_v8, main_call0_call0_cst_2, main_call0_call0_v9, main_call0_call0_v10, main_call0_call0_v11, main_call0_call0_cst_3,
    main_call0_call0_v12, main_call0_call0_cst_4, main_call0_call0_call0_v0, main_call0_call0_call0_v1, main_call0_v0, main_v12,
    main_c_5, main_call1_call0_cst, main_call1_call0_v0, main_call1_call0_v1, main_call1_call0_cst_0, main_call1_call0_v2,
    main_call1_call0_v3, main_call1_call0_v4, main_call1_call0_v5, main_call1_call0_v6, main_call1_call0_v7, main_call1_call0_cst_1,
    main_call1_call0_v8, main_call1_call0_cst_2, main_call1_call0_v9, main_call1_call0_v10, main_call1_call0_v11, main_call1_call0_cst_3,
    main_call1_call0_v12, main_call1_call0_cst_4, main_call1_call0_call0_v0, main_call1_call0_call0_v1, main_call1_v0, main_v13,
    main_v14, main_v15, main_v16, main_v17, main_v18, main_cst_6,
    main_v19, main_cst_7, main_v20, main_v21, main_v22, main_cst_8,
    main_v23, main_v24, main_v25, main_v26, main_v27, main_cst_9,
    main_v28, main_v29, main_cst_10, main_v30, main_v31, main_cst_11,
    main_v32, main_v33, main_v34, main_v35, main_cst_12, main_v36,
    main_cst_13, main_v37, main_v38, main_v39, main_v40, main_v41,
    main_v42, main_cst_14, main_v43, main_v44, main_v45, main_v46,
    main_cst_15, main_v47, main_cst_16, main_v48, main_v49, main_v50,
    main_v51, main_v52, main_v53, main_cst_17, main_v54, main_v55,
    main_v56, main_v57, main_v58, main_v59, main_cst_18, main_v60,
    main_cst_19, main_v61, main_v62, main_v63, main_v64, main_cst_20,
    main_v65, main_v66, main_v67, main_v68, main_cst_21, main_v69,
    main_v70 ]

set_option maxRecDepth 8192 in
set_option maxHeartbeats 4000000 in
/-- @main is that straight line: the two windows in order, the functions' definitions unfolded at their calls and the
    records at their fields, both sides are one chain of steps once sequencing is reassociated. -/
theorem main_eq (c : Dev nD) : main (F := F) c = seq ops := by
  simp only [main, main_part0, main_part1, fn_std.body, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., binary_bufs_sub .., unary_bufs_sub .., nullary_bufs_sub .., unary_bufs_sub .., binary_bufs_sub ..,
    nullary_bufs_sub .., unary_bufs_sub .., binary_bufs_sub .., nullary_bufs_sub .., binary_bufs_sub .., unary_bufs_sub ..,
    nullary_bufs_sub .., unary_bufs_sub .., binary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub .., unary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub .., unary_bufs_sub ..,
    unary_bufs_sub .., binary_bufs_sub .., unary_bufs_sub .., binary_bufs_sub .., binary_bufs_sub .., nullary_bufs_sub ..,
    binary_bufs_sub .., nullary_bufs_sub .., unary_bufs_sub .., binary_bufs_sub .., binary_bufs_sub .., nullary_bufs_sub ..,
    unary_bufs_sub .., binary_bufs_sub .., binary_bufs_sub .., binary_bufs_sub .., binary_bufs_sub .., nullary_bufs_sub ..,
    unary_bufs_sub .., binary_bufs_sub .., nullary_bufs_sub .., unary_bufs_sub .., binary_bufs_sub .., nullary_bufs_sub ..,
    unary_bufs_sub .., binary_bufs_sub .., unary_bufs_sub .., unary_bufs_sub .., nullary_bufs_sub .., binary_bufs_sub ..,
    nullary_bufs_sub .., unary_bufs_sub .., binary_bufs_sub .., unary_bufs_sub .., unary_bufs_sub .., binary_bufs_sub ..,
    unary_bufs_sub .., nullary_bufs_sub .., binary_bufs_sub .., unary_bufs_sub .., unary_bufs_sub .., binary_bufs_sub ..,
    nullary_bufs_sub .., binary_bufs_sub .., nullary_bufs_sub .., unary_bufs_sub .., binary_bufs_sub .., unary_bufs_sub ..,
    unary_bufs_sub .., binary_bufs_sub .., unary_bufs_sub .., nullary_bufs_sub .., binary_bufs_sub .., unary_bufs_sub ..,
    unary_bufs_sub .., binary_bufs_sub .., binary_bufs_sub .., unary_bufs_sub .., nullary_bufs_sub .., binary_bufs_sub ..,
    nullary_bufs_sub .., unary_bufs_sub .., binary_bufs_sub .., unary_bufs_sub .., binary_bufs_sub .., nullary_bufs_sub ..,
    unary_bufs_sub .., binary_bufs_sub .., binary_bufs_sub .., binary_bufs_sub .., nullary_bufs_sub .., binary_bufs_sub ..,
    reshape_bufs_sub ..⟩

set_option maxRecDepth 8192 in
/-- Position by position, the operations write exactly the buffers of `W`. -/
theorem aligned : AlignedLines.Aligned (ops (F := F)) W := by
  unfold AlignedLines.Aligned
  repeat (first | exact List.Forall₂.nil | refine List.Forall₂.cons rfl ?_)

set_option maxRecDepth 8192 in
set_option maxHeartbeats 4000000 in
/-- At the compiled mesh, for any float values, from any memory with zero counters: every weakly fair execution of
    @main on the TensorCores terminates, and every final state has each TensorCore buffer at the operations' fold over
    the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.LibTypedLines.lean ====
/-
  Straight lines of host operations written through TYPED references.

  A typed reference is a buffer together with the fact that its type is a given value type; the typed builders
  transport contents along that fact when they read an operand and when they write the result. For a line in which
  operation `j` writes exactly reference `j` of a list `W` (the aligned lines of `LibAlignedLines`), the final
  contents of the result, READ AT ITS VALUE TYPE, are the operation's function of the final contents of the operands
  read at theirs: the transports stand outside the function, on single buffers. The type facts are equations whose
  one side is a variable, so they are substituted away and each statement is the untyped one.
-/
import proofs.«145982_j28741921145431_2_alg».proof.Proof.LibAlignedLines

noncomputable section

namespace Idealize.ShloMosaic.StableHlo.AlignedLines

open Idealize.ShloMosaic Idealize.SL.Sem Idealize.ShloMosaic.StableHlo

variable {τ : Topo} {sig : RefSig} {Val : EltTy → Type}
variable {l : List (HloOp τ sig Val)} {W : List (Ref sig .tc)}

/-- A typed two-operand operation at position `j`: its result, read at its value type, is the function of the
    operands' final contents read at theirs. -/
theorem Aligned.tbinary_at (h : Aligned l W) (V : Valuation τ sig Val) (j : Nat) {Ta Tb Ty : BufTy}
    (a : TRef sig Ta) (b : TRef sig Tb) (y : TRef sig Ty) (f : Ta.Contents Val → Tb.Contents Val → Ty.Contents Val)
    (hop : l[j]? = some (TRef.binary a b y f)) (hy' : y.ref ∉ W.drop (j + 1)) (ha' : a.ref ∉ W.drop j) (hb' : b.ref ∉ W.drop j) :
    y.ofBuf (after l V (Proc.devRef .tc y.ref))
      = f (a.ofBuf (after l V (Proc.devRef .tc a.ref))) (b.ofBuf (after l V (Proc.devRef .tc b.ref))) := by
  obtain ⟨ra, rfl, _, _⟩ := a
  obtain ⟨rb, rfl, _, _⟩ := b
  obtain ⟨ry, rfl, _, _⟩ := y
  exact h.binary_at V j hop hy' ha' hb'

/-- A typed three-operand operation at position `j`, likewise. -/
theorem Aligned.tternary_at (h : Aligned l W) (V : Valuation τ sig Val) (j : Nat) {Tc Ta Tb Ty : BufTy}
    (c : TRef sig Tc) (a : TRef sig Ta) (b : TRef sig Tb) (y : TRef sig Ty)
    (f : Tc.Contents Val → Ta.Contents Val → Tb.Contents Val → Ty.Contents Val)
    (hop : l[j]? = some (TRef.ternary c a b y f)) (hy' : y.ref ∉ W.drop (j + 1))
    (hc' : c.ref ∉ W.drop j) (ha' : a.ref ∉ W.drop j) (hb' : b.ref ∉ W.drop j) :
    y.ofBuf (after l V (Proc.devRef .tc y.ref))
      = f (c.ofBuf (after l V (Proc.devRef .tc c.ref))) (a.ofBuf (after l V (Proc.devRef .tc a.ref)))
          (b.ofBuf (after l V (Proc.devRef .tc b.ref))) := by
  obtain ⟨rc, rfl, _, _⟩ := c
  obtain ⟨ra, rfl, _, _⟩ := a
  obtain ⟨rb, rfl, _, _⟩ := b
  obtain ⟨ry, rfl, _, _⟩ := y
  exact h.ternary_at V j hop hy' hc' ha' hb'

/-- A typed one-operand operation at position `j`, likewise. -/
theorem Aligned.tunary_at (h : Aligned l W) (V : Valuation τ sig Val) (j : Nat) {Tx Ty : BufTy}
    (x : TRef sig Tx) (y : TRef sig Ty) (f : Tx.Contents Val → Ty.Contents Val)
    (hop : l[j]? = some (TRef.unary x y f)) (hy' : y.ref ∉ W.drop (j + 1)) (hx' : x.ref ∉ W.drop j) :
    y.ofBuf (after l V (Proc.devRef .tc y.ref)) = f (x.ofBuf (after l V (Proc.devRef .tc x.ref))) := by
  obtain ⟨rx, rfl, _, _⟩ := x
  obtain ⟨ry, rfl, _, _⟩ := y
  exact h.unary_at V j hop hy' hx'

end Idealize.ShloMosaic.StableHlo.AlignedLines

end
-- ==== Proof.RefValueLines.lean ====
/-
  The reference's line of operations read one operation at a time, at the exact instance.

  `Z V` is the fold of the whole line over the contents `V`. Every operation writes a buffer of its own, so the final
  contents of an operation's result are its function of the final contents of its operands: one equation per buffer,
  139 of them, and the two argument buffers, which no operation writes, keep their contents. The fold itself is never
  unfolded: each equation comes from the position of the operation in the line and of its buffers in the list of
  written buffers.
-/
import proofs.«145982_j28741921145431_2_alg».proof.Proof.RefRun
import proofs.«145982_j28741921145431_2_alg».proof.Proof.LibTypedLines
import Idealize.ShloMosaic.PureOps.Ideal

set_option maxRecDepth 16384

noncomputable section

namespace Idealize.ShloMosaic.StableHlo.AlignedLines

open Idealize.ShloMosaic Idealize.SL.Sem Idealize.ShloMosaic.StableHlo

/-- A typed operation without operands at position `j`: its result, read at its value type, is the stated value. -/
theorem Aligned.tnullary_at {τ : Topo} {sig : RefSig} {Val : EltTy → Type}
    {l : List (HloOp τ sig Val)} {W : List (Ref sig .tc)} (h : Aligned l W) (V : Valuation τ sig Val) (j : Nat) {Ty : BufTy}
    (y : TRef sig Ty) (v : Ty.Contents Val)
    (hop : l[j]? = some (TRef.nullary y v)) (hy' : y.ref ∉ W.drop (j + 1)) :
    y.ofBuf (after l V (Proc.devRef .tc y.ref)) = v := by
  obtain ⟨ry, rfl, _, _⟩ := y
  exact h.nullary_at V j hop hy'

end Idealize.ShloMosaic.StableHlo.AlignedLines

namespace Cert.ReferenceIdeal.RefValue

open Cert.ReferenceIdeal Cert.ReferenceIdeal.Gen Cert.ReferenceIdeal.RefRun Idealize.ShloMosaic Idealize.ShloMosaic.TcCoe Idealize.SL.Sem Idealize.ShloMosaic.StableHlo Idealize.ShloMosaic.StableHlo.AlignedLines

/-- The final contents of every buffer: the fold of the line over the launch contents. -/
def Z (V : Valuation τ sig (Elt Ideal)) : Valuation τ sig (Elt Ideal) := after (ops (F := Ideal)) V

theorem Z_def (V : Valuation τ sig (Elt Ideal)) : after (ops (F := Ideal)) V = Z V := rfl

variable (V : Valuation τ sig (Elt Ideal))

/-- No operation writes the first argument. -/
theorem l_arg0 : Z V (main_arg0 : DevRef τ sig) = V (main_arg0 : DevRef τ sig) :=
  (aligned (F := Ideal)).after_of_not_mem V (by decide)

/-- No operation writes the second argument. -/
theorem l_arg1 : Z V (main_arg1 : DevRef τ sig) = V (main_arg1 : DevRef τ sig) :=
  (aligned (F := Ideal)).after_of_not_mem V (by decide)

theorem l_cst : (Z V (main_cst : DevRef τ sig) : FVec Ideal S_ .f32) = constant (F := Ideal) S_ .f32 0x00000000#32 :=
  (aligned (F := Ideal)).nullary_at V 0 rfl (by decide)

theorem l_v0 : (Z V (main_v0 : DevRef τ sig) : FVec Ideal S131072 .f32) = Host.reduceAdd (F := Ideal) (s := S131072x128) (φ := .f32) (u := S_) (Z V (main_arg0 : DevRef τ sig) : FVec Ideal S131072x128 .f32) (Z V (main_cst : DevRef τ sig) : FVec Ideal S_ .f32) reducesTo_S131072x128_S131072_d1 h_S_ :=
  (aligned (F := Ideal)).binary_at V 1 rfl (by decide) (by decide) (by decide)

theorem l_v1 : (Z V (main_v1 : DevRef τ sig) : FVec Ideal S131072x1 .f32) = broadcastInDim (s := S131072) (α := Ideal .f32) S131072x1 ![0] bcast_S131072_S131072x1_0 (Z V (main_v0 : DevRef τ sig) : FVec Ideal S131072 .f32) :=
  (aligned (F := Ideal)).unary_at V 2 rfl (by decide) (by decide)

theorem l_cst_0 : (Z V (main_cst_0 : DevRef τ sig) : FVec Ideal S_ .f32) = constant (F := Ideal) S_ .f32 0x43000000#32 :=
  (aligned (F := Ideal)).nullary_at V 3 rfl (by decide)

theorem l_v2 : (Z V (main_v2 : DevRef τ sig) : FVec Ideal S131072x1 .f32) = broadcastInDim (s := S_) (α := Ideal .f32) S131072x1 ![] bcast_S_S131072x1 (Z V (main_cst_0 : DevRef τ sig) : FVec Ideal S_ .f32) :=
  (aligned (F := Ideal)).unary_at V 4 rfl (by decide) (by decide)

theorem l_v3 : (Z V (main_v3 : DevRef τ sig) : FVec Ideal S131072x1 .f32) = Host.divf (F := Ideal) (s := S131072x1) (φ := .f32) (Z V (main_v1 : DevRef τ sig) : FVec Ideal S131072x1 .f32) (Z V (main_v2 : DevRef τ sig) : FVec Ideal S131072x1 .f32) :=
  (aligned (F := Ideal)).binary_at V 5 rfl (by decide) (by decide) (by decide)

theorem l_cst_1 : (Z V (main_cst_1 : DevRef τ sig) : FVec Ideal S_ .f32) = constant (F := Ideal) S_ .f32 0x3A83126F#32 :=
  (aligned (F := Ideal)).nullary_at V 6 rfl (by decide)

theorem l_v4 : (Z V (main_v4 : DevRef τ sig) : FVec Ideal S131072x1 .f32) = broadcastInDim (s := S_) (α := Ideal .f32) S131072x1 ![] bcast_S_S131072x1 (Z V (main_cst_1 : DevRef τ sig) : FVec Ideal S_ .f32) :=
  (aligned (F := Ideal)).unary_at V 7 rfl (by decide) (by decide)

theorem l_v5 : (Z V (main_v5 : DevRef τ sig) : FVec Ideal S131072x1 .f32) = addf (F := Ideal) (s := S131072x1) (φ := .f32) (Z V (main_v3 : DevRef τ sig) : FVec Ideal S131072x1 .f32) (Z V (main_v4 : DevRef τ sig) : FVec Ideal S131072x1 .f32) :=
  (aligned (F := Ideal)).binary_at V 8 rfl (by decide) (by decide) (by decide)

theorem l_cst_2 : (Z V (main_cst_2 : DevRef τ sig) : FVec Ideal S_ .f32) = constant (F := Ideal) S_ .f32 0x00000000#32 :=
  (aligned (F := Ideal)).nullary_at V 9 rfl (by decide)

theorem l_v6 : (Z V (main_v6 : DevRef τ sig) : FVec Ideal S131072 .f32) = Host.reduceAdd (F := Ideal) (s := S131072x128) (φ := .f32) (u := S_) (Z V (main_arg1 : DevRef τ sig) : FVec Ideal S131072x128 .f32) (Z V (main_cst_2 : DevRef τ sig) : FVec Ideal S_ .f32) reducesTo_S131072x128_S131072_d1 h_S_ :=
  (aligned (F := Ideal)).binary_at V 10 rfl (by decide) (by decide) (by decide)

theorem l_v7 : (Z V (main_v7 : DevRef τ sig) : FVec Ideal S131072x1 .f32) = broadcastInDim (s := S131072) (α := Ideal .f32) S131072x1 ![0] bcast_S131072_S131072x1_0 (Z V (main_v6 : DevRef τ sig) : FVec Ideal S131072 .f32) :=
  (aligned (F := Ideal)).unary_at V 11 rfl (by decide) (by decide)

theorem l_cst_3 : (Z V (main_cst_3 : DevRef τ sig) : FVec Ideal S_ .f32) = constant (F := Ideal) S_ .f32 0x43000000#32 :=
  (aligned (F := Ideal)).nullary_at V 12 rfl (by decide)

theorem l_v8 : (Z V (main_v8 : DevRef τ sig) : FVec Ideal S131072x1 .f32) = broadcastInDim (s := S_) (α := Ideal .f32) S131072x1 ![] bcast_S_S131072x1 (Z V (main_cst_3 : DevRef τ sig) : FVec Ideal S_ .f32) :=
  (aligned (F := Ideal)).unary_at V 13 rfl (by decide) (by decide)

theorem l_v9 : (Z V (main_v9 : DevRef τ sig) : FVec Ideal S131072x1 .f32) = Host.divf (F := Ideal) (s := S131072x1) (φ := .f32) (Z V (main_v7 : DevRef τ sig) : FVec Ideal S131072x1 .f32) (Z V (main_v8 : DevRef τ sig) : FVec Ideal S131072x1 .f32) :=
  (aligned (F := Ideal)).binary_at V 14 rfl (by decide) (by decide) (by decide)

theorem l_cst_4 : (Z V (main_cst_4 : DevRef τ sig) : FVec Ideal S_ .f32) = constant (F := Ideal) S_ .f32 0x3A83126F#32 :=
  (aligned (F := Ideal)).nullary_at V 15 rfl (by decide)

theorem l_v10 : (Z V (main_v10 : DevRef τ sig) : FVec Ideal S131072x1 .f32) = broadcastInDim (s := S_) (α := Ideal .f32) S131072x1 ![] bcast_S_S131072x1 (Z V (main_cst_4 : DevRef τ sig) : FVec Ideal S_ .f32) :=
  (aligned (F := Ideal)).unary_at V 16 rfl (by decide) (by decide)

theorem l_v11 : (Z V (main_v11 : DevRef τ sig) : FVec Ideal S131072x1 .f32) = addf (F := Ideal) (s := S131072x1) (φ := .f32) (Z V (main_v9 : DevRef τ sig) : FVec Ideal S131072x1 .f32) (Z V (main_v10 : DevRef τ sig) : FVec Ideal S131072x1 .f32) :=
  (aligned (F := Ideal)).binary_at V 17 rfl (by decide) (by decide) (by decide)

theorem l_c : (Z V (main_c : DevRef τ sig) : IVec S_ 32) = constantI S_ 32 1#32 :=
  (aligned (F := Ideal)).nullary_at V 18 rfl (by decide)

theorem l_call0_call0_cst : (Z V (main_call0_call0_cst : DevRef τ sig) : FVec Ideal S_ .f32) = constant (F := Ideal) S_ .f32 0x00000000#32 :=
  (aligned (F := Ideal)).tnullary_at V 19 main_call0.call0.cst (constant (F := Ideal) S_ .f32 0x00000000#32) rfl (by decide)

theorem l_call0_call0_v0 : (Z V (main_call0_call0_v0 : DevRef τ sig) : FVec Ideal S131072 .f32) = Host.reduceAdd (F := Ideal) (s := S131072x128) (φ := .f32) (u := S_) (Z V (main_arg0 : DevRef τ sig) : FVec Ideal S131072x128 .f32) (Z V (main_call0_call0_cst : DevRef τ sig) : FVec Ideal S_ .f32) reducesTo_S131072x128_S131072_d1 h_S_ :=
  (aligned (F := Ideal)).tbinary_at V 20 (.of main_arg0 : TRef sig ⟨S131072x128, .f32⟩) main_call0.call0.cst main_call0.call0.v0 (fun x v => Host.reduceAdd (F := Ideal) (s := S131072x128) (φ := .f32) (u := S_) x v reducesTo_S131072x128_S131072_d1 h_S_) rfl (by decide) (by decide) (by decide)

theorem l_call0_call0_v1 : (Z V (main_call0_call0_v1 : DevRef τ sig) : FVec Ideal S131072x1 .f32) = broadcastInDim (s := S131072) (α := Ideal .f32) S131072x1 ![0] bcast_S131072_S131072x1_0 (Z V (main_call0_call0_v0 : DevRef τ sig) : FVec Ideal S131072 .f32) :=
  (aligned (F := Ideal)).tunary_at V 21 main_call0.call0.v0 main_call0.call0.v1 (broadcastInDim (s := S131072) (α := Ideal .f32) S131072x1 ![0] bcast_S131072_S131072x1_0) rfl (by decide) (by decide)

theorem l_call0_call0_cst_0 : (Z V (main_call0_call0_cst_0 : DevRef τ sig) : FVec Ideal S_ .f32) = constant (F := Ideal) S_ .f32 0x43000000#32 :=
  (aligned (F := Ideal)).tnullary_at V 22 main_call0.call0.cst_0 (constant (F := Ideal) S_ .f32 0x43000000#32) rfl (by decide)

theorem l_call0_call0_v2 : (Z V (main_call0_call0_v2 : DevRef τ sig) : FVec Ideal S131072x1 .f32) = broadcastInDim (s := S_) (α := Ideal .f32) S131072x1 ![] bcast_S_S131072x1 (Z V (main_call0_call0_cst_0 : DevRef τ sig) : FVec Ideal S_ .f32) :=
  (aligned (F := Ideal)).tunary_at V 23 main_call0.call0.cst_0 main_call0.call0.v2 (broadcastInDim (s := S_) (α := Ideal .f32) S131072x1 ![] bcast_S_S131072x1) rfl (by decide) (by decide)

theorem l_call0_call0_v3 : (Z V (main_call0_call0_v3 : DevRef τ sig) : FVec Ideal S131072x1 .f32) = Host.divf (F := Ideal) (s := S131072x1) (φ := .f32) (Z V (main_call0_call0_v1 : DevRef τ sig) : FVec Ideal S131072x1 .f32) (Z V (main_call0_call0_v2 : DevRef τ sig) : FVec Ideal S131072x1 .f32) :=
  (aligned (F := Ideal)).tbinary_at V 24 main_call0.call0.v1 main_call0.call0.v2 main_call0.call0.v3 (Host.divf (F := Ideal) (s := S131072x1) (φ := .f32)) rfl (by decide) (by decide) (by decide)

theorem l_call0_call0_v4 : (Z V (main_call0_call0_v4 : DevRef τ sig) : FVec Ideal S131072x128 .f32) = broadcastInDim (s := S131072x1) (α := Ideal .f32) S131072x128 ![0, 1] bcast_S131072x1_S131072x128_0_1 (Z V (main_call0_call0_v3 : DevRef τ sig) : FVec Ideal S131072x1 .f32) :=
  (aligned (F := Ideal)).tunary_at V 25 main_call0.call0.v3 main_call0.call0.v4 (broadcastInDim (s := S131072x1) (α := Ideal .f32) S131072x128 ![0, 1] bcast_S131072x1_S131072x128_0_1) rfl (by decide) (by decide)

theorem l_call0_call0_v5 : (Z V (main_call0_call0_v5 : DevRef τ sig) : FVec Ideal S131072x128 .f32) = subf (F := Ideal) (s := S131072x128) (φ := .f32) (Z V (main_arg0 : DevRef τ sig) : FVec Ideal S131072x128 .f32) (Z V (main_call0_call0_v4 : DevRef τ sig) : FVec Ideal S131072x128 .f32) :=
  (aligned (F := Ideal)).tbinary_at V 26 (.of main_arg0 : TRef sig ⟨S131072x128, .f32⟩) main_call0.call0.v4 main_call0.call0.v5 (subf (F := Ideal) (s := S131072x128) (φ := .f32)) rfl (by decide) (by decide) (by decide)

theorem l_call0_call0_v6 : (Z V (main_call0_call0_v6 : DevRef τ sig) : FVec Ideal S131072x128 .f32) = mulf (F := Ideal) (s := S131072x128) (φ := .f32) (Z V (main_call0_call0_v5 : DevRef τ sig) : FVec Ideal S131072x128 .f32) (Z V (main_call0_call0_v5 : DevRef τ sig) : FVec Ideal S131072x128 .f32) :=
  (aligned (F := Ideal)).tbinary_at V 27 main_call0.call0.v5 main_call0.call0.v5 main_call0.call0.v6 (mulf (F := Ideal) (s := S131072x128) (φ := .f32)) rfl (by decide) (by decide) (by decide)

theorem l_call0_call0_v7 : (Z V (main_call0_call0_v7 : DevRef τ sig) : FVec Ideal S_ .f32) = sitofp (F := Ideal) (s := S_) (w := 32) .f32 (Z V (main_c : DevRef τ sig) : IVec S_ 32) :=
  (aligned (F := Ideal)).tunary_at V 28 (.of main_c : TRef sig ⟨S_, .i32⟩) main_call0.call0.v7 (sitofp (F := Ideal) (s := S_) (w := 32) .f32) rfl (by decide) (by decide)

theorem l_call0_call0_cst_1 : (Z V (main_call0_call0_cst_1 : DevRef τ sig) : FVec Ideal S_ .f32) = constant (F := Ideal) S_ .f32 0x43000000#32 :=
  (aligned (F := Ideal)).tnullary_at V 29 main_call0.call0.cst_1 (constant (F := Ideal) S_ .f32 0x43000000#32) rfl (by decide)

theorem l_call0_call0_v8 : (Z V (main_call0_call0_v8 : DevRef τ sig) : FVec Ideal S_ .f32) = subf (F := Ideal) (s := S_) (φ := .f32) (Z V (main_call0_call0_cst_1 : DevRef τ sig) : FVec Ideal S_ .f32) (Z V (main_call0_call0_v7 : DevRef τ sig) : FVec Ideal S_ .f32) :=
  (aligned (F := Ideal)).tbinary_at V 30 main_call0.call0.cst_1 main_call0.call0.v7 main_call0.call0.v8 (subf (F := Ideal) (s := S_) (φ := .f32)) rfl (by decide) (by decide) (by decide)

theorem l_call0_call0_cst_2 : (Z V (main_call0_call0_cst_2 : DevRef τ sig) : FVec Ideal S_ .f32) = constant (F := Ideal) S_ .f32 0x00000000#32 :=
  (aligned (F := Ideal)).tnullary_at V 31 main_call0.call0.cst_2 (constant (F := Ideal) S_ .f32 0x00000000#32) rfl (by decide)

theorem l_call0_call0_v9 : (Z V (main_call0_call0_v9 : DevRef τ sig) : FVec Ideal S131072 .f32) = Host.reduceAdd (F := Ideal) (s := S131072x128) (φ := .f32) (u := S_) (Z V (main_call0_call0_v6 : DevRef τ sig) : FVec Ideal S131072x128 .f32) (Z V (main_call0_call0_cst_2 : DevRef τ sig) : FVec Ideal S_ .f32) reducesTo_S131072x128_S131072_d1 h_S_ :=
  (aligned (F := Ideal)).tbinary_at V 32 main_call0.call0.v6 main_call0.call0.cst_2 main_call0.call0.v9 (fun x v => Host.reduceAdd (F := Ideal) (s := S131072x128) (φ := .f32) (u := S_) x v reducesTo_S131072x128_S131072_d1 h_S_) rfl (by decide) (by decide) (by decide)

theorem l_call0_call0_v10 : (Z V (main_call0_call0_v10 : DevRef τ sig) : FVec Ideal S131072 .f32) = broadcastInDim (s := S_) (α := Ideal .f32) S131072 ![] bcast_S_S131072 (Z V (main_call0_call0_v8 : DevRef τ sig) : FVec Ideal S_ .f32) :=
  (aligned (F := Ideal)).tunary_at V 33 main_call0.call0.v8 main_call0.call0.v10 (broadcastInDim (s := S_) (α := Ideal .f32) S131072 ![] bcast_S_S131072) rfl (by decide) (by decide)

theorem l_call0_call0_v11 : (Z V (main_call0_call0_v11 : DevRef τ sig) : FVec Ideal S131072 .f32) = Host.divf (F := Ideal) (s := S131072) (φ := .f32) (Z V (main_call0_call0_v9 : DevRef τ sig) : FVec Ideal S131072 .f32) (Z V (main_call0_call0_v10 : DevRef τ sig) : FVec Ideal S131072 .f32) :=
  (aligned (F := Ideal)).tbinary_at V 34 main_call0.call0.v9 main_call0.call0.v10 main_call0.call0.v11 (Host.divf (F := Ideal) (s := S131072) (φ := .f32)) rfl (by decide) (by decide) (by decide)

theorem l_call0_call0_cst_3 : (Z V (main_call0_call0_cst_3 : DevRef τ sig) : FVec Ideal S_ .f32) = constant (F := Ideal) S_ .f32 0x00000000#32 :=
  (aligned (F := Ideal)).tnullary_at V 35 main_call0.call0.cst_3 (constant (F := Ideal) S_ .f32 0x00000000#32) rfl (by decide)

theorem l_call0_call0_v12 : (Z V (main_call0_call0_v12 : DevRef τ sig) : IVec S_ 1) = cmpf (F := Ideal) (s := S_) (φ := .f32) .ogt (Z V (main_call0_call0_v8 : DevRef τ sig) : FVec Ideal S_ .f32) (Z V (main_call0_call0_cst_3 : DevRef τ sig) : FVec Ideal S_ .f32) :=
  (aligned (F := Ideal)).tbinary_at V 36 main_call0.call0.v8 main_call0.call0.cst_3 main_call0.call0.v12 (cmpf (F := Ideal) (s := S_) (φ := .f32) .ogt) rfl (by decide) (by decide) (by decide)

theorem l_call0_call0_cst_4 : (Z V (main_call0_call0_cst_4 : DevRef τ sig) : FVec Ideal S_ .f32) = constant (F := Ideal) S_ .f32 0x7FC00000#32 :=
  (aligned (F := Ideal)).tnullary_at V 37 main_call0.call0.cst_4 (constant (F := Ideal) S_ .f32 0x7FC00000#32) rfl (by decide)

theorem l_call0_call0_call0_v0 : (Z V (main_call0_call0_call0_v0 : DevRef τ sig) : FVec Ideal S_ .f32) = (Z V (main_call0_call0_cst_4 : DevRef τ sig) : FVec Ideal S_ .f32) :=
  (aligned (F := Ideal)).tunary_at V 38 main_call0.call0.cst_4 main_call0.call0.call0.v0 id rfl (by decide) (by decide)

theorem l_call0_call0_call0_v1 : (Z V (main_call0_call0_call0_v1 : DevRef τ sig) : FVec Ideal S131072 .f32) = broadcastInDim (s := S_) (α := Ideal .f32) S131072 ![] bcast_S_S131072 (Z V (main_call0_call0_call0_v0 : DevRef τ sig) : FVec Ideal S_ .f32) :=
  (aligned (F := Ideal)).tunary_at V 39 main_call0.call0.call0.v0 main_call0.call0.call0.v1 (broadcastInDim (s := S_) (α := Ideal .f32) S131072 ![] bcast_S_S131072) rfl (by decide) (by decide)

theorem l_call0_v0 : (Z V (main_call0_v0 : DevRef τ sig) : FVec Ideal S131072 .f32) = select (s := S131072) (α := Ideal .f32) (broadcastInDim (s := S_) (α := BitVec 1) S131072 ![] bcast_S_S131072 (Z V (main_call0_call0_v12 : DevRef τ sig) : IVec S_ 1)) (Z V (main_call0_call0_v11 : DevRef τ sig) : FVec Ideal S131072 .f32) (Z V (main_call0_call0_call0_v1 : DevRef τ sig) : FVec Ideal S131072 .f32) :=
  (aligned (F := Ideal)).tternary_at V 40 main_call0.call0.v12 main_call0.call0.v11 main_call0.call0.call0.v1 main_call0.call0.call0.v2 (fun p a b => select (s := S131072) (α := Ideal .f32) (broadcastInDim (s := S_) (α := BitVec 1) S131072 ![] bcast_S_S131072 p) a b) rfl (by decide) (by decide) (by decide) (by decide)

theorem l_v12 : (Z V (main_v12 : DevRef τ sig) : FVec Ideal S131072 .f32) = Host.sqrt (F := Ideal) (s := S131072) (φ := .f32) (Z V (main_call0_v0 : DevRef τ sig) : FVec Ideal S131072 .f32) :=
  (aligned (F := Ideal)).tunary_at V 41 main_call0.call0.call0.v2 main_call0.v1 (Host.sqrt (F := Ideal) (s := S131072) (φ := .f32)) rfl (by decide) (by decide)

theorem l_c_5 : (Z V (main_c_5 : DevRef τ sig) : IVec S_ 32) = constantI S_ 32 1#32 :=
  (aligned (F := Ideal)).nullary_at V 42 rfl (by decide)

theorem l_call1_call0_cst : (Z V (main_call1_call0_cst : DevRef τ sig) : FVec Ideal S_ .f32) = constant (F := Ideal) S_ .f32 0x00000000#32 :=
  (aligned (F := Ideal)).tnullary_at V 43 main_call1.call0.cst (constant (F := Ideal) S_ .f32 0x00000000#32) rfl (by decide)

theorem l_call1_call0_v0 : (Z V (main_call1_call0_v0 : DevRef τ sig) : FVec Ideal S131072 .f32) = Host.reduceAdd (F := Ideal) (s := S131072x128) (φ := .f32) (u := S_) (Z V (main_arg1 : DevRef τ sig) : FVec Ideal S131072x128 .f32) (Z V (main_call1_call0_cst : DevRef τ sig) : FVec Ideal S_ .f32) reducesTo_S131072x128_S131072_d1 h_S_ :=
  (aligned (F := Ideal)).tbinary_at V 44 (.of main_arg1 : TRef sig ⟨S131072x128, .f32⟩) main_call1.call0.cst main_call1.call0.v0 (fun x v => Host.reduceAdd (F := Ideal) (s := S131072x128) (φ := .f32) (u := S_) x v reducesTo_S131072x128_S131072_d1 h_S_) rfl (by decide) (by decide) (by decide)

theorem l_call1_call0_v1 : (Z V (main_call1_call0_v1 : DevRef τ sig) : FVec Ideal S131072x1 .f32) = broadcastInDim (s := S131072) (α := Ideal .f32) S131072x1 ![0] bcast_S131072_S131072x1_0 (Z V (main_call1_call0_v0 : DevRef τ sig) : FVec Ideal S131072 .f32) :=
  (aligned (F := Ideal)).tunary_at V 45 main_call1.call0.v0 main_call1.call0.v1 (broadcastInDim (s := S131072) (α := Ideal .f32) S131072x1 ![0] bcast_S131072_S131072x1_0) rfl (by decide) (by decide)

theorem l_call1_call0_cst_0 : (Z V (main_call1_call0_cst_0 : DevRef τ sig) : FVec Ideal S_ .f32) = constant (F := Ideal) S_ .f32 0x43000000#32 :=
  (aligned (F := Ideal)).tnullary_at V 46 main_call1.call0.cst_0 (constant (F := Ideal) S_ .f32 0x43000000#32) rfl (by decide)

theorem l_call1_call0_v2 : (Z V (main_call1_call0_v2 : DevRef τ sig) : FVec Ideal S131072x1 .f32) = broadcastInDim (s := S_) (α := Ideal .f32) S131072x1 ![] bcast_S_S131072x1 (Z V (main_call1_call0_cst_0 : DevRef τ sig) : FVec Ideal S_ .f32) :=
  (aligned (F := Ideal)).tunary_at V 47 main_call1.call0.cst_0 main_call1.call0.v2 (broadcastInDim (s := S_) (α := Ideal .f32) S131072x1 ![] bcast_S_S131072x1) rfl (by decide) (by decide)

theorem l_call1_call0_v3 : (Z V (main_call1_call0_v3 : DevRef τ sig) : FVec Ideal S131072x1 .f32) = Host.divf (F := Ideal) (s := S131072x1) (φ := .f32) (Z V (main_call1_call0_v1 : DevRef τ sig) : FVec Ideal S131072x1 .f32) (Z V (main_call1_call0_v2 : DevRef τ sig) : FVec Ideal S131072x1 .f32) :=
  (aligned (F := Ideal)).tbinary_at V 48 main_call1.call0.v1 main_call1.call0.v2 main_call1.call0.v3 (Host.divf (F := Ideal) (s := S131072x1) (φ := .f32)) rfl (by decide) (by decide) (by decide)

theorem l_call1_call0_v4 : (Z V (main_call1_call0_v4 : DevRef τ sig) : FVec Ideal S131072x128 .f32) = broadcastInDim (s := S131072x1) (α := Ideal .f32) S131072x128 ![0, 1] bcast_S131072x1_S131072x128_0_1 (Z V (main_call1_call0_v3 : DevRef τ sig) : FVec Ideal S131072x1 .f32) :=
  (aligned (F := Ideal)).tunary_at V 49 main_call1.call0.v3 main_call1.call0.v4 (broadcastInDim (s := S131072x1) (α := Ideal .f32) S131072x128 ![0, 1] bcast_S131072x1_S131072x128_0_1) rfl (by decide) (by decide)

theorem l_call1_call0_v5 : (Z V (main_call1_call0_v5 : DevRef τ sig) : FVec Ideal S131072x128 .f32) = subf (F := Ideal) (s := S131072x128) (φ := .f32) (Z V (main_arg1 : DevRef τ sig) : FVec Ideal S131072x128 .f32) (Z V (main_call1_call0_v4 : DevRef τ sig) : FVec Ideal S131072x128 .f32) :=
  (aligned (F := Ideal)).tbinary_at V 50 (.of main_arg1 : TRef sig ⟨S131072x128, .f32⟩) main_call1.call0.v4 main_call1.call0.v5 (subf (F := Ideal) (s := S131072x128) (φ := .f32)) rfl (by decide) (by decide) (by decide)

theorem l_call1_call0_v6 : (Z V (main_call1_call0_v6 : DevRef τ sig) : FVec Ideal S131072x128 .f32) = mulf (F := Ideal) (s := S131072x128) (φ := .f32) (Z V (main_call1_call0_v5 : DevRef τ sig) : FVec Ideal S131072x128 .f32) (Z V (main_call1_call0_v5 : DevRef τ sig) : FVec Ideal S131072x128 .f32) :=
  (aligned (F := Ideal)).tbinary_at V 51 main_call1.call0.v5 main_call1.call0.v5 main_call1.call0.v6 (mulf (F := Ideal) (s := S131072x128) (φ := .f32)) rfl (by decide) (by decide) (by decide)

theorem l_call1_call0_v7 : (Z V (main_call1_call0_v7 : DevRef τ sig) : FVec Ideal S_ .f32) = sitofp (F := Ideal) (s := S_) (w := 32) .f32 (Z V (main_c_5 : DevRef τ sig) : IVec S_ 32) :=
  (aligned (F := Ideal)).tunary_at V 52 (.of main_c_5 : TRef sig ⟨S_, .i32⟩) main_call1.call0.v7 (sitofp (F := Ideal) (s := S_) (w := 32) .f32) rfl (by decide) (by decide)

theorem l_call1_call0_cst_1 : (Z V (main_call1_call0_cst_1 : DevRef τ sig) : FVec Ideal S_ .f32) = constant (F := Ideal) S_ .f32 0x43000000#32 :=
  (aligned (F := Ideal)).tnullary_at V 53 main_call1.call0.cst_1 (constant (F := Ideal) S_ .f32 0x43000000#32) rfl (by decide)

theorem l_call1_call0_v8 : (Z V (main_call1_call0_v8 : DevRef τ sig) : FVec Ideal S_ .f32) = subf (F := Ideal) (s := S_) (φ := .f32) (Z V (main_call1_call0_cst_1 : DevRef τ sig) : FVec Ideal S_ .f32) (Z V (main_call1_call0_v7 : DevRef τ sig) : FVec Ideal S_ .f32) :=
  (aligned (F := Ideal)).tbinary_at V 54 main_call1.call0.cst_1 main_call1.call0.v7 main_call1.call0.v8 (subf (F := Ideal) (s := S_) (φ := .f32)) rfl (by decide) (by decide) (by decide)

theorem l_call1_call0_cst_2 : (Z V (main_call1_call0_cst_2 : DevRef τ sig) : FVec Ideal S_ .f32) = constant (F := Ideal) S_ .f32 0x00000000#32 :=
  (aligned (F := Ideal)).tnullary_at V 55 main_call1.call0.cst_2 (constant (F := Ideal) S_ .f32 0x00000000#32) rfl (by decide)

theorem l_call1_call0_v9 : (Z V (main_call1_call0_v9 : DevRef τ sig) : FVec Ideal S131072 .f32) = Host.reduceAdd (F := Ideal) (s := S131072x128) (φ := .f32) (u := S_) (Z V (main_call1_call0_v6 : DevRef τ sig) : FVec Ideal S131072x128 .f32) (Z V (main_call1_call0_cst_2 : DevRef τ sig) : FVec Ideal S_ .f32) reducesTo_S131072x128_S131072_d1 h_S_ :=
  (aligned (F := Ideal)).tbinary_at V 56 main_call1.call0.v6 main_call1.call0.cst_2 main_call1.call0.v9 (fun x v => Host.reduceAdd (F := Ideal) (s := S131072x128) (φ := .f32) (u := S_) x v reducesTo_S131072x128_S131072_d1 h_S_) rfl (by decide) (by decide) (by decide)

theorem l_call1_call0_v10 : (Z V (main_call1_call0_v10 : DevRef τ sig) : FVec Ideal S131072 .f32) = broadcastInDim (s := S_) (α := Ideal .f32) S131072 ![] bcast_S_S131072 (Z V (main_call1_call0_v8 : DevRef τ sig) : FVec Ideal S_ .f32) :=
  (aligned (F := Ideal)).tunary_at V 57 main_call1.call0.v8 main_call1.call0.v10 (broadcastInDim (s := S_) (α := Ideal .f32) S131072 ![] bcast_S_S131072) rfl (by decide) (by decide)

theorem l_call1_call0_v11 : (Z V (main_call1_call0_v11 : DevRef τ sig) : FVec Ideal S131072 .f32) = Host.divf (F := Ideal) (s := S131072) (φ := .f32) (Z V (main_call1_call0_v9 : DevRef τ sig) : FVec Ideal S131072 .f32) (Z V (main_call1_call0_v10 : DevRef τ sig) : FVec Ideal S131072 .f32) :=
  (aligned (F := Ideal)).tbinary_at V 58 main_call1.call0.v9 main_call1.call0.v10 main_call1.call0.v11 (Host.divf (F := Ideal) (s := S131072) (φ := .f32)) rfl (by decide) (by decide) (by decide)

theorem l_call1_call0_cst_3 : (Z V (main_call1_call0_cst_3 : DevRef τ sig) : FVec Ideal S_ .f32) = constant (F := Ideal) S_ .f32 0x00000000#32 :=
  (aligned (F := Ideal)).tnullary_at V 59 main_call1.call0.cst_3 (constant (F := Ideal) S_ .f32 0x00000000#32) rfl (by decide)

theorem l_call1_call0_v12 : (Z V (main_call1_call0_v12 : DevRef τ sig) : IVec S_ 1) = cmpf (F := Ideal) (s := S_) (φ := .f32) .ogt (Z V (main_call1_call0_v8 : DevRef τ sig) : FVec Ideal S_ .f32) (Z V (main_call1_call0_cst_3 : DevRef τ sig) : FVec Ideal S_ .f32) :=
  (aligned (F := Ideal)).tbinary_at V 60 main_call1.call0.v8 main_call1.call0.cst_3 main_call1.call0.v12 (cmpf (F := Ideal) (s := S_) (φ := .f32) .ogt) rfl (by decide) (by decide) (by decide)

theorem l_call1_call0_cst_4 : (Z V (main_call1_call0_cst_4 : DevRef τ sig) : FVec Ideal S_ .f32) = constant (F := Ideal) S_ .f32 0x7FC00000#32 :=
  (aligned (F := Ideal)).tnullary_at V 61 main_call1.call0.cst_4 (constant (F := Ideal) S_ .f32 0x7FC00000#32) rfl (by decide)

theorem l_call1_call0_call0_v0 : (Z V (main_call1_call0_call0_v0 : DevRef τ sig) : FVec Ideal S_ .f32) = (Z V (main_call1_call0_cst_4 : DevRef τ sig) : FVec Ideal S_ .f32) :=
  (aligned (F := Ideal)).tunary_at V 62 main_call1.call0.cst_4 main_call1.call0.call0.v0 id rfl (by decide) (by decide)

theorem l_call1_call0_call0_v1 : (Z V (main_call1_call0_call0_v1 : DevRef τ sig) : FVec Ideal S131072 .f32) = broadcastInDim (s := S_) (α := Ideal .f32) S131072 ![] bcast_S_S131072 (Z V (main_call1_call0_call0_v0 : DevRef τ sig) : FVec Ideal S_ .f32) :=
  (aligned (F := Ideal)).tunary_at V 63 main_call1.call0.call0.v0 main_call1.call0.call0.v1 (broadcastInDim (s := S_) (α := Ideal .f32) S131072 ![] bcast_S_S131072) rfl (by decide) (by decide)

theorem l_call1_v0 : (Z V (main_call1_v0 : DevRef τ sig) : FVec Ideal S131072 .f32) = select (s := S131072) (α := Ideal .f32) (broadcastInDim (s := S_) (α := BitVec 1) S131072 ![] bcast_S_S131072 (Z V (main_call1_call0_v12 : DevRef τ sig) : IVec S_ 1)) (Z V (main_call1_call0_v11 : DevRef τ sig) : FVec Ideal S131072 .f32) (Z V (main_call1_call0_call0_v1 : DevRef τ sig) : FVec Ideal S131072 .f32) :=
  (aligned (F := Ideal)).tternary_at V 64 main_call1.call0.v12 main_call1.call0.v11 main_call1.call0.call0.v1 main_call1.call0.call0.v2 (fun p a b => select (s := S131072) (α := Ideal .f32) (broadcastInDim (s := S_) (α := BitVec 1) S131072 ![] bcast_S_S131072 p) a b) rfl (by decide) (by decide) (by decide) (by decide)

theorem l_v13 : (Z V (main_v13 : DevRef τ sig) : FVec Ideal S131072 .f32) = Host.sqrt (F := Ideal) (s := S131072) (φ := .f32) (Z V (main_call1_v0 : DevRef τ sig) : FVec Ideal S131072 .f32) :=
  (aligned (F := Ideal)).tunary_at V 65 main_call1.call0.call0.v2 main_call1.v1 (Host.sqrt (F := Ideal) (s := S131072) (φ := .f32)) rfl (by decide) (by decide)

theorem l_v14 : (Z V (main_v14 : DevRef τ sig) : FVec Ideal S131072x128 .f32) = broadcastInDim (s := S131072x1) (α := Ideal .f32) S131072x128 ![0, 1] bcast_S131072x1_S131072x128_0_1 (Z V (main_v5 : DevRef τ sig) : FVec Ideal S131072x1 .f32) :=
  (aligned (F := Ideal)).unary_at V 66 rfl (by decide) (by decide)

theorem l_v15 : (Z V (main_v15 : DevRef τ sig) : FVec Ideal S131072x128 .f32) = subf (F := Ideal) (s := S131072x128) (φ := .f32) (Z V (main_arg0 : DevRef τ sig) : FVec Ideal S131072x128 .f32) (Z V (main_v14 : DevRef τ sig) : FVec Ideal S131072x128 .f32) :=
  (aligned (F := Ideal)).binary_at V 67 rfl (by decide) (by decide) (by decide)

theorem l_v16 : (Z V (main_v16 : DevRef τ sig) : FVec Ideal S131072x128 .f32) = broadcastInDim (s := S131072x1) (α := Ideal .f32) S131072x128 ![0, 1] bcast_S131072x1_S131072x128_0_1 (Z V (main_v11 : DevRef τ sig) : FVec Ideal S131072x1 .f32) :=
  (aligned (F := Ideal)).unary_at V 68 rfl (by decide) (by decide)

theorem l_v17 : (Z V (main_v17 : DevRef τ sig) : FVec Ideal S131072x128 .f32) = subf (F := Ideal) (s := S131072x128) (φ := .f32) (Z V (main_arg1 : DevRef τ sig) : FVec Ideal S131072x128 .f32) (Z V (main_v16 : DevRef τ sig) : FVec Ideal S131072x128 .f32) :=
  (aligned (F := Ideal)).binary_at V 69 rfl (by decide) (by decide) (by decide)

theorem l_v18 : (Z V (main_v18 : DevRef τ sig) : FVec Ideal S131072x128 .f32) = mulf (F := Ideal) (s := S131072x128) (φ := .f32) (Z V (main_v15 : DevRef τ sig) : FVec Ideal S131072x128 .f32) (Z V (main_v17 : DevRef τ sig) : FVec Ideal S131072x128 .f32) :=
  (aligned (F := Ideal)).binary_at V 70 rfl (by decide) (by decide) (by decide)

theorem l_cst_6 : (Z V (main_cst_6 : DevRef τ sig) : FVec Ideal S_ .f32) = constant (F := Ideal) S_ .f32 0x00000000#32 :=
  (aligned (F := Ideal)).nullary_at V 71 rfl (by decide)

theorem l_v19 : (Z V (main_v19 : DevRef τ sig) : FVec Ideal S131072 .f32) = Host.reduceAdd (F := Ideal) (s := S131072x128) (φ := .f32) (u := S_) (Z V (main_v18 : DevRef τ sig) : FVec Ideal S131072x128 .f32) (Z V (main_cst_6 : DevRef τ sig) : FVec Ideal S_ .f32) reducesTo_S131072x128_S131072_d1 h_S_ :=
  (aligned (F := Ideal)).binary_at V 72 rfl (by decide) (by decide) (by decide)

theorem l_cst_7 : (Z V (main_cst_7 : DevRef τ sig) : FVec Ideal S_ .f32) = constant (F := Ideal) S_ .f32 0x42FE0000#32 :=
  (aligned (F := Ideal)).nullary_at V 73 rfl (by decide)

theorem l_v20 : (Z V (main_v20 : DevRef τ sig) : FVec Ideal S131072 .f32) = broadcastInDim (s := S_) (α := Ideal .f32) S131072 ![] bcast_S_S131072 (Z V (main_cst_7 : DevRef τ sig) : FVec Ideal S_ .f32) :=
  (aligned (F := Ideal)).unary_at V 74 rfl (by decide) (by decide)

theorem l_v21 : (Z V (main_v21 : DevRef τ sig) : FVec Ideal S131072 .f32) = Host.divf (F := Ideal) (s := S131072) (φ := .f32) (Z V (main_v19 : DevRef τ sig) : FVec Ideal S131072 .f32) (Z V (main_v20 : DevRef τ sig) : FVec Ideal S131072 .f32) :=
  (aligned (F := Ideal)).binary_at V 75 rfl (by decide) (by decide) (by decide)

theorem l_v22 : (Z V (main_v22 : DevRef τ sig) : FVec Ideal S131072 .f32) = mulf (F := Ideal) (s := S131072) (φ := .f32) (Z V (main_v12 : DevRef τ sig) : FVec Ideal S131072 .f32) (Z V (main_v13 : DevRef τ sig) : FVec Ideal S131072 .f32) :=
  (aligned (F := Ideal)).binary_at V 76 rfl (by decide) (by decide) (by decide)

theorem l_cst_8 : (Z V (main_cst_8 : DevRef τ sig) : FVec Ideal S_ .f32) = constant (F := Ideal) S_ .f32 0x3A83126F#32 :=
  (aligned (F := Ideal)).nullary_at V 77 rfl (by decide)

theorem l_v23 : (Z V (main_v23 : DevRef τ sig) : FVec Ideal S131072 .f32) = broadcastInDim (s := S_) (α := Ideal .f32) S131072 ![] bcast_S_S131072 (Z V (main_cst_8 : DevRef τ sig) : FVec Ideal S_ .f32) :=
  (aligned (F := Ideal)).unary_at V 78 rfl (by decide) (by decide)

theorem l_v24 : (Z V (main_v24 : DevRef τ sig) : FVec Ideal S131072 .f32) = addf (F := Ideal) (s := S131072) (φ := .f32) (Z V (main_v22 : DevRef τ sig) : FVec Ideal S131072 .f32) (Z V (main_v23 : DevRef τ sig) : FVec Ideal S131072 .f32) :=
  (aligned (F := Ideal)).binary_at V 79 rfl (by decide) (by decide) (by decide)

theorem l_v25 : (Z V (main_v25 : DevRef τ sig) : FVec Ideal S131072 .f32) = Host.divf (F := Ideal) (s := S131072) (φ := .f32) (Z V (main_v21 : DevRef τ sig) : FVec Ideal S131072 .f32) (Z V (main_v24 : DevRef τ sig) : FVec Ideal S131072 .f32) :=
  (aligned (F := Ideal)).binary_at V 80 rfl (by decide) (by decide) (by decide)

theorem l_v26 : (Z V (main_v26 : DevRef τ sig) : FVec Ideal S131072 .f32) = mulf (F := Ideal) (s := S131072) (φ := .f32) (Z V (main_v25 : DevRef τ sig) : FVec Ideal S131072 .f32) (Z V (main_v25 : DevRef τ sig) : FVec Ideal S131072 .f32) :=
  (aligned (F := Ideal)).binary_at V 81 rfl (by decide) (by decide) (by decide)

theorem l_v27 : (Z V (main_v27 : DevRef τ sig) : FVec Ideal S131072 .f32) = mulf (F := Ideal) (s := S131072) (φ := .f32) (Z V (main_v26 : DevRef τ sig) : FVec Ideal S131072 .f32) (Z V (main_v25 : DevRef τ sig) : FVec Ideal S131072 .f32) :=
  (aligned (F := Ideal)).binary_at V 82 rfl (by decide) (by decide) (by decide)

theorem l_cst_9 : (Z V (main_cst_9 : DevRef τ sig) : FVec Ideal S_ .f32) = constant (F := Ideal) S_ .f32 0x3F800000#32 :=
  (aligned (F := Ideal)).nullary_at V 83 rfl (by decide)

theorem l_v28 : (Z V (main_v28 : DevRef τ sig) : FVec Ideal S131072 .f32) = broadcastInDim (s := S_) (α := Ideal .f32) S131072 ![] bcast_S_S131072 (Z V (main_cst_9 : DevRef τ sig) : FVec Ideal S_ .f32) :=
  (aligned (F := Ideal)).unary_at V 84 rfl (by decide) (by decide)

theorem l_v29 : (Z V (main_v29 : DevRef τ sig) : FVec Ideal S131072 .f32) = addf (F := Ideal) (s := S131072) (φ := .f32) (Z V (main_v27 : DevRef τ sig) : FVec Ideal S131072 .f32) (Z V (main_v28 : DevRef τ sig) : FVec Ideal S131072 .f32) :=
  (aligned (F := Ideal)).binary_at V 85 rfl (by decide) (by decide) (by decide)

theorem l_cst_10 : (Z V (main_cst_10 : DevRef τ sig) : FVec Ideal S_ .f32) = constant (F := Ideal) S_ .f32 0x3A83126F#32 :=
  (aligned (F := Ideal)).nullary_at V 86 rfl (by decide)

theorem l_v30 : (Z V (main_v30 : DevRef τ sig) : FVec Ideal S131072 .f32) = broadcastInDim (s := S_) (α := Ideal .f32) S131072 ![] bcast_S_S131072 (Z V (main_cst_10 : DevRef τ sig) : FVec Ideal S_ .f32) :=
  (aligned (F := Ideal)).unary_at V 87 rfl (by decide) (by decide)

theorem l_v31 : (Z V (main_v31 : DevRef τ sig) : FVec Ideal S131072 .f32) = addf (F := Ideal) (s := S131072) (φ := .f32) (Z V (main_v29 : DevRef τ sig) : FVec Ideal S131072 .f32) (Z V (main_v30 : DevRef τ sig) : FVec Ideal S131072 .f32) :=
  (aligned (F := Ideal)).binary_at V 88 rfl (by decide) (by decide) (by decide)

theorem l_cst_11 : (Z V (main_cst_11 : DevRef τ sig) : FVec Ideal S_ .f32) = constant (F := Ideal) S_ .f32 0x40000000#32 :=
  (aligned (F := Ideal)).nullary_at V 89 rfl (by decide)

theorem l_v32 : (Z V (main_v32 : DevRef τ sig) : FVec Ideal S131072 .f32) = broadcastInDim (s := S_) (α := Ideal .f32) S131072 ![] bcast_S_S131072 (Z V (main_cst_11 : DevRef τ sig) : FVec Ideal S_ .f32) :=
  (aligned (F := Ideal)).unary_at V 90 rfl (by decide) (by decide)

theorem l_v33 : (Z V (main_v33 : DevRef τ sig) : FVec Ideal S131072 .f32) = Host.divf (F := Ideal) (s := S131072) (φ := .f32) (Z V (main_v31 : DevRef τ sig) : FVec Ideal S131072 .f32) (Z V (main_v32 : DevRef τ sig) : FVec Ideal S131072 .f32) :=
  (aligned (F := Ideal)).binary_at V 91 rfl (by decide) (by decide) (by decide)

theorem l_v34 : (Z V (main_v34 : DevRef τ sig) : FVec Ideal S131072 .f32) = Host.log (F := Ideal) (s := S131072) (φ := .f32) (Z V (main_v33 : DevRef τ sig) : FVec Ideal S131072 .f32) :=
  (aligned (F := Ideal)).unary_at V 92 rfl (by decide) (by decide)

theorem l_v35 : (Z V (main_v35 : DevRef τ sig) : FVec Ideal S131072 .f32) = Host.negf (F := Ideal) (s := S131072) (φ := .f32) (Z V (main_v34 : DevRef τ sig) : FVec Ideal S131072 .f32) :=
  (aligned (F := Ideal)).unary_at V 93 rfl (by decide) (by decide)

theorem l_cst_12 : (Z V (main_cst_12 : DevRef τ sig) : FVec Ideal S_ .f32) = constant (F := Ideal) S_ .f32 0xFF800000#32 :=
  (aligned (F := Ideal)).nullary_at V 94 rfl (by decide)

theorem l_v36 : (Z V (main_v36 : DevRef τ sig) : FVec Ideal S131072 .f32) = Host.reduce (s := S131072x128) (α := Ideal .f32) (u := S_) (FloatOps.maximumf (F := Ideal) (φ := .f32)) (Z V (main_arg0 : DevRef τ sig) : FVec Ideal S131072x128 .f32) (Z V (main_cst_12 : DevRef τ sig) : FVec Ideal S_ .f32) reducesTo_S131072x128_S131072_d1 h_S_ :=
  (aligned (F := Ideal)).binary_at V 95 rfl (by decide) (by decide) (by decide)

theorem l_cst_13 : (Z V (main_cst_13 : DevRef τ sig) : FVec Ideal S_ .f32) = constant (F := Ideal) S_ .f32 0xFF800000#32 :=
  (aligned (F := Ideal)).nullary_at V 96 rfl (by decide)

theorem l_v37 : (Z V (main_v37 : DevRef τ sig) : FVec Ideal S131072 .f32) = broadcastInDim (s := S_) (α := Ideal .f32) S131072 ![] bcast_S_S131072 (Z V (main_cst_13 : DevRef τ sig) : FVec Ideal S_ .f32) :=
  (aligned (F := Ideal)).unary_at V 97 rfl (by decide) (by decide)

theorem l_v38 : (Z V (main_v38 : DevRef τ sig) : FVec Ideal S131072 .f32) = maximumf (F := Ideal) (s := S131072) (φ := .f32) (Z V (main_v37 : DevRef τ sig) : FVec Ideal S131072 .f32) (Z V (main_v36 : DevRef τ sig) : FVec Ideal S131072 .f32) :=
  (aligned (F := Ideal)).binary_at V 98 rfl (by decide) (by decide) (by decide)

theorem l_v39 : (Z V (main_v39 : DevRef τ sig) : FVec Ideal S131072x1 .f32) = broadcastInDim (s := S131072) (α := Ideal .f32) S131072x1 ![0] bcast_S131072_S131072x1_0 (Z V (main_v38 : DevRef τ sig) : FVec Ideal S131072 .f32) :=
  (aligned (F := Ideal)).unary_at V 99 rfl (by decide) (by decide)

theorem l_v40 : (Z V (main_v40 : DevRef τ sig) : FVec Ideal S131072x128 .f32) = broadcastInDim (s := S131072x1) (α := Ideal .f32) S131072x128 ![0, 1] bcast_S131072x1_S131072x128_0_1 (Z V (main_v39 : DevRef τ sig) : FVec Ideal S131072x1 .f32) :=
  (aligned (F := Ideal)).unary_at V 100 rfl (by decide) (by decide)

theorem l_v41 : (Z V (main_v41 : DevRef τ sig) : FVec Ideal S131072x128 .f32) = subf (F := Ideal) (s := S131072x128) (φ := .f32) (Z V (main_arg0 : DevRef τ sig) : FVec Ideal S131072x128 .f32) (Z V (main_v40 : DevRef τ sig) : FVec Ideal S131072x128 .f32) :=
  (aligned (F := Ideal)).binary_at V 101 rfl (by decide) (by decide) (by decide)

theorem l_v42 : (Z V (main_v42 : DevRef τ sig) : FVec Ideal S131072x128 .f32) = Host.exp (F := Ideal) (s := S131072x128) (φ := .f32) (Z V (main_v41 : DevRef τ sig) : FVec Ideal S131072x128 .f32) :=
  (aligned (F := Ideal)).unary_at V 102 rfl (by decide) (by decide)

theorem l_cst_14 : (Z V (main_cst_14 : DevRef τ sig) : FVec Ideal S_ .f32) = constant (F := Ideal) S_ .f32 0x00000000#32 :=
  (aligned (F := Ideal)).nullary_at V 103 rfl (by decide)

theorem l_v43 : (Z V (main_v43 : DevRef τ sig) : FVec Ideal S131072 .f32) = Host.reduceAdd (F := Ideal) (s := S131072x128) (φ := .f32) (u := S_) (Z V (main_v42 : DevRef τ sig) : FVec Ideal S131072x128 .f32) (Z V (main_cst_14 : DevRef τ sig) : FVec Ideal S_ .f32) reducesTo_S131072x128_S131072_d1 h_S_ :=
  (aligned (F := Ideal)).binary_at V 104 rfl (by decide) (by decide) (by decide)

theorem l_v44 : (Z V (main_v44 : DevRef τ sig) : FVec Ideal S131072x1 .f32) = broadcastInDim (s := S131072) (α := Ideal .f32) S131072x1 ![0] bcast_S131072_S131072x1_0 (Z V (main_v43 : DevRef τ sig) : FVec Ideal S131072 .f32) :=
  (aligned (F := Ideal)).unary_at V 105 rfl (by decide) (by decide)

theorem l_v45 : (Z V (main_v45 : DevRef τ sig) : FVec Ideal S131072x128 .f32) = broadcastInDim (s := S131072x1) (α := Ideal .f32) S131072x128 ![0, 1] bcast_S131072x1_S131072x128_0_1 (Z V (main_v44 : DevRef τ sig) : FVec Ideal S131072x1 .f32) :=
  (aligned (F := Ideal)).unary_at V 106 rfl (by decide) (by decide)

theorem l_v46 : (Z V (main_v46 : DevRef τ sig) : FVec Ideal S131072x128 .f32) = Host.divf (F := Ideal) (s := S131072x128) (φ := .f32) (Z V (main_v42 : DevRef τ sig) : FVec Ideal S131072x128 .f32) (Z V (main_v45 : DevRef τ sig) : FVec Ideal S131072x128 .f32) :=
  (aligned (F := Ideal)).binary_at V 107 rfl (by decide) (by decide) (by decide)

theorem l_cst_15 : (Z V (main_cst_15 : DevRef τ sig) : FVec Ideal S_ .f32) = constant (F := Ideal) S_ .f32 0xFF800000#32 :=
  (aligned (F := Ideal)).nullary_at V 108 rfl (by decide)

theorem l_v47 : (Z V (main_v47 : DevRef τ sig) : FVec Ideal S131072 .f32) = Host.reduce (s := S131072x128) (α := Ideal .f32) (u := S_) (FloatOps.maximumf (F := Ideal) (φ := .f32)) (Z V (main_arg1 : DevRef τ sig) : FVec Ideal S131072x128 .f32) (Z V (main_cst_15 : DevRef τ sig) : FVec Ideal S_ .f32) reducesTo_S131072x128_S131072_d1 h_S_ :=
  (aligned (F := Ideal)).binary_at V 109 rfl (by decide) (by decide) (by decide)

theorem l_cst_16 : (Z V (main_cst_16 : DevRef τ sig) : FVec Ideal S_ .f32) = constant (F := Ideal) S_ .f32 0xFF800000#32 :=
  (aligned (F := Ideal)).nullary_at V 110 rfl (by decide)

theorem l_v48 : (Z V (main_v48 : DevRef τ sig) : FVec Ideal S131072 .f32) = broadcastInDim (s := S_) (α := Ideal .f32) S131072 ![] bcast_S_S131072 (Z V (main_cst_16 : DevRef τ sig) : FVec Ideal S_ .f32) :=
  (aligned (F := Ideal)).unary_at V 111 rfl (by decide) (by decide)

theorem l_v49 : (Z V (main_v49 : DevRef τ sig) : FVec Ideal S131072 .f32) = maximumf (F := Ideal) (s := S131072) (φ := .f32) (Z V (main_v48 : DevRef τ sig) : FVec Ideal S131072 .f32) (Z V (main_v47 : DevRef τ sig) : FVec Ideal S131072 .f32) :=
  (aligned (F := Ideal)).binary_at V 112 rfl (by decide) (by decide) (by decide)

theorem l_v50 : (Z V (main_v50 : DevRef τ sig) : FVec Ideal S131072x1 .f32) = broadcastInDim (s := S131072) (α := Ideal .f32) S131072x1 ![0] bcast_S131072_S131072x1_0 (Z V (main_v49 : DevRef τ sig) : FVec Ideal S131072 .f32) :=
  (aligned (F := Ideal)).unary_at V 113 rfl (by decide) (by decide)

theorem l_v51 : (Z V (main_v51 : DevRef τ sig) : FVec Ideal S131072x128 .f32) = broadcastInDim (s := S131072x1) (α := Ideal .f32) S131072x128 ![0, 1] bcast_S131072x1_S131072x128_0_1 (Z V (main_v50 : DevRef τ sig) : FVec Ideal S131072x1 .f32) :=
  (aligned (F := Ideal)).unary_at V 114 rfl (by decide) (by decide)

theorem l_v52 : (Z V (main_v52 : DevRef τ sig) : FVec Ideal S131072x128 .f32) = subf (F := Ideal) (s := S131072x128) (φ := .f32) (Z V (main_arg1 : DevRef τ sig) : FVec Ideal S131072x128 .f32) (Z V (main_v51 : DevRef τ sig) : FVec Ideal S131072x128 .f32) :=
  (aligned (F := Ideal)).binary_at V 115 rfl (by decide) (by decide) (by decide)

theorem l_v53 : (Z V (main_v53 : DevRef τ sig) : FVec Ideal S131072x128 .f32) = Host.exp (F := Ideal) (s := S131072x128) (φ := .f32) (Z V (main_v52 : DevRef τ sig) : FVec Ideal S131072x128 .f32) :=
  (aligned (F := Ideal)).unary_at V 116 rfl (by decide) (by decide)

theorem l_cst_17 : (Z V (main_cst_17 : DevRef τ sig) : FVec Ideal S_ .f32) = constant (F := Ideal) S_ .f32 0x00000000#32 :=
  (aligned (F := Ideal)).nullary_at V 117 rfl (by decide)

theorem l_v54 : (Z V (main_v54 : DevRef τ sig) : FVec Ideal S131072 .f32) = Host.reduceAdd (F := Ideal) (s := S131072x128) (φ := .f32) (u := S_) (Z V (main_v53 : DevRef τ sig) : FVec Ideal S131072x128 .f32) (Z V (main_cst_17 : DevRef τ sig) : FVec Ideal S_ .f32) reducesTo_S131072x128_S131072_d1 h_S_ :=
  (aligned (F := Ideal)).binary_at V 118 rfl (by decide) (by decide) (by decide)

theorem l_v55 : (Z V (main_v55 : DevRef τ sig) : FVec Ideal S131072x1 .f32) = broadcastInDim (s := S131072) (α := Ideal .f32) S131072x1 ![0] bcast_S131072_S131072x1_0 (Z V (main_v54 : DevRef τ sig) : FVec Ideal S131072 .f32) :=
  (aligned (F := Ideal)).unary_at V 119 rfl (by decide) (by decide)

theorem l_v56 : (Z V (main_v56 : DevRef τ sig) : FVec Ideal S131072x128 .f32) = broadcastInDim (s := S131072x1) (α := Ideal .f32) S131072x128 ![0, 1] bcast_S131072x1_S131072x128_0_1 (Z V (main_v55 : DevRef τ sig) : FVec Ideal S131072x1 .f32) :=
  (aligned (F := Ideal)).unary_at V 120 rfl (by decide) (by decide)

theorem l_v57 : (Z V (main_v57 : DevRef τ sig) : FVec Ideal S131072x128 .f32) = Host.divf (F := Ideal) (s := S131072x128) (φ := .f32) (Z V (main_v53 : DevRef τ sig) : FVec Ideal S131072x128 .f32) (Z V (main_v56 : DevRef τ sig) : FVec Ideal S131072x128 .f32) :=
  (aligned (F := Ideal)).binary_at V 121 rfl (by decide) (by decide) (by decide)

theorem l_v58 : (Z V (main_v58 : DevRef τ sig) : FVec Ideal S131072x128 .f32) = subf (F := Ideal) (s := S131072x128) (φ := .f32) (Z V (main_v46 : DevRef τ sig) : FVec Ideal S131072x128 .f32) (Z V (main_v57 : DevRef τ sig) : FVec Ideal S131072x128 .f32) :=
  (aligned (F := Ideal)).binary_at V 122 rfl (by decide) (by decide) (by decide)

theorem l_v59 : (Z V (main_v59 : DevRef τ sig) : FVec Ideal S131072x128 .f32) = Host.absf (F := Ideal) (s := S131072x128) (φ := .f32) (Z V (main_v58 : DevRef τ sig) : FVec Ideal S131072x128 .f32) :=
  (aligned (F := Ideal)).unary_at V 123 rfl (by decide) (by decide)

theorem l_cst_18 : (Z V (main_cst_18 : DevRef τ sig) : FVec Ideal S_ .f32) = constant (F := Ideal) S_ .f32 0x00000000#32 :=
  (aligned (F := Ideal)).nullary_at V 124 rfl (by decide)

theorem l_v60 : (Z V (main_v60 : DevRef τ sig) : FVec Ideal S131072 .f32) = Host.reduceAdd (F := Ideal) (s := S131072x128) (φ := .f32) (u := S_) (Z V (main_v59 : DevRef τ sig) : FVec Ideal S131072x128 .f32) (Z V (main_cst_18 : DevRef τ sig) : FVec Ideal S_ .f32) reducesTo_S131072x128_S131072_d1 h_S_ :=
  (aligned (F := Ideal)).binary_at V 125 rfl (by decide) (by decide) (by decide)

theorem l_cst_19 : (Z V (main_cst_19 : DevRef τ sig) : FVec Ideal S_ .f32) = constant (F := Ideal) S_ .f32 0x43000000#32 :=
  (aligned (F := Ideal)).nullary_at V 126 rfl (by decide)

theorem l_v61 : (Z V (main_v61 : DevRef τ sig) : FVec Ideal S131072 .f32) = broadcastInDim (s := S_) (α := Ideal .f32) S131072 ![] bcast_S_S131072 (Z V (main_cst_19 : DevRef τ sig) : FVec Ideal S_ .f32) :=
  (aligned (F := Ideal)).unary_at V 127 rfl (by decide) (by decide)

theorem l_v62 : (Z V (main_v62 : DevRef τ sig) : FVec Ideal S131072 .f32) = Host.divf (F := Ideal) (s := S131072) (φ := .f32) (Z V (main_v60 : DevRef τ sig) : FVec Ideal S131072 .f32) (Z V (main_v61 : DevRef τ sig) : FVec Ideal S131072 .f32) :=
  (aligned (F := Ideal)).binary_at V 128 rfl (by decide) (by decide) (by decide)

theorem l_v63 : (Z V (main_v63 : DevRef τ sig) : FVec Ideal S131072 .f32) = Host.absf (F := Ideal) (s := S131072) (φ := .f32) (Z V (main_v27 : DevRef τ sig) : FVec Ideal S131072 .f32) :=
  (aligned (F := Ideal)).unary_at V 129 rfl (by decide) (by decide)

theorem l_v64 : (Z V (main_v64 : DevRef τ sig) : FVec Ideal S131072 .f32) = mulf (F := Ideal) (s := S131072) (φ := .f32) (Z V (main_v63 : DevRef τ sig) : FVec Ideal S131072 .f32) (Z V (main_v35 : DevRef τ sig) : FVec Ideal S131072 .f32) :=
  (aligned (F := Ideal)).binary_at V 130 rfl (by decide) (by decide) (by decide)

theorem l_cst_20 : (Z V (main_cst_20 : DevRef τ sig) : FVec Ideal S_ .f32) = constant (F := Ideal) S_ .f32 0x3F800000#32 :=
  (aligned (F := Ideal)).nullary_at V 131 rfl (by decide)

theorem l_v65 : (Z V (main_v65 : DevRef τ sig) : FVec Ideal S131072 .f32) = broadcastInDim (s := S_) (α := Ideal .f32) S131072 ![] bcast_S_S131072 (Z V (main_cst_20 : DevRef τ sig) : FVec Ideal S_ .f32) :=
  (aligned (F := Ideal)).unary_at V 132 rfl (by decide) (by decide)

theorem l_v66 : (Z V (main_v66 : DevRef τ sig) : FVec Ideal S131072 .f32) = subf (F := Ideal) (s := S131072) (φ := .f32) (Z V (main_v65 : DevRef τ sig) : FVec Ideal S131072 .f32) (Z V (main_v63 : DevRef τ sig) : FVec Ideal S131072 .f32) :=
  (aligned (F := Ideal)).binary_at V 133 rfl (by decide) (by decide) (by decide)

theorem l_v67 : (Z V (main_v67 : DevRef τ sig) : FVec Ideal S131072 .f32) = mulf (F := Ideal) (s := S131072) (φ := .f32) (Z V (main_v66 : DevRef τ sig) : FVec Ideal S131072 .f32) (Z V (main_v62 : DevRef τ sig) : FVec Ideal S131072 .f32) :=
  (aligned (F := Ideal)).binary_at V 134 rfl (by decide) (by decide) (by decide)

theorem l_v68 : (Z V (main_v68 : DevRef τ sig) : FVec Ideal S131072 .f32) = addf (F := Ideal) (s := S131072) (φ := .f32) (Z V (main_v64 : DevRef τ sig) : FVec Ideal S131072 .f32) (Z V (main_v67 : DevRef τ sig) : FVec Ideal S131072 .f32) :=
  (aligned (F := Ideal)).binary_at V 135 rfl (by decide) (by decide) (by decide)

theorem l_cst_21 : (Z V (main_cst_21 : DevRef τ sig) : FVec Ideal S_ .f32) = constant (F := Ideal) S_ .f32 0x00000000#32 :=
  (aligned (F := Ideal)).nullary_at V 136 rfl (by decide)

theorem l_v69 : (Z V (main_v69 : DevRef τ sig) : FVec Ideal S_ .f32) = Host.reduceAdd (F := Ideal) (s := S131072) (φ := .f32) (u := S_) (Z V (main_v68 : DevRef τ sig) : FVec Ideal S131072 .f32) (Z V (main_cst_21 : DevRef τ sig) : FVec Ideal S_ .f32) reducesTo_S131072_S_d0 h_S_ :=
  (aligned (F := Ideal)).binary_at V 137 rfl (by decide) (by decide) (by decide)

theorem l_v70 : (Z V (main_v70 : DevRef τ sig) : FVec Ideal S1 .f32) = fun i => shapeCast (s := S_) (α := Ideal .f32) S1 (Z V (main_v69 : DevRef τ sig) : FVec Ideal S_ .f32) shapeCasts_S_S1 i := by
  have h := (aligned (F := Ideal)).reshape_at V 138 (x := main_v69) (y := main_v70) (he := rfl) (hn := shapeCasts_S_S1) rfl (by decide) (by decide)
  exact h

end Cert.ReferenceIdeal.RefValue

end
-- ==== Proof.LibHostColumns.lean ====
/-
  Host forms of a keepdims reduction, read at coordinates. A reduction over the columns of an `[a, b]` array leaves one
  value per row; the index of row `p` with column `k` put back is `(p, k)`. The host lays a per-row value back against
  the rows by two `broadcast_in_dim`s: `[a]` to the column `[a, 1]` (operand axis 0 on result axis 0), then the column
  to `[a, b]` (operand axes on the same result axes, the unit axis repeated). At `(p, c)` the result is the value of
  row `p`.
-/
import Idealize.ShloMosaic.Lib.ValueIdx
import Idealize.ShloMosaic.Lib.Pipeline.Value
import Idealize.ShloMosaic.PureOps.Reduce

namespace Idealize.ShloMosaic.ValueIdx

variable {α : Type}

/-- The reduced index `p` of a reduction over the columns, with column `k` put back, is `(p, k)`. -/
theorem lift_ix1_columns {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- An `[a]` array laid out as the column `[a, 1]` by the host's broadcast reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ (![0] : Fin 1 → Fin 2) h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- A column `[a, 1]` laid against `b` columns by the host's broadcast reads, at `(p, c)`, the column at `(p, 0)`. -/
theorem broadcastInDim_a1_ab_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ (![0, 1] : Fin 2 → Fin 2) h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A per-row value laid out as a column and then against every column reads, at `(p, c)`, the value of row `p`. -/
theorem broadcastInDim_column_apply {a b : ℕ} (x : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (p : Fin a) (c : Fin b) :
    broadcastInDim ⟨2, ![a, b]⟩ (![0, 1] : Fin 2 → Fin 2) h2 (broadcastInDim ⟨2, ![a, 1]⟩ (![0] : Fin 1 → Fin 2) h1 x) (ix2 p c)
      = x (ix1 p) :=
  (broadcastInDim_a1_ab_apply _ h2 p c).trans (broadcastInDim_a_a1_apply x h1 p 0)

end Idealize.ShloMosaic.ValueIdx
-- ==== Proof.RefValueRows.lean ====
/-
  The reference's buffers read row by row, at the exact instance.

  `X`, `Y` are the two argument arrays. For a row `R` (and a column `k` of it), each buffer of the line is read at the
  index of that row — a scalar at its one index, a per-row vector at `R`, a column at `(R, 0)`, a matrix at `(R, k)` — as
  a function of the rows `Spec.row X R`, `Spec.row Y R` alone: the equation of the buffer's operation at that index,
  then the readings of its operands. Sums along a row start from the zero word, which is the number zero; the
  variance's divisor `128 - 1` (the one converted from the integer `1`) is `127`, which is positive, so the guarded
  select takes the variance; lowering by `mean + ε` is lowering by `mean` and then by `ε`; the larger of `-∞` and a
  maximum that started at `-∞` is that maximum. Every other step is the definition of the specification's
  quantity.
-/
import proofs.«145982_j28741921145431_2_alg».proof.Proof.RefValueLines
import proofs.«145982_j28741921145431_2_alg».proof.Proof.Spec
import proofs.«145982_j28741921145431_2_alg».proof.Proof.LibHostColumns
import proofs.«145982_j28741921145431_2_alg».proof.Proof.LibIdealBits
import Idealize.ShloMosaic.Lib.IdealHost

set_option maxRecDepth 16384

noncomputable section

open scoped BigOperators

namespace Cert.ReferenceIdeal.RefValue

open Cert Cert.ReferenceIdeal Cert.ReferenceIdeal.Gen Cert.ReferenceIdeal.RefRun Idealize.ShloMosaic Idealize.ShloMosaic.TcCoe Idealize.SL.Sem Idealize.ShloMosaic.StableHlo Idealize.ShloMosaic.ValueIdx

/-! ## The host forms at these shapes -/

/-- The host's sum along the rows of a `[131072, 128]` array, at row `R`: the initial value plus the sum of the row. -/
theorem rowsum (x : FVec Ideal S131072x128 .f32) (init : FVec Ideal S_ .f32)
    (h' : S131072x128.ReducesTo [1] S131072) (hu : 0 < S_.numel) (R : Fin 131072) :
    Host.reduceAdd (F := Ideal) (s := S131072x128) (φ := .f32) (u := S_) x init h' hu (ix1 R)
      = init ix0 + ∑ k : Fin 128, x (ix2 R k) := by
  have h : S131072x128.Reduces [1] S131072 := by decide
  rw [hostReduceAdd_apply, Ideal.hostReduceAdd_single h' h]
  exact congrArg₂ (fun a b : EReal => a + b) (congrArg init (funext fun a => a.elim0))
    (Finset.sum_congr rfl fun k _ => congrArg x (lift_ix1_columns h R k))

/-- The host's maximum along the rows, at row `R`: the fold of `max` from the initial value over the row. -/
theorem rowmax (x : FVec Ideal S131072x128 .f32) (init : FVec Ideal S_ .f32)
    (h' : S131072x128.ReducesTo [1] S131072) (hu : 0 < S_.numel) (R : Fin 131072) :
    Host.reduce (s := S131072x128) (α := Ideal .f32) (u := S_) (FloatOps.maximumf (F := Ideal) (φ := .f32)) x init h' hu (ix1 R)
      = (Finset.univ : Finset (Fin 128)).fold max (init ix0) (fun k => x (ix2 R k)) := by
  have h : S131072x128.Reduces [1] S131072 := by decide
  rw [Host.reduce_eq_fold_single (FloatOps.maximumf (F := Ideal) (φ := .f32)) x init h' h hu (ix1 R)]
  have e0 : init (Shape.Idx.first hu) = init ix0 := congrArg init (funext fun a => a.elim0)
  rw [e0]
  exact Finset.fold_congr fun k _ => congrArg x (lift_ix1_columns h R k)

/-- The host's sum of a `[131072]` vector into a scalar: the initial value plus the sum over the rows. -/
theorem totalsum (x : FVec Ideal S131072 .f32) (init : FVec Ideal S_ .f32)
    (h' : S131072.ReducesTo [0] S_) (hu : 0 < S_.numel) (j : S_.Idx) :
    Host.reduceAdd (F := Ideal) (s := S131072) (φ := .f32) (u := S_) x init h' hu j
      = init ix0 + ∑ R : Fin 131072, x (ix1 R) := by
  rw [hostReduceAdd_apply, Ideal.hostReduceAdd_total h' (fun b => b.elim0), Cert.LibIdealBits.sum_idx1]
  exact congrArg (fun a : EReal => a + ∑ R : Fin 131072, x (ix1 R)) (congrArg init (funext fun a => a.elim0))

/-- A scalar cast to `[1]` reads the scalar. -/
theorem shapeCast_scalar_apply {α : Type} (f : S_.Idx → α) (h : S_.ShapeCasts S1) (i : S1.Idx) :
    shapeCast S1 f h i = f ix0 := by
  unfold shapeCast; exact congrArg f (funext fun a => a.elim0)

/-! ## The reference's own arrangements -/

/-- The integer word `1` converted to a float is the integer one. -/
theorem one_word : FloatOps.sitofp (F := Ideal) (w := 32) .f32 (1#32) = (((1 : ℤ) : ℝ) : EReal) :=
  (Cert.LibIdealBits.sitofp_ideal _).trans (congrArg (fun z : ℤ => ((z : ℝ) : EReal)) (by decide))

/-- `127 > 0` as the comparison's bit. -/
theorem cmp_pos : FloatOps.cmpf (F := Ideal) (φ := .f32) .ogt Spec.c127 0 = 1#1 := by
  rw [Ideal.cmpf_def]; unfold Ideal.cmp; simp [Spec.c127_pos]

/-- The covariance with each row lowered by `mean + ε` is the specification's, lowered by `mean` and then by `ε`. -/
theorem cov_arrange (u v : Spec.Row) :
    Ideal.div (∑ k : Fin 128, (u k - (Spec.mean u + Spec.eps)) * (v k - (Spec.mean v + Spec.eps))) Spec.c127 = Spec.cov u v := by
  unfold Spec.cov
  exact congrArg (fun s : EReal => Ideal.div s Spec.c127)
    (Finset.sum_congr rfl fun k _ => by rw [Spec.sub_add_eps, Spec.sub_add_eps])

/-- A fold of `max` from a value that is `-∞` over a function that is the row is the row's maximum. -/
theorem fold_arrange {init : EReal} {f : Fin 128 → EReal} {g : Spec.Row} (hi : init = Spec.ninf) (hf : ∀ k, f k = g k) :
    (Finset.univ : Finset (Fin 128)).fold max init f = Spec.rmax g := by
  subst hi; unfold Spec.rmax; exact Finset.fold_congr fun k _ => hf k

/-- The larger of `-∞` and a row's maximum is that maximum, for values that are these. -/
theorem max_arrange {a b : EReal} {u : Spec.Row} (ha : a = Spec.ninf) (hb : b = Spec.rmax u) : max a b = Spec.rmax u := by
  subst ha; subst hb; exact Spec.max_ninf_rmax u

/-- The host's absolute value at an index is the larger of the element and its negation. -/
theorem pw_abs {s : Shape} (a : FVec Ideal s .f32) (i : s.Idx) :
    Host.absf (F := Ideal) (s := s) (φ := .f32) a i = max (a i : EReal) (-(a i : EReal)) := rfl

/-- A quotient of an exponential by the sum of the row's exponentials is the specification's softmax entry. -/
theorem soft_arrange {a b : EReal} {u : Spec.Row} {k : Fin 128} (ha : a = Ideal.exp (u k - Spec.rmax u))
    (hb : b = ∑ k : Fin 128, Ideal.exp (u k - Spec.rmax u)) : Ideal.div a b = Spec.soft u k := by
  subst ha; subst hb; rfl

/-! ## The literal words, never evaluated -/

theorem w_zero (i : S_.Idx) : constant (F := Ideal) S_ .f32 0x00000000#32 i = (0 : EReal) :=
  (constant_apply _ _).trans Ideal.ofBits_zero_f32
theorem w_c128 (i : S_.Idx) : constant (F := Ideal) S_ .f32 0x43000000#32 i = Spec.c128 := constant_apply _ _
theorem w_c127 (i : S_.Idx) : constant (F := Ideal) S_ .f32 0x42FE0000#32 i = Spec.c127 := constant_apply _ _
theorem w_eps (i : S_.Idx) : constant (F := Ideal) S_ .f32 0x3A83126F#32 i = Spec.eps := constant_apply _ _
theorem w_c1 (i : S_.Idx) : constant (F := Ideal) S_ .f32 0x3F800000#32 i = Spec.c1 := constant_apply _ _
theorem w_c2 (i : S_.Idx) : constant (F := Ideal) S_ .f32 0x40000000#32 i = Spec.c2 := constant_apply _ _
theorem w_ninf (i : S_.Idx) : constant (F := Ideal) S_ .f32 0xFF800000#32 i = Spec.ninf := constant_apply _ _

/-! ## The buffers, row by row -/

variable (V : Valuation τ sig (Elt Ideal))

/-- The two argument arrays. -/
abbrev X : Spec.Arr := V (main_arg0 : DevRef τ sig)
abbrev Y : Spec.Arr := V (main_arg1 : DevRef τ sig)

theorem a_arg0 (R : Fin 131072) (k : Fin 128) : (Z V (main_arg0 : DevRef τ sig) : FVec Ideal S131072x128 .f32) (ix2 R k) = Spec.row (X V) R k :=
  congrFun (l_arg0 V) (ix2 R k)

theorem a_arg1 (R : Fin 131072) (k : Fin 128) : (Z V (main_arg1 : DevRef τ sig) : FVec Ideal S131072x128 .f32) (ix2 R k) = Spec.row (Y V) R k :=
  congrFun (l_arg1 V) (ix2 R k)

theorem a_cst : (Z V (main_cst : DevRef τ sig) : FVec Ideal S_ .f32) ix0 = (0 : EReal) :=
  (congrFun (l_cst V) ix0).trans (w_zero _)

theorem a_v0 (R : Fin 131072) : (Z V (main_v0 : DevRef τ sig) : FVec Ideal S131072 .f32) (ix1 R) = ∑ k : Fin 128, (Spec.row (X V) R) k :=
  (congrFun (l_v0 V) (ix1 R)).trans ((rowsum _ _ _ _ R).trans ((congrArg₂ (fun a b : EReal => a + b) (a_cst V) (Finset.sum_congr rfl fun k _ => a_arg0 V R k)).trans (zero_add _)))

theorem a_v1 (R : Fin 131072) : (Z V (main_v1 : DevRef τ sig) : FVec Ideal S131072x1 .f32) (ix2 R (0 : Fin 1)) = ∑ k : Fin 128, (Spec.row (X V) R) k :=
  (congrFun (l_v1 V) (ix2 R (0 : Fin 1))).trans ((broadcastInDim_a_a1_apply _ _ R 0).trans (a_v0 V R))

theorem a_cst_0 : (Z V (main_cst_0 : DevRef τ sig) : FVec Ideal S_ .f32) ix0 = Spec.c128 :=
  (congrFun (l_cst_0 V) ix0).trans (w_c128 _)

theorem a_v2 (R : Fin 131072) : (Z V (main_v2 : DevRef τ sig) : FVec Ideal S131072x1 .f32) (ix2 R (0 : Fin 1)) = Spec.c128 :=
  (congrFun (l_v2 V) (ix2 R (0 : Fin 1))).trans ((broadcastInDim_scalar_apply _ _ _).trans (a_cst_0 V))

theorem a_v3 (R : Fin 131072) : (Z V (main_v3 : DevRef τ sig) : FVec Ideal S131072x1 .f32) (ix2 R (0 : Fin 1)) = Spec.mean (Spec.row (X V) R) :=
  (congrFun (l_v3 V) (ix2 R (0 : Fin 1))).trans (congrArg₂ (Ideal.div) (a_v1 V R) (a_v2 V R))

theorem a_cst_1 : (Z V (main_cst_1 : DevRef τ sig) : FVec Ideal S_ .f32) ix0 = Spec.eps :=
  (congrFun (l_cst_1 V) ix0).trans (w_eps _)

theorem a_v4 (R : Fin 131072) : (Z V (main_v4 : DevRef τ sig) : FVec Ideal S131072x1 .f32) (ix2 R (0 : Fin 1)) = Spec.eps :=
  (congrFun (l_v4 V) (ix2 R (0 : Fin 1))).trans ((broadcastInDim_scalar_apply _ _ _).trans (a_cst_1 V))

theorem a_v5 (R : Fin 131072) : (Z V (main_v5 : DevRef τ sig) : FVec Ideal S131072x1 .f32) (ix2 R (0 : Fin 1)) = Spec.mean (Spec.row (X V) R) + Spec.eps :=
  (congrFun (l_v5 V) (ix2 R (0 : Fin 1))).trans (congrArg₂ (fun a b : EReal => a + b) (a_v3 V R) (a_v4 V R))

theorem a_cst_2 : (Z V (main_cst_2 : DevRef τ sig) : FVec Ideal S_ .f32) ix0 = (0 : EReal) :=
  (congrFun (l_cst_2 V) ix0).trans (w_zero _)

theorem a_v6 (R : Fin 131072) : (Z V (main_v6 : DevRef τ sig) : FVec Ideal S131072 .f32) (ix1 R) = ∑ k : Fin 128, (Spec.row (Y V) R) k :=
  (congrFun (l_v6 V) (ix1 R)).trans ((rowsum _ _ _ _ R).trans ((congrArg₂ (fun a b : EReal => a + b) (a_cst_2 V) (Finset.sum_congr rfl fun k _ => a_arg1 V R k)).trans (zero_add _)))

theorem a_v7 (R : Fin 131072) : (Z V (main_v7 : DevRef τ sig) : FVec Ideal S131072x1 .f32) (ix2 R (0 : Fin 1)) = ∑ k : Fin 128, (Spec.row (Y V) R) k :=
  (congrFun (l_v7 V) (ix2 R (0 : Fin 1))).trans ((broadcastInDim_a_a1_apply _ _ R 0).trans (a_v6 V R))

theorem a_cst_3 : (Z V (main_cst_3 : DevRef τ sig) : FVec Ideal S_ .f32) ix0 = Spec.c128 :=
  (congrFun (l_cst_3 V) ix0).trans (w_c128 _)

theorem a_v8 (R : Fin 131072) : (Z V (main_v8 : DevRef τ sig) : FVec Ideal S131072x1 .f32) (ix2 R (0 : Fin 1)) = Spec.c128 :=
  (congrFun (l_v8 V) (ix2 R (0 : Fin 1))).trans ((broadcastInDim_scalar_apply _ _ _).trans (a_cst_3 V))

theorem a_v9 (R : Fin 131072) : (Z V (main_v9 : DevRef τ sig) : FVec Ideal S131072x1 .f32) (ix2 R (0 : Fin 1)) = Spec.mean (Spec.row (Y V) R) :=
  (congrFun (l_v9 V) (ix2 R (0 : Fin 1))).trans (congrArg₂ (Ideal.div) (a_v7 V R) (a_v8 V R))

theorem a_cst_4 : (Z V (main_cst_4 : DevRef τ sig) : FVec Ideal S_ .f32) ix0 = Spec.eps :=
  (congrFun (l_cst_4 V) ix0).trans (w_eps _)

theorem a_v10 (R : Fin 131072) : (Z V (main_v10 : DevRef τ sig) : FVec Ideal S131072x1 .f32) (ix2 R (0 : Fin 1)) = Spec.eps :=
  (congrFun (l_v10 V) (ix2 R (0 : Fin 1))).trans ((broadcastInDim_scalar_apply _ _ _).trans (a_cst_4 V))

theorem a_v11 (R : Fin 131072) : (Z V (main_v11 : DevRef τ sig) : FVec Ideal S131072x1 .f32) (ix2 R (0 : Fin 1)) = Spec.mean (Spec.row (Y V) R) + Spec.eps :=
  (congrFun (l_v11 V) (ix2 R (0 : Fin 1))).trans (congrArg₂ (fun a b : EReal => a + b) (a_v9 V R) (a_v10 V R))

theorem a_c : (Z V (main_c : DevRef τ sig) : IVec S_ 32) ix0 = 1#32 :=
  congrFun (l_c V) ix0

theorem a_call0_call0_cst : (Z V (main_call0_call0_cst : DevRef τ sig) : FVec Ideal S_ .f32) ix0 = (0 : EReal) :=
  (congrFun (l_call0_call0_cst V) ix0).trans (w_zero _)

theorem a_call0_call0_v0 (R : Fin 131072) : (Z V (main_call0_call0_v0 : DevRef τ sig) : FVec Ideal S131072 .f32) (ix1 R) = ∑ k : Fin 128, (Spec.row (X V) R) k :=
  (congrFun (l_call0_call0_v0 V) (ix1 R)).trans ((rowsum _ _ _ _ R).trans ((congrArg₂ (fun a b : EReal => a + b) (a_call0_call0_cst V) (Finset.sum_congr rfl fun k _ => a_arg0 V R k)).trans (zero_add _)))

theorem a_call0_call0_v1 (R : Fin 131072) : (Z V (main_call0_call0_v1 : DevRef τ sig) : FVec Ideal S131072x1 .f32) (ix2 R (0 : Fin 1)) = ∑ k : Fin 128, (Spec.row (X V) R) k :=
  (congrFun (l_call0_call0_v1 V) (ix2 R (0 : Fin 1))).trans ((broadcastInDim_a_a1_apply _ _ R 0).trans (a_call0_call0_v0 V R))

theorem a_call0_call0_cst_0 : (Z V (main_call0_call0_cst_0 : DevRef τ sig) : FVec Ideal S_ .f32) ix0 = Spec.c128 :=
  (congrFun (l_call0_call0_cst_0 V) ix0).trans (w_c128 _)

theorem a_call0_call0_v2 (R : Fin 131072) : (Z V (main_call0_call0_v2 : DevRef τ sig) : FVec Ideal S131072x1 .f32) (ix2 R (0 : Fin 1)) = Spec.c128 :=
  (congrFun (l_call0_call0_v2 V) (ix2 R (0 : Fin 1))).trans ((broadcastInDim_scalar_apply _ _ _).trans (a_call0_call0_cst_0 V))

theorem a_call0_call0_v3 (R : Fin 131072) : (Z V (main_call0_call0_v3 : DevRef τ sig) : FVec Ideal S131072x1 .f32) (ix2 R (0 : Fin 1)) = Spec.mean (Spec.row (X V) R) :=
  (congrFun (l_call0_call0_v3 V) (ix2 R (0 : Fin 1))).trans (congrArg₂ (Ideal.div) (a_call0_call0_v1 V R) (a_call0_call0_v2 V R))

theorem a_call0_call0_v4 (R : Fin 131072) (k : Fin 128) : (Z V (main_call0_call0_v4 : DevRef τ sig) : FVec Ideal S131072x128 .f32) (ix2 R k) = Spec.mean (Spec.row (X V) R) :=
  (congrFun (l_call0_call0_v4 V) (ix2 R k)).trans ((broadcastInDim_a1_ab_apply _ _ R k).trans (a_call0_call0_v3 V R))

theorem a_call0_call0_v5 (R : Fin 131072) (k : Fin 128) : (Z V (main_call0_call0_v5 : DevRef τ sig) : FVec Ideal S131072x128 .f32) (ix2 R k) = (Spec.row (X V) R) k - Spec.mean (Spec.row (X V) R) :=
  (congrFun (l_call0_call0_v5 V) (ix2 R k)).trans (congrArg₂ (fun a b : EReal => a - b) (a_arg0 V R k) (a_call0_call0_v4 V R k))

theorem a_call0_call0_v6 (R : Fin 131072) (k : Fin 128) : (Z V (main_call0_call0_v6 : DevRef τ sig) : FVec Ideal S131072x128 .f32) (ix2 R k) = ((Spec.row (X V) R) k - Spec.mean (Spec.row (X V) R)) * ((Spec.row (X V) R) k - Spec.mean (Spec.row (X V) R)) :=
  (congrFun (l_call0_call0_v6 V) (ix2 R k)).trans (congrArg₂ (fun a b : EReal => a * b) (a_call0_call0_v5 V R k) (a_call0_call0_v5 V R k))

theorem a_call0_call0_v7 : (Z V (main_call0_call0_v7 : DevRef τ sig) : FVec Ideal S_ .f32) ix0 = (((1 : ℤ) : ℝ) : EReal) :=
  (congrFun (l_call0_call0_v7 V) ix0).trans ((congrArg (FloatOps.sitofp (F := Ideal) (w := 32) .f32) (a_c V)).trans one_word)

theorem a_call0_call0_cst_1 : (Z V (main_call0_call0_cst_1 : DevRef τ sig) : FVec Ideal S_ .f32) ix0 = Spec.c128 :=
  (congrFun (l_call0_call0_cst_1 V) ix0).trans (w_c128 _)

theorem a_call0_call0_v8 : (Z V (main_call0_call0_v8 : DevRef τ sig) : FVec Ideal S_ .f32) ix0 = Spec.c127 :=
  (congrFun (l_call0_call0_v8 V) ix0).trans ((congrArg₂ (fun a b : EReal => a - b) (a_call0_call0_cst_1 V) (a_call0_call0_v7 V)).trans Spec.c128_sub_one)

theorem a_call0_call0_cst_2 : (Z V (main_call0_call0_cst_2 : DevRef τ sig) : FVec Ideal S_ .f32) ix0 = (0 : EReal) :=
  (congrFun (l_call0_call0_cst_2 V) ix0).trans (w_zero _)

theorem a_call0_call0_v9 (R : Fin 131072) : (Z V (main_call0_call0_v9 : DevRef τ sig) : FVec Ideal S131072 .f32) (ix1 R) = ∑ k : Fin 128, ((Spec.row (X V) R) k - Spec.mean (Spec.row (X V) R)) * ((Spec.row (X V) R) k - Spec.mean (Spec.row (X V) R)) :=
  (congrFun (l_call0_call0_v9 V) (ix1 R)).trans ((rowsum _ _ _ _ R).trans ((congrArg₂ (fun a b : EReal => a + b) (a_call0_call0_cst_2 V) (Finset.sum_congr rfl fun k _ => a_call0_call0_v6 V R k)).trans (zero_add _)))

theorem a_call0_call0_v10 (R : Fin 131072) : (Z V (main_call0_call0_v10 : DevRef τ sig) : FVec Ideal S131072 .f32) (ix1 R) = Spec.c127 :=
  (congrFun (l_call0_call0_v10 V) (ix1 R)).trans ((broadcastInDim_scalar_apply _ _ _).trans (a_call0_call0_v8 V))

theorem a_call0_call0_v11 (R : Fin 131072) : (Z V (main_call0_call0_v11 : DevRef τ sig) : FVec Ideal S131072 .f32) (ix1 R) = Spec.var (Spec.row (X V) R) :=
  (congrFun (l_call0_call0_v11 V) (ix1 R)).trans (congrArg₂ (Ideal.div) (a_call0_call0_v9 V R) (a_call0_call0_v10 V R))

theorem a_call0_call0_cst_3 : (Z V (main_call0_call0_cst_3 : DevRef τ sig) : FVec Ideal S_ .f32) ix0 = (0 : EReal) :=
  (congrFun (l_call0_call0_cst_3 V) ix0).trans (w_zero _)

theorem a_call0_call0_v12 : (Z V (main_call0_call0_v12 : DevRef τ sig) : IVec S_ 1) ix0 = 1#1 :=
  (congrFun (l_call0_call0_v12 V) ix0).trans ((congrArg₂ (FloatOps.cmpf (F := Ideal) (φ := .f32) .ogt) (a_call0_call0_v8 V) (a_call0_call0_cst_3 V)).trans cmp_pos)

theorem a_call0_v0 (R : Fin 131072) : (Z V (main_call0_v0 : DevRef τ sig) : FVec Ideal S131072 .f32) (ix1 R) = Spec.var (Spec.row (X V) R) :=
  (congrFun (l_call0_v0 V) (ix1 R)).trans ((congrArg (fun c : BitVec 1 => Scalar.select c ((Z V (main_call0_call0_v11 : DevRef τ sig) : FVec Ideal S131072 .f32) (ix1 R)) ((Z V (main_call0_call0_call0_v1 : DevRef τ sig) : FVec Ideal S131072 .f32) (ix1 R))) ((broadcastInDim_scalar_apply _ _ _).trans (a_call0_call0_v12 V))).trans ((select_one _ _).trans (a_call0_call0_v11 V R)))

theorem a_v12 (R : Fin 131072) : (Z V (main_v12 : DevRef τ sig) : FVec Ideal S131072 .f32) (ix1 R) = Ideal.sqrt (Spec.var (Spec.row (X V) R)) :=
  (congrFun (l_v12 V) (ix1 R)).trans (congrArg (Ideal.sqrt) (a_call0_v0 V R))

theorem a_c_5 : (Z V (main_c_5 : DevRef τ sig) : IVec S_ 32) ix0 = 1#32 :=
  congrFun (l_c_5 V) ix0

theorem a_call1_call0_cst : (Z V (main_call1_call0_cst : DevRef τ sig) : FVec Ideal S_ .f32) ix0 = (0 : EReal) :=
  (congrFun (l_call1_call0_cst V) ix0).trans (w_zero _)

theorem a_call1_call0_v0 (R : Fin 131072) : (Z V (main_call1_call0_v0 : DevRef τ sig) : FVec Ideal S131072 .f32) (ix1 R) = ∑ k : Fin 128, (Spec.row (Y V) R) k :=
  (congrFun (l_call1_call0_v0 V) (ix1 R)).trans ((rowsum _ _ _ _ R).trans ((congrArg₂ (fun a b : EReal => a + b) (a_call1_call0_cst V) (Finset.sum_congr rfl fun k _ => a_arg1 V R k)).trans (zero_add _)))

theorem a_call1_call0_v1 (R : Fin 131072) : (Z V (main_call1_call0_v1 : DevRef τ sig) : FVec Ideal S131072x1 .f32) (ix2 R (0 : Fin 1)) = ∑ k : Fin 128, (Spec.row (Y V) R) k :=
  (congrFun (l_call1_call0_v1 V) (ix2 R (0 : Fin 1))).trans ((broadcastInDim_a_a1_apply _ _ R 0).trans (a_call1_call0_v0 V R))

theorem a_call1_call0_cst_0 : (Z V (main_call1_call0_cst_0 : DevRef τ sig) : FVec Ideal S_ .f32) ix0 = Spec.c128 :=
  (congrFun (l_call1_call0_cst_0 V) ix0).trans (w_c128 _)

theorem a_call1_call0_v2 (R : Fin 131072) : (Z V (main_call1_call0_v2 : DevRef τ sig) : FVec Ideal S131072x1 .f32) (ix2 R (0 : Fin 1)) = Spec.c128 :=
  (congrFun (l_call1_call0_v2 V) (ix2 R (0 : Fin 1))).trans ((broadcastInDim_scalar_apply _ _ _).trans (a_call1_call0_cst_0 V))

theorem a_call1_call0_v3 (R : Fin 131072) : (Z V (main_call1_call0_v3 : DevRef τ sig) : FVec Ideal S131072x1 .f32) (ix2 R (0 : Fin 1)) = Spec.mean (Spec.row (Y V) R) :=
  (congrFun (l_call1_call0_v3 V) (ix2 R (0 : Fin 1))).trans (congrArg₂ (Ideal.div) (a_call1_call0_v1 V R) (a_call1_call0_v2 V R))

theorem a_call1_call0_v4 (R : Fin 131072) (k : Fin 128) : (Z V (main_call1_call0_v4 : DevRef τ sig) : FVec Ideal S131072x128 .f32) (ix2 R k) = Spec.mean (Spec.row (Y V) R) :=
  (congrFun (l_call1_call0_v4 V) (ix2 R k)).trans ((broadcastInDim_a1_ab_apply _ _ R k).trans (a_call1_call0_v3 V R))

theorem a_call1_call0_v5 (R : Fin 131072) (k : Fin 128) : (Z V (main_call1_call0_v5 : DevRef τ sig) : FVec Ideal S131072x128 .f32) (ix2 R k) = (Spec.row (Y V) R) k - Spec.mean (Spec.row (Y V) R) :=
  (congrFun (l_call1_call0_v5 V) (ix2 R k)).trans (congrArg₂ (fun a b : EReal => a - b) (a_arg1 V R k) (a_call1_call0_v4 V R k))

theorem a_call1_call0_v6 (R : Fin 131072) (k : Fin 128) : (Z V (main_call1_call0_v6 : DevRef τ sig) : FVec Ideal S131072x128 .f32) (ix2 R k) = ((Spec.row (Y V) R) k - Spec.mean (Spec.row (Y V) R)) * ((Spec.row (Y V) R) k - Spec.mean (Spec.row (Y V) R)) :=
  (congrFun (l_call1_call0_v6 V) (ix2 R k)).trans (congrArg₂ (fun a b : EReal => a * b) (a_call1_call0_v5 V R k) (a_call1_call0_v5 V R k))

theorem a_call1_call0_v7 : (Z V (main_call1_call0_v7 : DevRef τ sig) : FVec Ideal S_ .f32) ix0 = (((1 : ℤ) : ℝ) : EReal) :=
  (congrFun (l_call1_call0_v7 V) ix0).trans ((congrArg (FloatOps.sitofp (F := Ideal) (w := 32) .f32) (a_c_5 V)).trans one_word)

theorem a_call1_call0_cst_1 : (Z V (main_call1_call0_cst_1 : DevRef τ sig) : FVec Ideal S_ .f32) ix0 = Spec.c128 :=
  (congrFun (l_call1_call0_cst_1 V) ix0).trans (w_c128 _)

theorem a_call1_call0_v8 : (Z V (main_call1_call0_v8 : DevRef τ sig) : FVec Ideal S_ .f32) ix0 = Spec.c127 :=
  (congrFun (l_call1_call0_v8 V) ix0).trans ((congrArg₂ (fun a b : EReal => a - b) (a_call1_call0_cst_1 V) (a_call1_call0_v7 V)).trans Spec.c128_sub_one)

theorem a_call1_call0_cst_2 : (Z V (main_call1_call0_cst_2 : DevRef τ sig) : FVec Ideal S_ .f32) ix0 = (0 : EReal) :=
  (congrFun (l_call1_call0_cst_2 V) ix0).trans (w_zero _)

theorem a_call1_call0_v9 (R : Fin 131072) : (Z V (main_call1_call0_v9 : DevRef τ sig) : FVec Ideal S131072 .f32) (ix1 R) = ∑ k : Fin 128, ((Spec.row (Y V) R) k - Spec.mean (Spec.row (Y V) R)) * ((Spec.row (Y V) R) k - Spec.mean (Spec.row (Y V) R)) :=
  (congrFun (l_call1_call0_v9 V) (ix1 R)).trans ((rowsum _ _ _ _ R).trans ((congrArg₂ (fun a b : EReal => a + b) (a_call1_call0_cst_2 V) (Finset.sum_congr rfl fun k _ => a_call1_call0_v6 V R k)).trans (zero_add _)))

theorem a_call1_call0_v10 (R : Fin 131072) : (Z V (main_call1_call0_v10 : DevRef τ sig) : FVec Ideal S131072 .f32) (ix1 R) = Spec.c127 :=
  (congrFun (l_call1_call0_v10 V) (ix1 R)).trans ((broadcastInDim_scalar_apply _ _ _).trans (a_call1_call0_v8 V))

theorem a_call1_call0_v11 (R : Fin 131072) : (Z V (main_call1_call0_v11 : DevRef τ sig) : FVec Ideal S131072 .f32) (ix1 R) = Spec.var (Spec.row (Y V) R) :=
  (congrFun (l_call1_call0_v11 V) (ix1 R)).trans (congrArg₂ (Ideal.div) (a_call1_call0_v9 V R) (a_call1_call0_v10 V R))

theorem a_call1_call0_cst_3 : (Z V (main_call1_call0_cst_3 : DevRef τ sig) : FVec Ideal S_ .f32) ix0 = (0 : EReal) :=
  (congrFun (l_call1_call0_cst_3 V) ix0).trans (w_zero _)

theorem a_call1_call0_v12 : (Z V (main_call1_call0_v12 : DevRef τ sig) : IVec S_ 1) ix0 = 1#1 :=
  (congrFun (l_call1_call0_v12 V) ix0).trans ((congrArg₂ (FloatOps.cmpf (F := Ideal) (φ := .f32) .ogt) (a_call1_call0_v8 V) (a_call1_call0_cst_3 V)).trans cmp_pos)

theorem a_call1_v0 (R : Fin 131072) : (Z V (main_call1_v0 : DevRef τ sig) : FVec Ideal S131072 .f32) (ix1 R) = Spec.var (Spec.row (Y V) R) :=
  (congrFun (l_call1_v0 V) (ix1 R)).trans ((congrArg (fun c : BitVec 1 => Scalar.select c ((Z V (main_call1_call0_v11 : DevRef τ sig) : FVec Ideal S131072 .f32) (ix1 R)) ((Z V (main_call1_call0_call0_v1 : DevRef τ sig) : FVec Ideal S131072 .f32) (ix1 R))) ((broadcastInDim_scalar_apply _ _ _).trans (a_call1_call0_v12 V))).trans ((select_one _ _).trans (a_call1_call0_v11 V R)))

theorem a_v13 (R : Fin 131072) : (Z V (main_v13 : DevRef τ sig) : FVec Ideal S131072 .f32) (ix1 R) = Ideal.sqrt (Spec.var (Spec.row (Y V) R)) :=
  (congrFun (l_v13 V) (ix1 R)).trans (congrArg (Ideal.sqrt) (a_call1_v0 V R))

theorem a_v14 (R : Fin 131072) (k : Fin 128) : (Z V (main_v14 : DevRef τ sig) : FVec Ideal S131072x128 .f32) (ix2 R k) = Spec.mean (Spec.row (X V) R) + Spec.eps :=
  (congrFun (l_v14 V) (ix2 R k)).trans ((broadcastInDim_a1_ab_apply _ _ R k).trans (a_v5 V R))

theorem a_v15 (R : Fin 131072) (k : Fin 128) : (Z V (main_v15 : DevRef τ sig) : FVec Ideal S131072x128 .f32) (ix2 R k) = (Spec.row (X V) R) k - (Spec.mean (Spec.row (X V) R) + Spec.eps) :=
  (congrFun (l_v15 V) (ix2 R k)).trans (congrArg₂ (fun a b : EReal => a - b) (a_arg0 V R k) (a_v14 V R k))

theorem a_v16 (R : Fin 131072) (k : Fin 128) : (Z V (main_v16 : DevRef τ sig) : FVec Ideal S131072x128 .f32) (ix2 R k) = Spec.mean (Spec.row (Y V) R) + Spec.eps :=
  (congrFun (l_v16 V) (ix2 R k)).trans ((broadcastInDim_a1_ab_apply _ _ R k).trans (a_v11 V R))

theorem a_v17 (R : Fin 131072) (k : Fin 128) : (Z V (main_v17 : DevRef τ sig) : FVec Ideal S131072x128 .f32) (ix2 R k) = (Spec.row (Y V) R) k - (Spec.mean (Spec.row (Y V) R) + Spec.eps) :=
  (congrFun (l_v17 V) (ix2 R k)).trans (congrArg₂ (fun a b : EReal => a - b) (a_arg1 V R k) (a_v16 V R k))

theorem a_v18 (R : Fin 131072) (k : Fin 128) : (Z V (main_v18 : DevRef τ sig) : FVec Ideal S131072x128 .f32) (ix2 R k) = ((Spec.row (X V) R) k - (Spec.mean (Spec.row (X V) R) + Spec.eps)) * ((Spec.row (Y V) R) k - (Spec.mean (Spec.row (Y V) R) + Spec.eps)) :=
  (congrFun (l_v18 V) (ix2 R k)).trans (congrArg₂ (fun a b : EReal => a * b) (a_v15 V R k) (a_v17 V R k))

theorem a_cst_6 : (Z V (main_cst_6 : DevRef τ sig) : FVec Ideal S_ .f32) ix0 = (0 : EReal) :=
  (congrFun (l_cst_6 V) ix0).trans (w_zero _)

theorem a_v19 (R : Fin 131072) : (Z V (main_v19 : DevRef τ sig) : FVec Ideal S131072 .f32) (ix1 R) = ∑ k : Fin 128, ((Spec.row (X V) R) k - (Spec.mean (Spec.row (X V) R) + Spec.eps)) * ((Spec.row (Y V) R) k - (Spec.mean (Spec.row (Y V) R) + Spec.eps)) :=
  (congrFun (l_v19 V) (ix1 R)).trans ((rowsum _ _ _ _ R).trans ((congrArg₂ (fun a b : EReal => a + b) (a_cst_6 V) (Finset.sum_congr rfl fun k _ => a_v18 V R k)).trans (zero_add _)))

theorem a_cst_7 : (Z V (main_cst_7 : DevRef τ sig) : FVec Ideal S_ .f32) ix0 = Spec.c127 :=
  (congrFun (l_cst_7 V) ix0).trans (w_c127 _)

theorem a_v20 (R : Fin 131072) : (Z V (main_v20 : DevRef τ sig) : FVec Ideal S131072 .f32) (ix1 R) = Spec.c127 :=
  (congrFun (l_v20 V) (ix1 R)).trans ((broadcastInDim_scalar_apply _ _ _).trans (a_cst_7 V))

theorem a_v21 (R : Fin 131072) : (Z V (main_v21 : DevRef τ sig) : FVec Ideal S131072 .f32) (ix1 R) = Spec.cov (Spec.row (X V) R) (Spec.row (Y V) R) :=
  (congrFun (l_v21 V) (ix1 R)).trans ((congrArg₂ (Ideal.div) (a_v19 V R) (a_v20 V R)).trans (cov_arrange (Spec.row (X V) R) (Spec.row (Y V) R)))

theorem a_v22 (R : Fin 131072) : (Z V (main_v22 : DevRef τ sig) : FVec Ideal S131072 .f32) (ix1 R) = Ideal.sqrt (Spec.var (Spec.row (X V) R)) * Ideal.sqrt (Spec.var (Spec.row (Y V) R)) :=
  (congrFun (l_v22 V) (ix1 R)).trans (congrArg₂ (fun a b : EReal => a * b) (a_v12 V R) (a_v13 V R))

theorem a_cst_8 : (Z V (main_cst_8 : DevRef τ sig) : FVec Ideal S_ .f32) ix0 = Spec.eps :=
  (congrFun (l_cst_8 V) ix0).trans (w_eps _)

theorem a_v23 (R : Fin 131072) : (Z V (main_v23 : DevRef τ sig) : FVec Ideal S131072 .f32) (ix1 R) = Spec.eps :=
  (congrFun (l_v23 V) (ix1 R)).trans ((broadcastInDim_scalar_apply _ _ _).trans (a_cst_8 V))

theorem a_v24 (R : Fin 131072) : (Z V (main_v24 : DevRef τ sig) : FVec Ideal S131072 .f32) (ix1 R) = Ideal.sqrt (Spec.var (Spec.row (X V) R)) * Ideal.sqrt (Spec.var (Spec.row (Y V) R)) + Spec.eps :=
  (congrFun (l_v24 V) (ix1 R)).trans (congrArg₂ (fun a b : EReal => a + b) (a_v22 V R) (a_v23 V R))

theorem a_v25 (R : Fin 131072) : (Z V (main_v25 : DevRef τ sig) : FVec Ideal S131072 .f32) (ix1 R) = Spec.cor (Spec.row (X V) R) (Spec.row (Y V) R) :=
  (congrFun (l_v25 V) (ix1 R)).trans (congrArg₂ (Ideal.div) (a_v21 V R) (a_v24 V R))

theorem a_v26 (R : Fin 131072) : (Z V (main_v26 : DevRef τ sig) : FVec Ideal S131072 .f32) (ix1 R) = Spec.cor (Spec.row (X V) R) (Spec.row (Y V) R) * Spec.cor (Spec.row (X V) R) (Spec.row (Y V) R) :=
  (congrFun (l_v26 V) (ix1 R)).trans (congrArg₂ (fun a b : EReal => a * b) (a_v25 V R) (a_v25 V R))

theorem a_v27 (R : Fin 131072) : (Z V (main_v27 : DevRef τ sig) : FVec Ideal S131072 .f32) (ix1 R) = Spec.cube (Spec.cor (Spec.row (X V) R) (Spec.row (Y V) R)) :=
  (congrFun (l_v27 V) (ix1 R)).trans (congrArg₂ (fun a b : EReal => a * b) (a_v26 V R) (a_v25 V R))

theorem a_cst_9 : (Z V (main_cst_9 : DevRef τ sig) : FVec Ideal S_ .f32) ix0 = Spec.c1 :=
  (congrFun (l_cst_9 V) ix0).trans (w_c1 _)

theorem a_v28 (R : Fin 131072) : (Z V (main_v28 : DevRef τ sig) : FVec Ideal S131072 .f32) (ix1 R) = Spec.c1 :=
  (congrFun (l_v28 V) (ix1 R)).trans ((broadcastInDim_scalar_apply _ _ _).trans (a_cst_9 V))

theorem a_v29 (R : Fin 131072) : (Z V (main_v29 : DevRef τ sig) : FVec Ideal S131072 .f32) (ix1 R) = Spec.cube (Spec.cor (Spec.row (X V) R) (Spec.row (Y V) R)) + Spec.c1 :=
  (congrFun (l_v29 V) (ix1 R)).trans (congrArg₂ (fun a b : EReal => a + b) (a_v27 V R) (a_v28 V R))

theorem a_cst_10 : (Z V (main_cst_10 : DevRef τ sig) : FVec Ideal S_ .f32) ix0 = Spec.eps :=
  (congrFun (l_cst_10 V) ix0).trans (w_eps _)

theorem a_v30 (R : Fin 131072) : (Z V (main_v30 : DevRef τ sig) : FVec Ideal S131072 .f32) (ix1 R) = Spec.eps :=
  (congrFun (l_v30 V) (ix1 R)).trans ((broadcastInDim_scalar_apply _ _ _).trans (a_cst_10 V))

theorem a_v31 (R : Fin 131072) : (Z V (main_v31 : DevRef τ sig) : FVec Ideal S131072 .f32) (ix1 R) = Spec.cube (Spec.cor (Spec.row (X V) R) (Spec.row (Y V) R)) + Spec.c1 + Spec.eps :=
  (congrFun (l_v31 V) (ix1 R)).trans (congrArg₂ (fun a b : EReal => a + b) (a_v29 V R) (a_v30 V R))

theorem a_cst_11 : (Z V (main_cst_11 : DevRef τ sig) : FVec Ideal S_ .f32) ix0 = Spec.c2 :=
  (congrFun (l_cst_11 V) ix0).trans (w_c2 _)

theorem a_v32 (R : Fin 131072) : (Z V (main_v32 : DevRef τ sig) : FVec Ideal S131072 .f32) (ix1 R) = Spec.c2 :=
  (congrFun (l_v32 V) (ix1 R)).trans ((broadcastInDim_scalar_apply _ _ _).trans (a_cst_11 V))

theorem a_v33 (R : Fin 131072) : (Z V (main_v33 : DevRef τ sig) : FVec Ideal S131072 .f32) (ix1 R) = Ideal.div (Spec.cube (Spec.cor (Spec.row (X V) R) (Spec.row (Y V) R)) + Spec.c1 + Spec.eps) Spec.c2 :=
  (congrFun (l_v33 V) (ix1 R)).trans (congrArg₂ (Ideal.div) (a_v31 V R) (a_v32 V R))

theorem a_v34 (R : Fin 131072) : (Z V (main_v34 : DevRef τ sig) : FVec Ideal S131072 .f32) (ix1 R) = Ideal.log (Ideal.div (Spec.cube (Spec.cor (Spec.row (X V) R) (Spec.row (Y V) R)) + Spec.c1 + Spec.eps) Spec.c2) :=
  (congrFun (l_v34 V) (ix1 R)).trans (congrArg (Ideal.log) (a_v33 V R))

theorem a_v35 (R : Fin 131072) : (Z V (main_v35 : DevRef τ sig) : FVec Ideal S131072 .f32) (ix1 R) = Spec.logTerm (Spec.cube (Spec.cor (Spec.row (X V) R) (Spec.row (Y V) R))) :=
  (congrFun (l_v35 V) (ix1 R)).trans (congrArg (fun a : EReal => -a) (a_v34 V R))

theorem a_cst_12 : (Z V (main_cst_12 : DevRef τ sig) : FVec Ideal S_ .f32) ix0 = Spec.ninf :=
  (congrFun (l_cst_12 V) ix0).trans (w_ninf _)

theorem a_v36 (R : Fin 131072) : (Z V (main_v36 : DevRef τ sig) : FVec Ideal S131072 .f32) (ix1 R) = Spec.rmax (Spec.row (X V) R) :=
  (congrFun (l_v36 V) (ix1 R)).trans ((rowmax _ _ _ _ R).trans (fold_arrange (a_cst_12 V) (fun k => a_arg0 V R k)))

theorem a_cst_13 : (Z V (main_cst_13 : DevRef τ sig) : FVec Ideal S_ .f32) ix0 = Spec.ninf :=
  (congrFun (l_cst_13 V) ix0).trans (w_ninf _)

theorem a_v37 (R : Fin 131072) : (Z V (main_v37 : DevRef τ sig) : FVec Ideal S131072 .f32) (ix1 R) = Spec.ninf :=
  (congrFun (l_v37 V) (ix1 R)).trans ((broadcastInDim_scalar_apply _ _ _).trans (a_cst_13 V))

theorem a_v38 (R : Fin 131072) : (Z V (main_v38 : DevRef τ sig) : FVec Ideal S131072 .f32) (ix1 R) = Spec.rmax (Spec.row (X V) R) :=
  (congrFun (l_v38 V) (ix1 R)).trans ((maximumf_apply _ _ _).trans (max_arrange (a_v37 V R) (a_v36 V R)))

theorem a_v39 (R : Fin 131072) : (Z V (main_v39 : DevRef τ sig) : FVec Ideal S131072x1 .f32) (ix2 R (0 : Fin 1)) = Spec.rmax (Spec.row (X V) R) :=
  (congrFun (l_v39 V) (ix2 R (0 : Fin 1))).trans ((broadcastInDim_a_a1_apply _ _ R 0).trans (a_v38 V R))

theorem a_v40 (R : Fin 131072) (k : Fin 128) : (Z V (main_v40 : DevRef τ sig) : FVec Ideal S131072x128 .f32) (ix2 R k) = Spec.rmax (Spec.row (X V) R) :=
  (congrFun (l_v40 V) (ix2 R k)).trans ((broadcastInDim_a1_ab_apply _ _ R k).trans (a_v39 V R))

theorem a_v41 (R : Fin 131072) (k : Fin 128) : (Z V (main_v41 : DevRef τ sig) : FVec Ideal S131072x128 .f32) (ix2 R k) = (Spec.row (X V) R) k - Spec.rmax (Spec.row (X V) R) :=
  (congrFun (l_v41 V) (ix2 R k)).trans (congrArg₂ (fun a b : EReal => a - b) (a_arg0 V R k) (a_v40 V R k))

theorem a_v42 (R : Fin 131072) (k : Fin 128) : (Z V (main_v42 : DevRef τ sig) : FVec Ideal S131072x128 .f32) (ix2 R k) = Ideal.exp ((Spec.row (X V) R) k - Spec.rmax (Spec.row (X V) R)) :=
  (congrFun (l_v42 V) (ix2 R k)).trans (congrArg (Ideal.exp) (a_v41 V R k))

theorem a_cst_14 : (Z V (main_cst_14 : DevRef τ sig) : FVec Ideal S_ .f32) ix0 = (0 : EReal) :=
  (congrFun (l_cst_14 V) ix0).trans (w_zero _)

theorem a_v43 (R : Fin 131072) : (Z V (main_v43 : DevRef τ sig) : FVec Ideal S131072 .f32) (ix1 R) = ∑ k : Fin 128, Ideal.exp ((Spec.row (X V) R) k - Spec.rmax (Spec.row (X V) R)) :=
  (congrFun (l_v43 V) (ix1 R)).trans ((rowsum _ _ _ _ R).trans ((congrArg₂ (fun a b : EReal => a + b) (a_cst_14 V) (Finset.sum_congr rfl fun k _ => a_v42 V R k)).trans (zero_add _)))

theorem a_v44 (R : Fin 131072) : (Z V (main_v44 : DevRef τ sig) : FVec Ideal S131072x1 .f32) (ix2 R (0 : Fin 1)) = ∑ k : Fin 128, Ideal.exp ((Spec.row (X V) R) k - Spec.rmax (Spec.row (X V) R)) :=
  (congrFun (l_v44 V) (ix2 R (0 : Fin 1))).trans ((broadcastInDim_a_a1_apply _ _ R 0).trans (a_v43 V R))

theorem a_v45 (R : Fin 131072) (k : Fin 128) : (Z V (main_v45 : DevRef τ sig) : FVec Ideal S131072x128 .f32) (ix2 R k) = ∑ k : Fin 128, Ideal.exp ((Spec.row (X V) R) k - Spec.rmax (Spec.row (X V) R)) :=
  (congrFun (l_v45 V) (ix2 R k)).trans ((broadcastInDim_a1_ab_apply _ _ R k).trans (a_v44 V R))

theorem a_v46 (R : Fin 131072) (k : Fin 128) : (Z V (main_v46 : DevRef τ sig) : FVec Ideal S131072x128 .f32) (ix2 R k) = Spec.soft (Spec.row (X V) R) k :=
  (congrFun (l_v46 V) (ix2 R k)).trans ((hostDivf_apply _ _ _).trans (soft_arrange (a_v42 V R k) (a_v45 V R k)))

theorem a_cst_15 : (Z V (main_cst_15 : DevRef τ sig) : FVec Ideal S_ .f32) ix0 = Spec.ninf :=
  (congrFun (l_cst_15 V) ix0).trans (w_ninf _)

theorem a_v47 (R : Fin 131072) : (Z V (main_v47 : DevRef τ sig) : FVec Ideal S131072 .f32) (ix1 R) = Spec.rmax (Spec.row (Y V) R) :=
  (congrFun (l_v47 V) (ix1 R)).trans ((rowmax _ _ _ _ R).trans (fold_arrange (a_cst_15 V) (fun k => a_arg1 V R k)))

theorem a_cst_16 : (Z V (main_cst_16 : DevRef τ sig) : FVec Ideal S_ .f32) ix0 = Spec.ninf :=
  (congrFun (l_cst_16 V) ix0).trans (w_ninf _)

theorem a_v48 (R : Fin 131072) : (Z V (main_v48 : DevRef τ sig) : FVec Ideal S131072 .f32) (ix1 R) = Spec.ninf :=
  (congrFun (l_v48 V) (ix1 R)).trans ((broadcastInDim_scalar_apply _ _ _).trans (a_cst_16 V))

theorem a_v49 (R : Fin 131072) : (Z V (main_v49 : DevRef τ sig) : FVec Ideal S131072 .f32) (ix1 R) = Spec.rmax (Spec.row (Y V) R) :=
  (congrFun (l_v49 V) (ix1 R)).trans ((maximumf_apply _ _ _).trans (max_arrange (a_v48 V R) (a_v47 V R)))

theorem a_v50 (R : Fin 131072) : (Z V (main_v50 : DevRef τ sig) : FVec Ideal S131072x1 .f32) (ix2 R (0 : Fin 1)) = Spec.rmax (Spec.row (Y V) R) :=
  (congrFun (l_v50 V) (ix2 R (0 : Fin 1))).trans ((broadcastInDim_a_a1_apply _ _ R 0).trans (a_v49 V R))

theorem a_v51 (R : Fin 131072) (k : Fin 128) : (Z V (main_v51 : DevRef τ sig) : FVec Ideal S131072x128 .f32) (ix2 R k) = Spec.rmax (Spec.row (Y V) R) :=
  (congrFun (l_v51 V) (ix2 R k)).trans ((broadcastInDim_a1_ab_apply _ _ R k).trans (a_v50 V R))

theorem a_v52 (R : Fin 131072) (k : Fin 128) : (Z V (main_v52 : DevRef τ sig) : FVec Ideal S131072x128 .f32) (ix2 R k) = (Spec.row (Y V) R) k - Spec.rmax (Spec.row (Y V) R) :=
  (congrFun (l_v52 V) (ix2 R k)).trans (congrArg₂ (fun a b : EReal => a - b) (a_arg1 V R k) (a_v51 V R k))

theorem a_v53 (R : Fin 131072) (k : Fin 128) : (Z V (main_v53 : DevRef τ sig) : FVec Ideal S131072x128 .f32) (ix2 R k) = Ideal.exp ((Spec.row (Y V) R) k - Spec.rmax (Spec.row (Y V) R)) :=
  (congrFun (l_v53 V) (ix2 R k)).trans (congrArg (Ideal.exp) (a_v52 V R k))

theorem a_cst_17 : (Z V (main_cst_17 : DevRef τ sig) : FVec Ideal S_ .f32) ix0 = (0 : EReal) :=
  (congrFun (l_cst_17 V) ix0).trans (w_zero _)

theorem a_v54 (R : Fin 131072) : (Z V (main_v54 : DevRef τ sig) : FVec Ideal S131072 .f32) (ix1 R) = ∑ k : Fin 128, Ideal.exp ((Spec.row (Y V) R) k - Spec.rmax (Spec.row (Y V) R)) :=
  (congrFun (l_v54 V) (ix1 R)).trans ((rowsum _ _ _ _ R).trans ((congrArg₂ (fun a b : EReal => a + b) (a_cst_17 V) (Finset.sum_congr rfl fun k _ => a_v53 V R k)).trans (zero_add _)))

theorem a_v55 (R : Fin 131072) : (Z V (main_v55 : DevRef τ sig) : FVec Ideal S131072x1 .f32) (ix2 R (0 : Fin 1)) = ∑ k : Fin 128, Ideal.exp ((Spec.row (Y V) R) k - Spec.rmax (Spec.row (Y V) R)) :=
  (congrFun (l_v55 V) (ix2 R (0 : Fin 1))).trans ((broadcastInDim_a_a1_apply _ _ R 0).trans (a_v54 V R))

theorem a_v56 (R : Fin 131072) (k : Fin 128) : (Z V (main_v56 : DevRef τ sig) : FVec Ideal S131072x128 .f32) (ix2 R k) = ∑ k : Fin 128, Ideal.exp ((Spec.row (Y V) R) k - Spec.rmax (Spec.row (Y V) R)) :=
  (congrFun (l_v56 V) (ix2 R k)).trans ((broadcastInDim_a1_ab_apply _ _ R k).trans (a_v55 V R))

theorem a_v57 (R : Fin 131072) (k : Fin 128) : (Z V (main_v57 : DevRef τ sig) : FVec Ideal S131072x128 .f32) (ix2 R k) = Spec.soft (Spec.row (Y V) R) k :=
  (congrFun (l_v57 V) (ix2 R k)).trans ((hostDivf_apply _ _ _).trans (soft_arrange (a_v53 V R k) (a_v56 V R k)))

theorem a_v58 (R : Fin 131072) (k : Fin 128) : (Z V (main_v58 : DevRef τ sig) : FVec Ideal S131072x128 .f32) (ix2 R k) = Spec.soft (Spec.row (X V) R) k - Spec.soft (Spec.row (Y V) R) k :=
  (congrFun (l_v58 V) (ix2 R k)).trans (congrArg₂ (fun a b : EReal => a - b) (a_v46 V R k) (a_v57 V R k))

theorem a_v59 (R : Fin 131072) (k : Fin 128) : (Z V (main_v59 : DevRef τ sig) : FVec Ideal S131072x128 .f32) (ix2 R k) = max (Spec.soft (Spec.row (X V) R) k - Spec.soft (Spec.row (Y V) R) k) (-(Spec.soft (Spec.row (X V) R) k - Spec.soft (Spec.row (Y V) R) k)) :=
  (congrFun (l_v59 V) (ix2 R k)).trans ((pw_abs _ _).trans (congrArg (fun a : EReal => max a (-a)) (a_v58 V R k)))

theorem a_cst_18 : (Z V (main_cst_18 : DevRef τ sig) : FVec Ideal S_ .f32) ix0 = (0 : EReal) :=
  (congrFun (l_cst_18 V) ix0).trans (w_zero _)

theorem a_v60 (R : Fin 131072) : (Z V (main_v60 : DevRef τ sig) : FVec Ideal S131072 .f32) (ix1 R) = ∑ k : Fin 128, max (Spec.soft (Spec.row (X V) R) k - Spec.soft (Spec.row (Y V) R) k) (-(Spec.soft (Spec.row (X V) R) k - Spec.soft (Spec.row (Y V) R) k)) :=
  (congrFun (l_v60 V) (ix1 R)).trans ((rowsum _ _ _ _ R).trans ((congrArg₂ (fun a b : EReal => a + b) (a_cst_18 V) (Finset.sum_congr rfl fun k _ => a_v59 V R k)).trans (zero_add _)))

theorem a_cst_19 : (Z V (main_cst_19 : DevRef τ sig) : FVec Ideal S_ .f32) ix0 = Spec.c128 :=
  (congrFun (l_cst_19 V) ix0).trans (w_c128 _)

theorem a_v61 (R : Fin 131072) : (Z V (main_v61 : DevRef τ sig) : FVec Ideal S131072 .f32) (ix1 R) = Spec.c128 :=
  (congrFun (l_v61 V) (ix1 R)).trans ((broadcastInDim_scalar_apply _ _ _).trans (a_cst_19 V))

theorem a_v62 (R : Fin 131072) : (Z V (main_v62 : DevRef τ sig) : FVec Ideal S131072 .f32) (ix1 R) = Spec.dist (Spec.row (X V) R) (Spec.row (Y V) R) :=
  (congrFun (l_v62 V) (ix1 R)).trans (congrArg₂ (Ideal.div) (a_v60 V R) (a_v61 V R))

theorem a_v63 (R : Fin 131072) : (Z V (main_v63 : DevRef τ sig) : FVec Ideal S131072 .f32) (ix1 R) = max (Spec.cube (Spec.cor (Spec.row (X V) R) (Spec.row (Y V) R))) (-Spec.cube (Spec.cor (Spec.row (X V) R) (Spec.row (Y V) R))) :=
  (congrFun (l_v63 V) (ix1 R)).trans ((pw_abs _ _).trans (congrArg (fun a : EReal => max a (-a)) (a_v27 V R)))

theorem a_v64 (R : Fin 131072) : (Z V (main_v64 : DevRef τ sig) : FVec Ideal S131072 .f32) (ix1 R) = max (Spec.cube (Spec.cor (Spec.row (X V) R) (Spec.row (Y V) R))) (-Spec.cube (Spec.cor (Spec.row (X V) R) (Spec.row (Y V) R))) * Spec.logTerm (Spec.cube (Spec.cor (Spec.row (X V) R) (Spec.row (Y V) R))) :=
  (congrFun (l_v64 V) (ix1 R)).trans (congrArg₂ (fun a b : EReal => a * b) (a_v63 V R) (a_v35 V R))

theorem a_cst_20 : (Z V (main_cst_20 : DevRef τ sig) : FVec Ideal S_ .f32) ix0 = Spec.c1 :=
  (congrFun (l_cst_20 V) ix0).trans (w_c1 _)

theorem a_v65 (R : Fin 131072) : (Z V (main_v65 : DevRef τ sig) : FVec Ideal S131072 .f32) (ix1 R) = Spec.c1 :=
  (congrFun (l_v65 V) (ix1 R)).trans ((broadcastInDim_scalar_apply _ _ _).trans (a_cst_20 V))

theorem a_v66 (R : Fin 131072) : (Z V (main_v66 : DevRef τ sig) : FVec Ideal S131072 .f32) (ix1 R) = Spec.c1 - max (Spec.cube (Spec.cor (Spec.row (X V) R) (Spec.row (Y V) R))) (-Spec.cube (Spec.cor (Spec.row (X V) R) (Spec.row (Y V) R))) :=
  (congrFun (l_v66 V) (ix1 R)).trans (congrArg₂ (fun a b : EReal => a - b) (a_v65 V R) (a_v63 V R))

theorem a_v67 (R : Fin 131072) : (Z V (main_v67 : DevRef τ sig) : FVec Ideal S131072 .f32) (ix1 R) = (Spec.c1 - max (Spec.cube (Spec.cor (Spec.row (X V) R) (Spec.row (Y V) R))) (-Spec.cube (Spec.cor (Spec.row (X V) R) (Spec.row (Y V) R)))) * Spec.dist (Spec.row (X V) R) (Spec.row (Y V) R) :=
  (congrFun (l_v67 V) (ix1 R)).trans (congrArg₂ (fun a b : EReal => a * b) (a_v66 V R) (a_v62 V R))

theorem a_v68 (R : Fin 131072) : (Z V (main_v68 : DevRef τ sig) : FVec Ideal S131072 .f32) (ix1 R) = Spec.rowLoss (Spec.row (X V) R) (Spec.row (Y V) R) :=
  (congrFun (l_v68 V) (ix1 R)).trans (congrArg₂ (fun a b : EReal => a + b) (a_v64 V R) (a_v67 V R))

theorem a_cst_21 : (Z V (main_cst_21 : DevRef τ sig) : FVec Ideal S_ .f32) ix0 = (0 : EReal) :=
  (congrFun (l_cst_21 V) ix0).trans (w_zero _)

end Cert.ReferenceIdeal.RefValue

end
-- ==== Proof.RefValue.lean ====
/-
  The reference's result: the sum of the row losses of the two argument arrays.

  The last reduction adds the per-row losses from the zero word, so the scalar it leaves is the specification's total;
  the reshape to one element reads that scalar; no operation writes an argument. With the run of the straight line
  this gives the reference's run: every execution ends with the result buffer at the total of the launch contents of
  the two arguments, and the arguments unchanged.
-/
import proofs.«145982_j28741921145431_2_alg».proof.Proof.RefValueRows

set_option maxRecDepth 16384

noncomputable section

open scoped BigOperators

namespace Cert.ReferenceIdeal.RefValue

open Cert Cert.ReferenceIdeal Cert.ReferenceIdeal.Gen Cert.ReferenceIdeal.RefRun Idealize.ShloMosaic Idealize.ShloMosaic.TcCoe Idealize.SL.Sem Idealize.ShloMosaic.StableHlo Idealize.ShloMosaic.ValueIdx

/-- The scalar the last reduction leaves is the total of the row losses. -/
theorem a_v69 (V : Valuation τ sig (Elt Ideal)) (j : S_.Idx) :
    (Z V (main_v69 : DevRef τ sig) : FVec Ideal S_ .f32) j = Spec.total (X V) (Y V) :=
  (congrFun (l_v69 V) j).trans ((totalsum _ _ _ _ j).trans
    ((congrArg₂ (fun a b : EReal => a + b) (a_cst_21 V) (Finset.sum_congr rfl fun R _ => a_v68 V R)).trans (zero_add _)))

theorem result_eq (V : Valuation τ sig (Elt Ideal)) :
    after (ops (F := Ideal)) V (main_v70 : DevRef τ sig)
      = fun _ => Cert.Spec.total (V (main_arg0 : DevRef τ sig)) (V (main_arg1 : DevRef τ sig)) :=
  (l_v70 V).trans (funext fun i => (shapeCast_scalar_apply _ _ i).trans (a_v69 V ix0))

theorem arg0_eq (V : Valuation τ sig (Elt Ideal)) :
    after (ops (F := Ideal)) V (main_arg0 : DevRef τ sig) = V (main_arg0 : DevRef τ sig) := l_arg0 V

theorem arg1_eq (V : Valuation τ sig (Elt Ideal)) :
    after (ops (F := Ideal)) V (main_arg1 : DevRef τ sig) = V (main_arg1 : DevRef τ sig) := l_arg1 V

/-- From any memory with zero counters, every weakly fair execution of the reference terminates with its result at
    the total of the row losses of the two arguments' launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v70) = (fun _ => Cert.Spec.total (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run _ _ _).mono (fun _ h c => ⟨(h c main_v70).trans (result_eq (launchContents m c)),
      (h c main_arg0).trans (arg0_eq (launchContents m c)),
      (h c main_arg1).trans (arg1_eq (launchContents m c))⟩)
    (run_main (F := Ideal) m ρ)

end Cert.ReferenceIdeal.RefValue

end
-- ==== Proof.lean ====
/-
  The certificate of the row-wise correlation loss kernel against its jnp reference.

  Both programs take two arrays of 131072 rows of 128 entries and return one number in a [1] array: the sum over the
  rows of a loss of the row pair (the specification module states it once: row means, variances and covariance over
  127, the cube of the correlation, `-log ((z + 1 + ε) / 2)`, the mean absolute difference of the two rows' softmaxes,
  and their mix by `|z|`).

  The kernel walks 32 blocks of 4096 rows, sixteen per core, adds each block's partial loss to an accumulator it
  carries from point to point, writes each core's accumulator into one entry of a [16, 128] array that is zero
  elsewhere, and the host adds up that array. Read at the exact instance this is the sum of all row losses
  (the kernel-side modules: the body's arithmetic at a row, the accumulator by induction on the point, the two
  write-backs, the host's final sum).

  The reference is a straight line of host operations (two calls of a standard-deviation function unfolded in place)
  that computes the same row losses from differently arranged formulas — it lowers each entry by `mean + ε` where the
  kernel lowers the centred entry by `ε`, divides the variance by `128 - 1` under a guard that always holds where the
  kernel divides by `127`, negates a logarithm where the kernel subtracts it from zero, and takes a row maximum once
  more against `-∞` — and adds them up from zero. Each difference is an identity of the extended reals that holds at
  every value, so the precondition (finite inputs) is not used: the two results are equal for all inputs.

  The three frames: the two kernel programs' are the generated frame certificates; the reference's is its run with the
  result dropped. The kernel's idealization rewrote nothing, so there is nothing to preserve.
-/
import proofs.«145982_j28741921145431_2_alg».proof.Defs
import proofs.«145982_j28741921145431_2_alg».proof.Proof.Gen.Kernel
import proofs.«145982_j28741921145431_2_alg».proof.Proof.Gen.Kernel.Frame
import proofs.«145982_j28741921145431_2_alg».proof.Proof.Gen.KernelIdeal
import proofs.«145982_j28741921145431_2_alg».proof.Proof.Gen.KernelIdeal.Frame
import proofs.«145982_j28741921145431_2_alg».proof.Proof.Gen.ReferenceIdeal
import proofs.«145982_j28741921145431_2_alg».proof.Proof.Gen.Pre_finite_inputs
import proofs.«145982_j28741921145431_2_alg».proof.Proof.KTotal
import proofs.«145982_j28741921145431_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, with the result dropped. -/
theorem frame_ri : Cert.frame_ReferenceIdeal := fun m ρ _ =>
  (θ_run Cert.ReferenceIdeal.defs _ _).mono (fun _ h c => (h c).2) (Cert.ReferenceIdeal.RefValue.run m ρ)

theorem preserves : Cert.preserves_Kernel_KernelIdeal := trivial

/-- From memories that agree on the two arguments both programs end with the sum of the row losses of those
    arguments in their result. -/
theorem algebraic : Cert.algebraic_KernelIdeal_ReferenceIdeal := by
  intro m ρ m' ρ' _ hagree
  refine ⟨_, Cert.KernelIdeal.KValue.run_total m ρ, ?_⟩
  refine (θ_run Cert.ReferenceIdeal.defs _ _).mono (fun _ h c => ⟨(h c).1.trans ?_, (h c).2⟩)
    (Cert.ReferenceIdeal.RefValue.run m' ρ')
  rw [(hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
